-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x2048x64 : Shape := ⟨3, ![2048, 2048, 64]⟩
abbrev S1x64 : Shape := ⟨2, ![1, 64]⟩
abbrev S1 : Shape := ⟨1, ![1]⟩
abbrev S64x256 : Shape := ⟨2, ![64, 256]⟩
abbrev S64 : Shape := ⟨1, ![64]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x2048x64 : S_.BroadcastsInDim S2048x2048x64 (![] : Fin 0 → Fin S2048x2048x64.rank)
  reducesTo_S2048x2048x64_S_d0_1_2 : S2048x2048x64.ReducesTo [0, 1, 2] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x256 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x256 .f32) (main_arg5 : FVec F S64 .f32) (main_arg6 : FVec F S64x256 .f32) (main_arg7 : FVec F S64 .f32) (main_arg8 : FVec F S64x256 .f32) (main_arg9 : FVec F S64 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x256 .f32) (main_arg1 : FVec F S2048x2048x64 .f32) (main_arg2 : FVec F S1x64 .f32) (main_arg3 : FVec F S1 .f32) (main_arg4 : FVec F S64x256 .f32) (main_arg5 : FVec F S64 .f32) (main_arg6 : FVec F S64x256 .f32) (main_arg7 : FVec F S64 .f32) (main_arg8 : FVec F S64x256 .f32) (main_arg9 : FVec F S64 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x2048x64 .f32 := Host.absf main_arg1
  let main_cst_0 : FVec F S_ .f32 := constant S_ .f32 0x7F800000#32
  let main_v5 : FVec F S2048x2048x64 .f32 := broadcastInDim S2048x2048x64 ![] bcast_S_S2048x2048x64 main_cst_0
  let main_v6 : IVec S2048x2048x64 1 := cmpf .olt main_v4 main_v5
  let main_c_1 : IVec S_ 1 := constantI S_ 1 1#1
  let main_v7 : IVec S_ 1 := (fun x v => Host.reduce IntOp.andi x v reducesTo_S2048x2048x64_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_arg6 main_arg7 main_arg8 main_arg9 main_v13 main_v16
-- ==== Kernel.lean ====
abbrev S2048x256 : Shape := ⟨2, ![2048, 256]⟩
abbrev S2048x2048x64 : Shape := ⟨3, ![2048, 2048, 64]⟩
abbrev S1x64 : Shape := ⟨2, ![1, 64]⟩
abbrev S1 : Shape := ⟨1, ![1]⟩
abbrev S64x256 : Shape := ⟨2, ![64, 256]⟩
abbrev S64 : Shape := ⟨1, ![64]⟩
abbrev S2048x64 : Shape := ⟨2, ![2048, 64]⟩
abbrev S256x256 : Shape := ⟨2, ![256, 256]⟩
abbrev S128x256 : Shape := ⟨2, ![128, 256]⟩
abbrev S256x128x64 : Shape := ⟨3, ![256, 128, 64]⟩
abbrev S256x64 : Shape := ⟨2, ![256, 64]⟩
abbrev S256x1 : Shape := ⟨2, ![256, 1]⟩
abbrev S256x128 : Shape := ⟨2, ![256, 128]⟩
abbrev S128x64 : Shape := ⟨2, ![128, 64]⟩
abbrev S1x1x64 : Shape := ⟨3, ![1, 1, 64]⟩
abbrev S32x128x64 : Shape := ⟨3, ![32, 128, 64]⟩
abbrev S32x128 : Shape := ⟨2, ![32, 128]⟩
abbrev S1x1 : Shape := ⟨2, ![1, 1]⟩
abbrev S64x128 : Shape := ⟨2, ![64, 128]⟩
abbrev S256 : Shape := ⟨1, ![256]⟩

abbrev nBuf : Space → Nat
  | .hbm => 11
  | .vmem => 21
  | .smem => 0
  | _ => 0

abbrev bufTy : (tb : Table) → Fin (tcTables nBuf tb) → BufTy
  | .hbm, ⟨0, _⟩ => ⟨S2048x256, .f32⟩
  | .hbm, ⟨1, _⟩ => ⟨S2048x2048x64, .f32⟩
  | .hbm, ⟨2, _⟩ => ⟨S1x64, .f32⟩
  | .hbm, ⟨3, _⟩ => ⟨S1, .f32⟩
  | .hbm, ⟨4, _⟩ => ⟨S64x256, .f32⟩
  | .hbm, ⟨5, _⟩ => ⟨S64, .f32⟩
  | .hbm, ⟨6, _⟩ => ⟨S64x256, .f32⟩
  | .hbm, ⟨7, _⟩ => ⟨S64, .f32⟩
  | .hbm, ⟨8, _⟩ => ⟨S64x256, .f32⟩
  | .hbm, ⟨9, _⟩ => ⟨S64, .f32⟩
  | .hbm, ⟨10, _⟩ => ⟨S2048x64, .f32⟩
  | .local _ .vmem, ⟨0, _⟩ => ⟨S256x256, .f32⟩
  | .local _ .vmem, ⟨1, _⟩ => ⟨S256x256, .f32⟩
  | .local _ .vmem, ⟨2, _⟩ => ⟨S128x256, .f32⟩
  | .local _ .vmem, ⟨3, _⟩ => ⟨S128x256, .f32⟩
  | .local _ .vmem, ⟨4, _⟩ => ⟨S256x128x64, .f32⟩
  | .local _ .vmem, ⟨5, _⟩ => ⟨S256x128x64, .f32⟩
  | .local _ .vmem, ⟨6, _⟩ => ⟨S1x64, .f32⟩
  | .local _ .vmem, ⟨7, _⟩ => ⟨S1, .f32⟩
  | .local _ .vmem, ⟨8, _⟩ => ⟨S64x256, .f32⟩
  | .local _ .vmem, ⟨9, _⟩ => ⟨S64, .f32⟩
  | .local _ .vmem, ⟨10, _⟩ => ⟨S64x256, .f32⟩
  | .local _ .vmem, ⟨11, _⟩ => ⟨S64, .f32⟩
  | .local _ .vmem, ⟨12, _⟩ => ⟨S64x256, .f32⟩
  | .local _ .vmem, ⟨13, _⟩ => ⟨S64, .f32⟩
  | .local _ .vmem, ⟨14, _⟩ => ⟨S256x64, .f32⟩
  | .local _ .vmem, ⟨15, _⟩ => ⟨S256x64, .f32⟩
  | .local _ .vmem, ⟨16, _⟩ => ⟨S256x1, .f32⟩
  | .local _ .vmem, ⟨17, _⟩ => ⟨S256x1, .f32⟩
  | .local _ .vmem, ⟨18, _⟩ => ⟨S256x64, .f32⟩
  | .local _ .vmem, ⟨19, _⟩ => ⟨S256x64, .f32⟩
  | .local _ .vmem, ⟨20, _⟩ => ⟨S256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v183 : BitVec 1 := Scalar.cmpi .eq arg1 c15_i32
  let v184 : BitVec 32 := Scalar.extui v183
  let c0_i32_90 : BitVec 32 := 0#32
  let v185 : BitVec 1 := Scalar.cmpi .ne v184 c0_i32_90
  v185

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S128x256_S128x256_0_0 : ∀ a, (![0, 0] : Fin 2 → Nat) a + S128x256.size a ≤ S128x256.size a
  h_S128x256 : 0 < S128x256.numel
  broadcasts_S1x64_S128x64 : S1x64.Broadcasts S128x64
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  inb_S1_S1_0 : ∀ a, (![0] : Fin 1 → Nat) a + S1.size a ≤ S1.size a
  h_S1 : 0 < S1.numel
  inb_S256x128x64_S32x128x64_0_0_0 : ∀ a, (![0, 0, 0] : Fin 3 → Nat) a + S32x128x64.size a ≤ S256x128x64.size a
  h_S32x128x64 : 0 < S32x128x64.numel
  broadcasts_S1x1x64_S32x128x64 : S1x1x64.Broadcasts S32x128x64
  reduces_S32x128x64_S32x128 : S32x128x64.Reduces [2] S32x128
  shapeCasts_S1_S1x1 : S1.ShapeCasts S1x1
  broadcasts_S1x1_S32x128 : S1x1.Broadcasts S32x128
  inb_S256x128_S32x128_0_0 : ∀ a, (![0, 0] : Fin 2 → Nat) a + S32x128.size a ≤ S256x128.size a
  h_S32x128 : 0 < S32x128.numel
  shapeCasts_S32x128_S32x128 : S32x128.ShapeCasts S32x128
  inb_S256x128x64_S32x128x64_32_0_0 : ∀ a, (![32, 0, 0] : Fin 3 → Nat) a + S32x128x64.size a ≤ S256x128x64.size a
  inb_S256x128_S32x128_32_0 : ∀ a, (![32, 0] : Fin 2 → Nat) a + S32x128.size a ≤ S256x128.size a
  inb_S256x128x64_S32x128x64_64_0_0 : ∀ a, (![64, 0, 0] : Fin 3 → Nat) a + S32x128x64.size a ≤ S256x128x64.size a
  inb_S256x128_S32x128_64_0 : ∀ a, (![64, 0] : Fin 2 → Nat) a + S32x128.size a ≤ S256x128.size a
  inb_S256x128x64_S32x128x64_96_0_0 : ∀ a, (![96, 0, 0] : Fin 3 → Nat) a + S32x128x64.size a ≤ S256x128x64.size a
  inb_S256x128_S32x128_96_0 : ∀ a, (![96, 0] : Fin 2 → Nat) a + S32x128.size a ≤ S256x128.size a
  inb_S256x128x64_S32x128x64_128_0_0 : ∀ a, (![128, 0, 0] : Fin 3 → Nat) a + S32x128x64.size a ≤ S256x128x64.size a
  inb_S256x128_S32x128_128_0 : ∀ a, (![128, 0] : Fin 2 → Nat) a + S32x128.size a ≤ S256x128.size a
  inb_S256x128x64_S32x128x64_160_0_0 : ∀ a, (![160, 0, 0] : Fin 3 → Nat) a + S32x128x64.size a ≤ S256x128x64.size a
  inb_S256x128_S32x128_160_0 : ∀ a, (![160, 0] : Fin 2 → Nat) a + S32x128.size a ≤ S256x128.size a
  inb_S256x128x64_S32x128x64_192_0_0 : ∀ a, (![192, 0, 0] : Fin 3 → Nat) a + S32x128x64.size a ≤ S256x128x64.size a
  inb_S256x128_S32x128_192_0 : ∀ a, (![192, 0] : Fin 2 → Nat) a + S32x128.size a ≤ S256x128.size a
  inb_S256x128x64_S32x128x64_224_0_0 : ∀ a, (![224, 0, 0] : Fin 3 → Nat) a + S32x128x64.size a ≤ S256x128x64.size a
  inb_S256x128_S32x128_224_0 : ∀ a, (![224, 0] : Fin 2 → Nat) a + S32x128.size a ≤ S256x128.size a
  inb_S256x128_S256x128_0_0 : ∀ a, (![0, 0] : Fin 2 → Nat) a + S256x128.size a ≤ S256x128.size a
  h_S256x128 : 0 < S256x128.numel
  transposes_S128x64_p1_0_S64x128 : S128x64.Transposes [1, 0] S64x128
  reduces_S256x128_S256 : S256x128.Reduces [1] S256
  shapeCasts_S256_S256x1 : S256.ShapeCasts S256x1
  broadcasts_S256x1_S256x128 : S256x1.Broadcasts S256x128
  broadcasts_S256x1_S256x64 : S256x1.Broadcasts S256x64
  dot_S256x256_S256x64_S256x64_1_0_0_1_n_n_wf : DotDims.WF S256x256 S256x64 S256x64 [1] [0] [0] [1] [] []
  dot_S128x256_S256x64_S128x64_1_0_0_1_n_n_wf : DotDims.WF S128x256 S256x64 S128x64 [1] [0] [0] [1] [] []
  dot_S256x64_S64x128_S256x128_1_0_0_1_n_n_wf : DotDims.WF S256x64 S64x128 S256x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S2048x256.size a
  hwx0_1 : ∀ i : grid0.Coords, EltTy.bits .f32 = 32 ∨ (Rect.block (s := S2048x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128x64.size a ≤ S2048x2048x64.size a
  hwx0_2 : ∀ i : grid0.Coords, EltTy.bits .f32 = 32 ∨ (Rect.block (s := S2048x2048x64) S256x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .f32 = 32 ∨ (Rect.block (s := S64x256) S64x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x64.size a ≤ S2048x64.size a
  hwx0_11 : ∀ i : grid0.Coords, EltTy.bits .f32 = 32 ∨ (Rect.block (s := S2048x64) S256x64.size (cc0_transform_11 i) (hinb0_11 i)).WholeWords (EltTy.packing .f32)

variable [Facts₀]

def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S256x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S2048x256 : Shape := ⟨2, ![2048, 256]⟩
abbrev S2048x2048x64 : Shape := ⟨3, ![2048, 2048, 64]⟩
abbrev S1x64 : Shape := ⟨2, ![1, 64]⟩
abbrev S1 : Shape := ⟨1, ![1]⟩
abbrev S64x256 : Shape := ⟨2, ![64, 256]⟩
abbrev S64 : Shape := ⟨1, ![64]⟩
abbrev S4194304x64 : Shape := ⟨2, ![4194304, 64]⟩
abbrev S64x1 : Shape := ⟨2, ![64, 1]⟩
abbrev S4194304x1 : Shape := ⟨2, ![4194304, 1]⟩
abbrev S1x1 : Shape := ⟨2, ![1, 1]⟩
abbrev S_ : Shape := ⟨0, ![]⟩
abbrev S2048x2048 : Shape := ⟨2, ![2048, 2048]⟩
abbrev S256x64 : Shape := ⟨2, ![256, 64]⟩
abbrev S2048x64 : Shape := ⟨2, ![2048, 64]⟩
abbrev S64x2048 : Shape := ⟨2, ![64, 2048]⟩
abbrev S2048 : Shape := ⟨1, ![2048]⟩
abbrev S2048x1 : Shape := ⟨2, ![2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048x64, .f32⟩
  | .hbm, ⟨2, _⟩ => ⟨S1x64, .f32⟩
  | .hbm, ⟨3, _⟩ => ⟨S1, .f32⟩
  | .hbm, ⟨4, _⟩ => ⟨S64x256, .f32⟩
  | .hbm, ⟨5, _⟩ => ⟨S64, .f32⟩
  | .hbm, ⟨6, _⟩ => ⟨S64x256, .f32⟩
  | .hbm, ⟨7, _⟩ => ⟨S64, .f32⟩
  | .hbm, ⟨8, _⟩ => ⟨S64x256, .f32⟩
  | .hbm, ⟨9, _⟩ => ⟨S64, .f32⟩
  | .hbm, ⟨10, _⟩ => ⟨S4194304x64, .f32⟩
  | .hbm, ⟨11, _⟩ => ⟨S64x1, .f32⟩
  | .hbm, ⟨12, _⟩ => ⟨S4194304x1, .f32⟩
  | .hbm, ⟨13, _⟩ => ⟨S1x1, .f32⟩
  | .hbm, ⟨14, _⟩ => ⟨S4194304x1, .f32⟩
  | .hbm, ⟨15, _⟩ => ⟨S4194304x1, .f32⟩
  | .hbm, ⟨16, _⟩ => ⟨S_, .f32⟩
  | .hbm, ⟨17, _⟩ => ⟨S4194304x1, .f32⟩
  | .hbm, ⟨18, _⟩ => ⟨S4194304x1, .f32⟩
  | .hbm, ⟨19, _⟩ => ⟨S2048x2048, .f32⟩
  | .hbm, ⟨20, _⟩ => ⟨S256x64, .f32⟩
  | .hbm, ⟨21, _⟩ => ⟨S2048x64, .f32⟩
  | .hbm, ⟨22, _⟩ => ⟨S1x64, .f32⟩
  | .hbm, ⟨23, _⟩ => ⟨S2048x64, .f32⟩
  | .hbm, ⟨24, _⟩ => ⟨S2048x64, .f32⟩
  | .hbm, ⟨25, _⟩ => ⟨S256x64, .f32⟩
  | .hbm, ⟨26, _⟩ => ⟨S2048x64, .f32⟩
  | .hbm, ⟨27, _⟩ => ⟨S1x64, .f32⟩
  | .hbm, ⟨28, _⟩ => ⟨S2048x64, .f32⟩
  | .hbm, ⟨29, _⟩ => ⟨S2048x64, .f32⟩
  | .hbm, ⟨30, _⟩ => ⟨S256x64, .f32⟩
  | .hbm, ⟨31, _⟩ => ⟨S2048x64, .f32⟩
  | .hbm, ⟨32, _⟩ => ⟨S1x64, .f32⟩
  | .hbm, ⟨33, _⟩ => ⟨S2048x64, .f32⟩
  | .hbm, ⟨34, _⟩ => ⟨S2048x64, .f32⟩
  | .hbm, ⟨35, _⟩ => ⟨S64x2048, .f32⟩
  | .hbm, ⟨36, _⟩ => ⟨S2048x2048, .f32⟩
  | .hbm, ⟨37, _⟩ => ⟨S_, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  shapeCasts_S2048x2048x64_S4194304x64 : S2048x2048x64.ShapeCasts S4194304x64
  transposes_S1x64_S64x1_1_0 : S1x64.Transposes [1, 0] S64x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  shapeCasts_S4194304x1_S2048x2048 : S4194304x1.ShapeCasts S2048x2048
  transposes_S64x256_S256x64_1_0 : S64x256.Transposes [1, 0] S256x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S2048x64_S64x2048_1_0 : S2048x64.Transposes [1, 0] S64x2048
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  dot_S4194304x64_S64x1_S4194304x1_1_0_0_1_n_n_wf : DotDims.WF S4194304x64 S64x1 S4194304x1 [1] [0] [0] [1] [] []
  dot_S2048x256_S256x64_S2048x64_1_0_0_1_n_n_wf : DotDims.WF S2048x256 S256x64 S2048x64 [1] [0] [0] [1] [] []
  dot_S2048x64_S64x2048_S2048x2048_1_0_0_1_n_n_wf : DotDims.WF S2048x64 S64x2048 S2048x2048 [1] [0] [0] [1] [] []
  dot_S2048x2048_S2048x64_S2048x64_1_0_0_1_n_n_wf : DotDims.WF S2048x2048 S2048x64 S2048x64 [1] [0] [0] [1] [] []

variable [Facts₀]

def dot_S4194304x64_S64x1_S4194304x1_1_0_0_1_n_n : DotDims S4194304x64 S64x1 S4194304x1 where
  lhsContracting := [1]
  rhsContracting := [0]
  lhsNonContracting := [0]
  rhsNonContracting := [1]
  lhsBatch := []
  rhsBatch := []
  wf := dot_S4194304x64_S64x1_S4194304x1_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

class Facts : Prop extends Facts₀ where

variable [Facts]
-- ==== Proof.LibSharedTrack.lean ====
/-
  The frame run of a pipelined kernel whose input windows may read one array through several windows,
  when the body CARRIES values between grid points in buffers of its own.

  The region's invariant is then not one proposition but one per point: before point `t` the carried
  buffers hold what point `t - 1` left in them.  The run is the same as with a fixed invariant, given that
  the buffers the kernel owns and the pipeline does not stage, held at anything, yield the invariant before
  the first point (`hin`), and that the invariant after the last point yields them back (`hout`).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}

namespace Pipeline

section SharedTrack

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when input windows share arrays and the invariant varies with the point: `hsplit` deals the
    buffers behind the arrays to the windows; `hin` and `hout` tie the invariant at the two ends to the scoped
    buffers that are no staging buffer, held at anything. -/
theorem θ_run_frame_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfg).spec c (V c) ⊢ (dats p c).arrays ((dats p c).arrAt · 0))
    (hin : ∀ c, scopedRest (Ix := Unit) (Name := ℕ) (U := UR sig nD τ) (Lvl := ℕ) (Val := Val) (cfg).spec c ⊢ (dats p c).Φ 0)
    (hout : ∀ c, (dats p c).Φ (Fin.last (cfg).N) ⊢
      scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr; · iempintro
      iexact H)
    (hin := fun c => (show iprop(emp ∗ scopedRest (Ix := Unit) (Name := ℕ) (U := UR sig nD τ) (Lvl := ℕ) (Val := Val) (cfg).spec c)
        ⊢ scopedRest (Ix := Unit) (Name := ℕ) (U := UR sig nD τ) (Lvl := ℕ) (Val := Val) (cfg).spec c from by
          iintro ⟨-, H⟩; iexact H).trans (hin c))
    (hout := fun c => (hout c).trans (by
      iintro H
      isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedTrack

end Pipeline

end Idealize.ShloMosaic

end
-- ==== Proof.KFrameDefs.lean ====
/-
  What the three runs of the attention kernel's body share.

  The grid is 8 row tiles by 16 column tiles, walked row tile by row tile: point `t` is row tile `t / 16`,
  column tile `t % 16`.  The body resets its running maximum, normaliser, weighted sum and cached key block at
  the first column tile of a row tile (`t % 16 = 0`), and writes the normalised result at the last one
  (`t % 16 = 15`); so there are three cases — first, middle, last column tile — and four buffers carried from
  one point to the next inside a row tile.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.LibSharedTrack
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- @main is the region alone, so the region finds every buffer as the launch memory has it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- The first column tile of a row tile: the body's reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row tile: the body's normalised store. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Away from the last column tile the body stores nothing into the result's buffer, and the pipeline does not write it back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x64 .f32 := win0_11.stage (cfg0.slots t 11)
abbrev hs0_11 (t : Fin cfg0.N) : (ms0_11 t).IsWhole := hstage0_11 ((cfg0.slots t 11).cast nbuf0_11)
abbrev scM0_0 : Memref sig .tc .vmem S256x1 .f32 := Memref.whole cc0_scratch0
abbrev VS0_0 : View sig .tc .vmem S256x1 .f32 := scM0_0.view
abbrev scM0_1 : Memref sig .tc .vmem S256x1 .f32 := Memref.whole cc0_scratch1
abbrev VS0_1 : View sig .tc .vmem S256x1 .f32 := scM0_1.view
abbrev scM0_2 : Memref sig .tc .vmem S256x64 .f32 := Memref.whole cc0_scratch2
abbrev VS0_2 : View sig .tc .vmem S256x64 .f32 := scM0_2.view
abbrev scM0_3 : Memref sig .tc .vmem S256x64 .f32 := Memref.whole cc0_scratch3
abbrev VS0_3 : View sig .tc .vmem S256x64 .f32 := scM0_3.view
abbrev scM0_4 : Memref sig .tc .vmem S256x128 .f32 := Memref.whole cc0_scratch4
abbrev VS0_4 : View sig .tc .vmem S256x128 .f32 := scM0_4.view
/-- One staging buffer of the result window, through which its contents are stated. -/
abbrev VO0_11 : View sig .tc .vmem S256x64 .f32 := (Memref.whole cc0_stg11_0 : Memref sig .tc .vmem S256x64 .f32).view

/-- The scoped buffers that are no staging buffer are the five scratch operands, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) := by
  rw [scopedRest0_eq]; simp only [scM0_0, scM0_1, scM0_2, scM0_3, scM0_4, owns_whole]; try rfl

/-! ## Each input's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KRunA.lean ====
/-
  The body's run at the first column tile of a row tile: the running maximum, normaliser, weighted sum and cached key block are reset before the tile is folded in; the result's buffer is left as it was.
  What each buffer ends with is found by the run as a list of written pieces, last first.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KFrameDefs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at contents handed back untouched, every buffer of the kernel's own at anything — runs to the continuation holding
    the inputs as they were and each written buffer with its pieces written. -/
noncomputable def kernelRun0_A (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (xi11 : Vec F S256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, fun xi11 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.KRunB.lean ====
/-
  The body's run at a middle column tile: the tile is folded into the state the point before left; the cached key block and the result's buffer are left as they were.
  What each buffer ends with is found by the run as a list of written pieces, last first.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KRunA
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at contents handed back untouched, the four carried buffers at what the point before left, the bias buffer at anything — runs to the continuation holding
    the inputs as they were and each written buffer with its pieces written (the cached key block, which only the first column tile writes, as it was). -/
noncomputable def kernelRun0_B (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (xi11 : Vec F S256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, [], ?_, fun xi11 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.Kernel.Hand

end
-- ==== Proof.KRunC.lean ====
/-
  The body's run at the last column tile of a row tile: the tile is folded in and the weighted sum divided by the normaliser is stored into the result's buffer; the cached key block is left as it was.
  What each buffer ends with is found by the run as a list of written pieces, last first.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KRunB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at anything, the four carried buffers at what the point before left, the bias buffer at anything — runs to the continuation holding
    the inputs as they were and each written buffer with its pieces written (the cached key block, which only the first column tile writes, as it was). -/
noncomputable def kernelRun0_C (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.Kernel.Hand

end
-- ==== Proof.KFrameData.lean ====
/-
  What the attention kernel's body leaves, case by case and point by point, and the proof data of its pipeline.

  After point `t` the four carried buffers hold the running maximum, the running normaliser, the running weighted
  sum of the row tile's rows over the column tiles `0 … t % 16`, and the row tile's key block; the result's buffer
  holds the normalised weighted sum after the last column tile.  `outsAt0` states these by recursion on the point:
  the first column tile starts afresh, every other one continues from what the point before left.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KRunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the pieces the run found, read back -/

/-- What case A leaves in the result's buffer and in the four carried buffers: the run's pieces read back over junk. -/
def res0_A (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1),
   VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1),
   VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1),
   VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1))

theorem cover0_A_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1 S256x1.size (by sl_kernel_rfl) y

theorem cover0_A_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1 S256x1.size (by sl_kernel_rfl) y

theorem cover0_A_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 S256x64.size (by sl_kernel_rfl) y

theorem cover0_A_4 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1 S256x64.size (by sl_kernel_rfl) y

/-- What case B leaves in the result's buffer and in the four carried buffers: the run's pieces read back over junk; the cached key block is the one it found. -/
def res0_B (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1),
   VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1),
   VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1),
   xs3)

theorem cover0_B_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1 S256x1.size (by sl_kernel_rfl) y

theorem cover0_B_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1 S256x1.size (by sl_kernel_rfl) y

theorem cover0_B_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1 S256x64.size (by sl_kernel_rfl) y

/-- What case C leaves in the result's buffer and in the four carried buffers: the run's pieces read back over junk; the cached key block is the one it found. -/
def res0_C (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1),
   VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1),
   xs3)

theorem cover0_C_0 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1 S256x64.size (by sl_kernel_rfl) y

theorem cover0_C_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1 S256x1.size (by sl_kernel_rfl) y

theorem cover0_C_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1 S256x1.size (by sl_kernel_rfl) y

theorem cover0_C_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1 S256x64.size (by sl_kernel_rfl) y

/-! ## What the buffers hold after each point -/

/-- After the body at position `n`: the result's buffer, then the running maximum, normaliser, weighted sum and the
    cached key block.  The first column tile of a row tile starts afresh; the others continue from position `n - 1`. -/
def outsAt0 (c : Dev nD) : (n : ℕ) → n < cfg0.N → Vec F S256x64 .f32 × Vec F S256x1 .f32 × Vec F S256x1 .f32 × Vec F S256x64 .f32 × Vec F S256x64 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)
  | n + 1, hn =>
    if h0 : (n + 1) % 16 = 0 then
      if h1 : (n + 1) % 16 = 15 then
        False.elim (by omega)
      else
        res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩)
    else
      if h1 : (n + 1) % 16 = 15 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 16 = 0) (h1 : ¬t.val % 16 = 15) :
    outsAt0 m c t.val t.isLt = res0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = res0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = res0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the kernel's own buffers hold anything; before any other point the four carried buffers
    hold what the point before left, and the bias buffer, which every point fills before reading, anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2) ∗ (∃ d, owns (c : Thread nD τ) scM0_4 fullShare d)) := by
  cases n with
  | zero => exact absurd rfl hz
  | succ n => rfl

/-! ## The pipeline's proof data -/

/-- The arrays as the region finds them; after the body each input's buffer at its block and the result's at
    `outsAt0`'s first component; the invariant `PhiS`; the features array, read through two windows, held half and
    half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.Kernel.Hand

end
-- ==== Proof.KFrameBody.lean ====
/-
  The body obligation of the attention kernel's pipeline at every grid point, and the two ends of its invariant.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KFrameData
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- At any point the inputs' buffers hold their blocks; the point's column tile says which case it is in; the
    invariant hands the body the carried buffers at what the point before left (at anything before the first point,
    and the first column tile of a row tile ignores them), and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h1 ((hcond0_1 t).mp h))) (noFlush0_11 t (fun h => h1 ((hcond0_1 t).mp h)))]
      rw [outsAt0_A m c t h0 h1]
      unfold res0_A; (try dsimp only)
      by_cases hz : t.val = 0
      · rw [PhiS_castSucc m c t, PhiS_zero m c _ _ hz, scoped0_eq]
        iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%es0, HS0⟩, ⟨%es1, HS1⟩, ⟨%es2, HS2⟩, ⟨%es3, HS3⟩, ⟨%es4, HS4⟩⟩
        isplitl [HS0 HS1 HS2 HS3 HS4]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [PhiS_castSucc m c t, PhiS_pos m c _ _ hz]
        iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, H8, H9, H10, H11, ⟨%es0, HS0⟩, ⟨%es1, HS1⟩, ⟨%es2, HS2⟩, ⟨%es3, HS3⟩, ⟨%es4, HS4⟩⟩
        isplitl [HS0 HS1 HS2 HS3 HS4]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun hz => h0 (by rw [hz])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold res0_C; (try dsimp only)
      rw [PhiS_castSucc m c t, PhiS_pos m c _ _ hz]
      iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, ⟨%e11, H11⟩, ⟨%es0, HS0⟩, ⟨%es1, HS1⟩, ⟨%es2, HS2⟩, HS3, ⟨%es4, HS4⟩⟩
      isplitl [HS0 HS1 HS2 HS3 HS4]
      · isplitl [HS0]
        · unfold owns; iexists _; isplitr
          swap; · iexact HS0
          ipureintro; exact View.read_writes_of_cover _ _ _ _ _ (cover0_C_1 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover0_C_2 c _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (cover0_C_3 c _ _ _ _ _ _ _ _ _ _ _ _ _ _ _ _ _ _ _ _ _ _ _ _ _ _ _ _ _ _ _ _ _ _ _ _ _ _ _ _ _ _ _ _ _ _ _ _ _ _ _ _)
        isplitl [HS3]; · iexact HS3
        iexists _; unfold owns; iexists _; isplitr
        swap; · iexact HS4
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_0 c _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h1 ((hcond0_1 t).mp h))) (noFlush0_11 t (fun h => h1 ((hcond0_1 t).mp h)))]
      rw [outsAt0_B m c t h0 h1]
      unfold res0_B; (try dsimp only)
      rw [PhiS_castSucc m c t, PhiS_pos m c _ _ hz]
      iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, ⟨%es0, HS0⟩, ⟨%es1, HS1⟩, ⟨%es2, HS2⟩, HS3, ⟨%es4, HS4⟩⟩
      isplitl [HS0 HS1 HS2 HS3 HS4]
      · isplitl [HS0]
        · unfold owns; iexists _; isplitr
          swap; · iexact HS0
          ipureintro; exact View.read_writes_of_cover _ _ _ _ _ (cover0_B_1 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover0_B_2 c _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (cover0_B_3 c _ _ _ _ _ _ _ _ _ _ _ _ _ _ _ _ _ _ _ _ _ _ _ _ _ _ _ _ _ _ _ _ _ _ _ _ _ _ _ _ _ _ _ _ _ _ _ _ _ _ _ _)
        isplitl [HS3]; · iexact HS3
        iexists _; unfold owns; iexists _; isplitr
        swap; · iexact HS4
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The ends of the invariant -/

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the kernel's own buffers back at some contents. -/
theorem Phi_out (c : Dev nD) (t : Fin (cfg0.N + 1)) (ht : t.val ≠ 0) :
    (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scoped0_eq]
  iintro ⟨HS0, HS1, HS2, HS3, HS4⟩
  isplitl [HS0]; · iexists _; iexact HS0
  isplitl [HS1]; · iexists _; iexact HS1
  isplitl [HS2]; · iexists _; iexact HS2
  isplitl [HS3]; · iexists _; iexact HS3
  iexact HS4

theorem hout (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 128 := N_0; omega)

end Cert.Kernel.Hand

end
-- ==== Proof.LibSharedFrame.lean ====
/-
  The frame run of a pipelined kernel whose INPUT windows may read ONE array through several windows
  (one weight matrix handed to the kernel twice, each window addressing another band of its columns).

  Such a kernel's arrays are not pairwise distinct buffers, so the array's single full share cannot be
  given to each window on it: it is split, and each input window holds its part.  Reading needs only a
  part, and nothing is written through an input window, so the run is otherwise the one of a kernel
  with distinct arrays:

  * `split_two` — a whole buffer held outright is the same buffer held twice, at the left and at the
    right half of the share, with the same contents: what two input windows on one array hold;
  * `θ_run_frame_shared` — from the proof data, the body obligation at every grid point, the host
    operations before the region, and the statement `hsplit` of how the distinct buffers behind the
    arrays make up the windows' holdings at entry, every weakly fair execution terminates in a state
    where every window's array holds what the write-backs computed (`Dat.arrAt … N`: an input array its
    entry contents) and every other unscoped buffer holds what it held at the region's entry.  The
    region's invariant is the scoped buffers that are no staging buffer; the body is given nothing else.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}

namespace Pipeline

section SharedFrame

variable {Λ₀ : SL.Sem.Labels} {P : Type} [Fintype P] [DecidableEq P] [∀ e, Nonempty (Val e)]

local notation "𝕄" => MT nD τ sig Unit Val ℕ (UR sig nD τ) ℕ

/-- A buffer held whole at the full share is the same buffer held at the two halves of the share. -/
theorem split_two {ℓ : Loc nD τ sig} (I : Finset (Idx ℓ)) (f : Buf Val ℓ) :
    (ℓ ↦[I]{fullShare} f : sProp 𝕄) ⊢ iprop((ℓ ↦[I]{fullShare.left} f) ∗ ℓ ↦[I]{fullShare.right} f) :=
  (pointsTo_share (PosShare.mem_left_op_right fullShare)).1

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when input windows share arrays: `hsplit` says how the buffers behind the arrays,
    each whole at its entry contents, are dealt to the windows at the shares the proof data names. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfg).spec c (V c) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr; · iempintro
      iexact H)
    (hin := fun c => by
      rw [hΦ]; iintro ⟨-, H⟩; iexact H)
    (hout := fun c => by
      rw [hΦ]; iintro H
      isplitr; · iempintro
      iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedFrame

end Pipeline

end Idealize.ShloMosaic

end
-- ==== Proof.KFrameRun.lean ====
/-
  The run of the attention kernel: the features array, which two windows read, is held half and half; every other
  array is held by its one window.  From the body obligation and the two ends of the invariant every weakly fair
  execution terminates with each array at what the write-backs computed; the argument arrays are inputs, so they
  end as they began.
-/
import proofs.«101895_j70987219469020_2_alg».proof.Proof.Gen.Kernel.Launch
import proofs.«101895_j70987219469020_2_alg».proof.Proof.Gen.Kernel.Skeleton
import proofs.«101895_j70987219469020_2_alg».proof.Proof.Gen.Kernel.Points
import Idealize.ShloMosaic.Lib.Pipeline.FrameBody
import Idealize.ShloMosaic.Lib.Ring
import Idealize.ShloMosaic.Lib.Tactic
import proofs.«101895_j70987219469020_2_alg».proof.Proof.KFrameBody
import proofs.«101895_j70987219469020_2_alg».proof.Proof.LibSharedFrame
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: the ten arguments and the result. -/
theorem arrBufs0_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_v0) ↦{fullShare} V m c main_v0)) := by
  unfold Pipeline.arrBufs
  rw [show Finset.univ.image (Pipeline.arrRef spec0) = ({main_arg0, main_arg1, main_arg2, main_arg3, main_arg4, main_arg5, main_arg6, main_arg7, main_arg8, main_arg9, main_v0} : Finset (Ref sig .tc)) from by decide]
  rw [bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

set_option maxHeartbeats 1000000 in
/-- Each whole, they make the windows' holdings: the features array is split in two halves for the row-tile window
    and the column-tile window. -/
theorem hsplit (c : Dev nD) :
    Pipeline.arrBufs (Ix := Unit) (Name := ℕ) (U := UR sig nD τ) (Lvl := ℕ) spec0 c (V m c) ⊢ (dats m 0 c).arrays ((dats m 0 c).arrAt · 0) := by
  rw [arrBufs0_eq]
  unfold Dat.arrays
  rw [bigSep_W0]
  have hs0 : (dats m 0 c).share (0 : Fin 12) = fullShare.left := rfl
  have hv0 : (cfg0.win (0 : Fin 12)).arr.view.set = Finset.univ := (arr_whole0 0).set_eq_univ
  have hs1 : (dats m 0 c).share (1 : Fin 12) = fullShare.right := rfl
  have hv1 : (cfg0.win (1 : Fin 12)).arr.view.set = Finset.univ := (arr_whole0 1).set_eq_univ
  have hs2 : (dats m 0 c).share (2 : Fin 12) = fullShare := rfl
  have hv2 : (cfg0.win (2 : Fin 12)).arr.view.set = Finset.univ := (arr_whole0 2).set_eq_univ
  have hs3 : (dats m 0 c).share (3 : Fin 12) = fullShare := rfl
  have hv3 : (cfg0.win (3 : Fin 12)).arr.view.set = Finset.univ := (arr_whole0 3).set_eq_univ
  have hs4 : (dats m 0 c).share (4 : Fin 12) = fullShare := rfl
  have hv4 : (cfg0.win (4 : Fin 12)).arr.view.set = Finset.univ := (arr_whole0 4).set_eq_univ
  have hs5 : (dats m 0 c).share (5 : Fin 12) = fullShare := rfl
  have hv5 : (cfg0.win (5 : Fin 12)).arr.view.set = Finset.univ := (arr_whole0 5).set_eq_univ
  have hs6 : (dats m 0 c).share (6 : Fin 12) = fullShare := rfl
  have hv6 : (cfg0.win (6 : Fin 12)).arr.view.set = Finset.univ := (arr_whole0 6).set_eq_univ
  have hs7 : (dats m 0 c).share (7 : Fin 12) = fullShare := rfl
  have hv7 : (cfg0.win (7 : Fin 12)).arr.view.set = Finset.univ := (arr_whole0 7).set_eq_univ
  have hs8 : (dats m 0 c).share (8 : Fin 12) = fullShare := rfl
  have hv8 : (cfg0.win (8 : Fin 12)).arr.view.set = Finset.univ := (arr_whole0 8).set_eq_univ
  have hs9 : (dats m 0 c).share (9 : Fin 12) = fullShare := rfl
  have hv9 : (cfg0.win (9 : Fin 12)).arr.view.set = Finset.univ := (arr_whole0 9).set_eq_univ
  have hs10 : (dats m 0 c).share (10 : Fin 12) = fullShare := rfl
  have hv10 : (cfg0.win (10 : Fin 12)).arr.view.set = Finset.univ := (arr_whole0 10).set_eq_univ
  have hs11 : (dats m 0 c).share (11 : Fin 12) = fullShare := rfl
  have hv11 : (cfg0.win (11 : Fin 12)).arr.view.set = Finset.univ := (arr_whole0 11).set_eq_univ
  simp only [hs0, hv0, hs1, hv1, hs2, hv2, hs3, hv3, hs4, hv4, hs5, hv5, hs6, hv6, hs7, hv7, hs8, hv8, hs9, hv9, hs10, hv10, hs11, hv11]
  iintro ⟨H0, H1, H2, H3, H4, H5, H6, H7, H8, H9, H10⟩
  ihave H0' := (Pipeline.split_two _ _) $$ H0
  icases H0' with ⟨HL, HR⟩
  isplitl [HL]; · iexact HL
  isplitl [HR]; · iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every weakly fair execution of @main terminates, each array of the pipeline at what the library computes from the
    proof data and every other unscoped buffer as it was. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0
    m ρ main (hbody := fun c => (body_obligation m c).loose) (howed := fun _ _ => rfl) (V := V m)
    (hmain := Pipeline.hmain_region cfgs 0 defs₀ Variants.none m main (fun _ => rfl))
    (hsplit := hsplit m) (hin := hin m) (hout := hout m)

/-- The frame: the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans (A_eq m c 0)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10))⟩) (run_main m ρ)

end Cert.Kernel.Hand

end
-- ==== Proof.FrameDefs.lean ====
/-
  What the three runs of the attention kernel's body share.

  The grid is 8 row tiles by 16 column tiles, walked row tile by row tile: point `t` is row tile `t / 16`,
  column tile `t % 16`.  The body resets its running maximum, normaliser, weighted sum and cached key block at
  the first column tile of a row tile (`t % 16 = 0`), and writes the normalised result at the last one
  (`t % 16 = 15`); so there are three cases — first, middle, last column tile — and four buffers carried from
  one point to the next inside a row tile.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.LibSharedTrack
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- @main is the region alone, so the region finds every buffer as the launch memory has it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions -/

/-- The first column tile of a row tile: the body's reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row tile: the body's normalised store. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Away from the last column tile the body stores nothing into the result's buffer, and the pipeline does not write it back. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel

/-! ## The memrefs the body is called with -/

abbrev ms0_0 (t : Fin cfg0.N) : Memref sig .tc .vmem S256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x64 .f32 := win0_11.stage (cfg0.slots t 11)
abbrev hs0_11 (t : Fin cfg0.N) : (ms0_11 t).IsWhole := hstage0_11 ((cfg0.slots t 11).cast nbuf0_11)
abbrev scM0_0 : Memref sig .tc .vmem S256x1 .f32 := Memref.whole cc0_scratch0
abbrev VS0_0 : View sig .tc .vmem S256x1 .f32 := scM0_0.view
abbrev scM0_1 : Memref sig .tc .vmem S256x1 .f32 := Memref.whole cc0_scratch1
abbrev VS0_1 : View sig .tc .vmem S256x1 .f32 := scM0_1.view
abbrev scM0_2 : Memref sig .tc .vmem S256x64 .f32 := Memref.whole cc0_scratch2
abbrev VS0_2 : View sig .tc .vmem S256x64 .f32 := scM0_2.view
abbrev scM0_3 : Memref sig .tc .vmem S256x64 .f32 := Memref.whole cc0_scratch3
abbrev VS0_3 : View sig .tc .vmem S256x64 .f32 := scM0_3.view
abbrev scM0_4 : Memref sig .tc .vmem S256x128 .f32 := Memref.whole cc0_scratch4
abbrev VS0_4 : View sig .tc .vmem S256x128 .f32 := scM0_4.view
/-- One staging buffer of the result window, through which its contents are stated. -/
abbrev VO0_11 : View sig .tc .vmem S256x64 .f32 := (Memref.whole cc0_stg11_0 : Memref sig .tc .vmem S256x64 .f32).view

/-- The scoped buffers that are no staging buffer are the five scratch operands, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) := by
  rw [scopedRest0_eq]; simp only [scM0_0, scM0_1, scM0_2, scM0_3, scM0_4, owns_whole]; try rfl

/-! ## Each input's buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.RunA.lean ====
/-
  The body's run at the first column tile of a row tile: the running maximum, normaliser, weighted sum and cached key block are reset before the tile is folded in; the result's buffer is left as it was.
  What each buffer ends with is found by the run as a list of written pieces, last first.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.FrameDefs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at contents handed back untouched, every buffer of the kernel's own at anything — runs to the continuation holding
    the inputs as they were and each written buffer with its pieces written. -/
noncomputable def kernelRun0_A (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (xi11 : Vec F S256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, ?_, ?_, fun xi11 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.RunB.lean ====
/-
  The body's run at a middle column tile: the tile is folded into the state the point before left; the cached key block and the result's buffer are left as they were.
  What each buffer ends with is found by the run as a list of written pieces, last first.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at contents handed back untouched, the four carried buffers at what the point before left, the bias buffer at anything — runs to the continuation holding
    the inputs as they were and each written buffer with its pieces written (the cached key block, which only the first column tile writes, as it was). -/
noncomputable def kernelRun0_B (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (xi11 : Vec F S256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, ?_, ?_, [], ?_, fun xi11 E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0; obtain rfl := harg15.eq_unread hfs1; obtain rfl := harg16.eq_unread hfs2; obtain rfl := harg17.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.KernelIdeal.Hand

end
-- ==== Proof.RunC.lean ====
/-
  The body's run at the last column tile of a row tile: the tile is folded in and the weighted sum divided by the normaliser is stored into the result's buffer; the cached key block is left as it was.
  What each buffer ends with is found by the run as a list of written pieces, last first.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole staging buffers — the inputs at their contents, the result's at anything, the four carried buffers at what the point before left, the bias buffer at anything — runs to the continuation holding
    the inputs as they were and each written buffer with its pieces written (the cached key block, which only the first column tile writes, as it was). -/
noncomputable def kernelRun0_C (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) :
    Σ' (L11 : List (View.Piece (Elt F) S256x64 .f32)) (LS0 : List (View.Piece (Elt F) S256x1 .f32)) (LS1 : List (View.Piece (Elt F) S256x1 .f32)) (LS2 : List (View.Piece (Elt F) S256x64 .f32)) (LS3 : List (View.Piece (Elt F) S256x64 .f32)), { LS4 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ owns (c : Thread nD τ) arg17 fullShare xs3 ∗ (∃ f, arg18.view.loc (c : Thread nD τ) ↦[arg18.view.set]{fullShare} arg18.view.writes (Elt F) f LS4)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, [], ?_, fun E K => ?run⟩
  case run =>
    simp only [cc0__kernel_eq_skeleton]; unfold cc0__kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1; obtain rfl := harg16.eq_unread hfs2; obtain rfl := harg17.eq_unread hfs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    isplitl [HS1]; · iexists _; iexact HS1
    isplitl [HS2]; · iexists _; iexact HS2
    isplitl [HS3]
    · iexists _; isplitr; · ipureintro; exact harg17.read_unread _
      iexact HS3
    iexists _; iexact HS4

end Cert.KernelIdeal.Hand

end
-- ==== Proof.FrameData.lean ====
/-
  What the attention kernel's body leaves, case by case and point by point, and the proof data of its pipeline.

  After point `t` the four carried buffers hold the running maximum, the running normaliser, the running weighted
  sum of the row tile's rows over the column tiles `0 … t % 16`, and the row tile's key block; the result's buffer
  holds the normalised weighted sum after the last column tile.  `outsAt0` states these by recursion on the point:
  the first column tile starts afresh, every other one continues from what the point before left.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the pieces the run found, read back -/

/-- What case A leaves in the result's buffer and in the four carried buffers: the run's pieces read back over junk. -/
def res0_A (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).1),
   VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1),
   VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1),
   VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1))

theorem cover0_A_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1 S256x1.size (by sl_kernel_rfl) y

theorem cover0_A_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1 S256x1.size (by sl_kernel_rfl) y

theorem cover0_A_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1 S256x64.size (by sl_kernel_rfl) y

theorem cover0_A_4 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (y : S256x64.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1 S256x64.size (by sl_kernel_rfl) y

/-- What case B leaves in the result's buffer and in the four carried buffers: the run's pieces read back over junk; the cached key block is the one it found. -/
def res0_B (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1),
   VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1),
   VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1),
   xs3)

theorem cover0_B_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1 S256x1.size (by sl_kernel_rfl) y

theorem cover0_B_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1 S256x1.size (by sl_kernel_rfl) y

theorem cover0_B_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1 S256x64.size (by sl_kernel_rfl) y

/-- What case C leaves in the result's buffer and in the four carried buffers: the run's pieces read back over junk; the cached key block is the one it found. -/
def res0_C (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) : Vec F S256x64 .f32 × Vec F S256x1 .f32 × Vec F S256x1 .f32 × Vec F S256x64 .f32 × Vec F S256x64 .f32 :=
  (VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1),
   VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1),
   VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1),
   xs3)

theorem cover0_C_0 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1 S256x64.size (by sl_kernel_rfl) y

theorem cover0_C_1 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1 S256x1.size (by sl_kernel_rfl) y

theorem cover0_C_2 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1 S256x1.size (by sl_kernel_rfl) y

theorem cover0_C_3 (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
    (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32) (y : S256x64.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1 S256x64.size (by sl_kernel_rfl) y

/-! ## What the buffers hold after each point -/

/-- After the body at position `n`: the result's buffer, then the running maximum, normaliser, weighted sum and the
    cached key block.  The first column tile of a row tile starts afresh; the others continue from position `n - 1`. -/
def outsAt0 (c : Dev nD) : (n : ℕ) → n < cfg0.N → Vec F S256x64 .f32 × Vec F S256x1 .f32 × Vec F S256x1 .f32 × Vec F S256x64 .f32 × Vec F S256x64 .f32
  | 0, hn => res0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)
  | n + 1, hn =>
    if h0 : (n + 1) % 16 = 0 then
      if h1 : (n + 1) % 16 = 15 then
        False.elim (by omega)
      else
        res0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩)
    else
      if h1 : (n + 1) % 16 = 15 then
        res0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2
      else
        res0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2

theorem outsAt0_A (c : Dev nD) (t : Fin cfg0.N) (h0 : t.val % 16 = 0) (h1 : ¬t.val % 16 = 15) :
    outsAt0 m c t.val t.isLt = res0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = res0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = res0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the kernel's own buffers hold anything; before any other point the four carried buffers
    hold what the point before left, and the bias buffer, which every point fills before reading, anything. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2) ∗ (∃ d, owns (c : Thread nD τ) scM0_4 fullShare d)) := by
  cases n with
  | zero => exact absurd rfl hz
  | succ n => rfl

/-! ## The pipeline's proof data -/

/-- The arrays as the region finds them; after the body each input's buffer at its block and the result's at
    `outsAt0`'s first component; the invariant `PhiS`; the features array, read through two windows, held half and
    half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

end Cert.KernelIdeal.Hand

end
-- ==== Proof.FrameBody.lean ====
/-
  The body obligation of the attention kernel's pipeline at every grid point, and the two ends of its invariant.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.FrameData
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 16000000 in
/-- At any point the inputs' buffers hold their blocks; the point's column tile says which case it is in; the
    invariant hands the body the carried buffers at what the point before left (at anything before the first point,
    and the first column tile of a row tile ignores them), and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h1 ((hcond0_1 t).mp h))) (noFlush0_11 t (fun h => h1 ((hcond0_1 t).mp h)))]
      rw [outsAt0_A m c t h0 h1]
      unfold res0_A; (try dsimp only)
      by_cases hz : t.val = 0
      · rw [PhiS_castSucc m c t, PhiS_zero m c _ _ hz, scoped0_eq]
        iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, ⟨%es0, HS0⟩, ⟨%es1, HS1⟩, ⟨%es2, HS2⟩, ⟨%es3, HS3⟩, ⟨%es4, HS4⟩⟩
        isplitl [HS0 HS1 HS2 HS3 HS4]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
      · rw [PhiS_castSucc m c t, PhiS_pos m c _ _ hz]
        iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexists _; iexact HS0
        isplitl [HS1]; · iexists _; iexact HS1
        isplitl [HS2]; · iexists _; iexact HS2
        isplitl [HS3]; · iexists _; iexact HS3
        isplitl [HS4]; · iexact HS4
        iintro ⟨H0, H1, H2, H3, H4, H5, H6, H7, H8, H9, H10, H11, ⟨%es0, HS0⟩, ⟨%es1, HS1⟩, ⟨%es2, HS2⟩, ⟨%es3, HS3⟩, ⟨%es4, HS4⟩⟩
        isplitl [HS0 HS1 HS2 HS3 HS4]
        · isplitl [HS0]
          · unfold owns; iexists _; isplitr
            swap; · iexact HS0
            ipureintro; exact View.read_writes_of_cover _ _ _ _ _ (cover0_A_1 c _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_A_2 c _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_A_3 c _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS4
          ipureintro; rfl
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11
  · have hz : t.val ≠ 0 := fun hz => h0 (by rw [hz])
    by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t ((hcond0_1 t).mpr h1)], after0_11]
      rw [outsAt0_C m c t h0 h1]
      unfold res0_C; (try dsimp only)
      rw [PhiS_castSucc m c t, PhiS_pos m c _ _ hz]
      iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, ⟨%e11, H11⟩, ⟨%es0, HS0⟩, ⟨%es1, HS1⟩, ⟨%es2, HS2⟩, HS3, ⟨%es4, HS4⟩⟩
      isplitl [HS0 HS1 HS2 HS3 HS4]
      · isplitl [HS0]
        · unfold owns; iexists _; isplitr
          swap; · iexact HS0
          ipureintro; exact View.read_writes_of_cover _ _ _ _ _ (cover0_C_1 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover0_C_2 c _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (cover0_C_3 c _ _ _ _ _ _ _ _ _ _ _ _ _ _ _ _ _ _ _ _ _ _ _ _ _ _ _ _ _ _ _ _ _ _ _ _ _ _ _ _ _ _ _ _ _ _ _ _ _ _ _ _)
        isplitl [HS3]; · iexact HS3
        iexists _; unfold owns; iexists _; isplitr
        swap; · iexact HS4
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover0_C_0 c _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [Dat.leavesExact_idle (dats m 0 c) 11 t (idleAt0_11 t (fun h => h1 ((hcond0_1 t).mp h))) (noFlush0_11 t (fun h => h1 ((hcond0_1 t).mp h)))]
      rw [outsAt0_B m c t h0 h1]
      unfold res0_B; (try dsimp only)
      rw [PhiS_castSucc m c t, PhiS_pos m c _ _ hz]
      iintro ⟨⟨HS0, HS1, HS2, HS3, HS4⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, ⟨%es0, HS0⟩, ⟨%es1, HS1⟩, ⟨%es2, HS2⟩, HS3, ⟨%es4, HS4⟩⟩
      isplitl [HS0 HS1 HS2 HS3 HS4]
      · isplitl [HS0]
        · unfold owns; iexists _; isplitr
          swap; · iexact HS0
          ipureintro; exact View.read_writes_of_cover _ _ _ _ _ (cover0_B_1 c _ _ _ _ _ _ _ _ _ _ _ _ _ _ _ _ _ _ _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (cover0_B_2 c _ _ _ _ _ _ _ _ _ _ _ _ _ _ _ _ _ _ _ _ _ _ _ _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (cover0_B_3 c _ _ _ _ _ _ _ _ _ _ _ _ _ _ _ _ _ _ _ _ _ _ _ _ _ _ _ _ _ _ _ _ _ _ _ _ _ _ _ _ _ _ _ _ _ _ _ _ _ _ _ _)
        isplitl [HS3]; · iexact HS3
        iexists _; unfold owns; iexists _; isplitr
        swap; · iexact HS4
        ipureintro; rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The ends of the invariant -/

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the kernel's own buffers back at some contents. -/
theorem Phi_out (c : Dev nD) (t : Fin (cfg0.N + 1)) (ht : t.val ≠ 0) :
    (dats m 0 c).Φ t ⊢ Pipeline.scopedRest (Ix := Unit) (Name := ℕ) (U := UR sig nD τ) (Lvl := ℕ) (Val := Elt F) spec0 c := by
  rw [show (dats m 0 c).Φ t = PhiS m c t.val (Nat.le_of_lt_succ t.isLt) from rfl, PhiS_pos m c _ _ ht, scoped0_eq]
  iintro ⟨HS0, HS1, HS2, HS3, HS4⟩
  isplitl [HS0]; · iexists _; iexact HS0
  isplitl [HS1]; · iexists _; iexact HS1
  isplitl [HS2]; · iexists _; iexact HS2
  isplitl [HS3]; · iexists _; iexact HS3
  iexact HS4

theorem hout (c : Dev nD) : (dats m 0 c).Φ (Fin.last cfg0.N) ⊢ Pipeline.scopedRest (Ix := Unit) (Name := ℕ) (U := UR sig nD τ) (Lvl := ℕ) (Val := Elt F) spec0 c :=
  Phi_out m c _ (by rw [Fin.val_last]; have : cfg0.N = 128 := N_0; omega)

end Cert.KernelIdeal.Hand

end
-- ==== Proof.FrameRun.lean ====
/-
  The run of the attention kernel: the features array, which two windows read, is held half and half; every other
  array is held by its one window.  From the body obligation and the two ends of the invariant every weakly fair
  execution terminates with each array at what the write-backs computed; the argument arrays are inputs, so they
  end as they began.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Ring
import Idealize.ShloMosaic.Lib.Tactic
import proofs.«101895_j70987219469020_2_alg».proof.Proof.FrameBody
import proofs.«101895_j70987219469020_2_alg».proof.Proof.LibSharedFrame
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: the ten arguments and the result. -/
theorem arrBufs0_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_v0) ↦{fullShare} V m c main_v0)) := by
  unfold Pipeline.arrBufs
  rw [show Finset.univ.image (Pipeline.arrRef spec0) = ({main_arg0, main_arg1, main_arg2, main_arg3, main_arg4, main_arg5, main_arg6, main_arg7, main_arg8, main_arg9, main_v0} : Finset (Ref sig .tc)) from by decide]
  rw [bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

set_option maxHeartbeats 1000000 in
/-- Each whole, they make the windows' holdings: the features array is split in two halves for the row-tile window
    and the column-tile window. -/
theorem hsplit (c : Dev nD) :
    Pipeline.arrBufs (Ix := Unit) (Name := ℕ) (U := UR sig nD τ) (Lvl := ℕ) spec0 c (V m c) ⊢ (dats m 0 c).arrays ((dats m 0 c).arrAt · 0) := by
  rw [arrBufs0_eq]
  unfold Dat.arrays
  rw [bigSep_W0]
  have hs0 : (dats m 0 c).share (0 : Fin 12) = fullShare.left := rfl
  have hv0 : (cfg0.win (0 : Fin 12)).arr.view.set = Finset.univ := (arr_whole0 0).set_eq_univ
  have hs1 : (dats m 0 c).share (1 : Fin 12) = fullShare.right := rfl
  have hv1 : (cfg0.win (1 : Fin 12)).arr.view.set = Finset.univ := (arr_whole0 1).set_eq_univ
  have hs2 : (dats m 0 c).share (2 : Fin 12) = fullShare := rfl
  have hv2 : (cfg0.win (2 : Fin 12)).arr.view.set = Finset.univ := (arr_whole0 2).set_eq_univ
  have hs3 : (dats m 0 c).share (3 : Fin 12) = fullShare := rfl
  have hv3 : (cfg0.win (3 : Fin 12)).arr.view.set = Finset.univ := (arr_whole0 3).set_eq_univ
  have hs4 : (dats m 0 c).share (4 : Fin 12) = fullShare := rfl
  have hv4 : (cfg0.win (4 : Fin 12)).arr.view.set = Finset.univ := (arr_whole0 4).set_eq_univ
  have hs5 : (dats m 0 c).share (5 : Fin 12) = fullShare := rfl
  have hv5 : (cfg0.win (5 : Fin 12)).arr.view.set = Finset.univ := (arr_whole0 5).set_eq_univ
  have hs6 : (dats m 0 c).share (6 : Fin 12) = fullShare := rfl
  have hv6 : (cfg0.win (6 : Fin 12)).arr.view.set = Finset.univ := (arr_whole0 6).set_eq_univ
  have hs7 : (dats m 0 c).share (7 : Fin 12) = fullShare := rfl
  have hv7 : (cfg0.win (7 : Fin 12)).arr.view.set = Finset.univ := (arr_whole0 7).set_eq_univ
  have hs8 : (dats m 0 c).share (8 : Fin 12) = fullShare := rfl
  have hv8 : (cfg0.win (8 : Fin 12)).arr.view.set = Finset.univ := (arr_whole0 8).set_eq_univ
  have hs9 : (dats m 0 c).share (9 : Fin 12) = fullShare := rfl
  have hv9 : (cfg0.win (9 : Fin 12)).arr.view.set = Finset.univ := (arr_whole0 9).set_eq_univ
  have hs10 : (dats m 0 c).share (10 : Fin 12) = fullShare := rfl
  have hv10 : (cfg0.win (10 : Fin 12)).arr.view.set = Finset.univ := (arr_whole0 10).set_eq_univ
  have hs11 : (dats m 0 c).share (11 : Fin 12) = fullShare := rfl
  have hv11 : (cfg0.win (11 : Fin 12)).arr.view.set = Finset.univ := (arr_whole0 11).set_eq_univ
  simp only [hs0, hv0, hs1, hv1, hs2, hv2, hs3, hv3, hs4, hv4, hs5, hv5, hs6, hv6, hs7, hv7, hs8, hv8, hs9, hv9, hs10, hv10, hs11, hv11]
  iintro ⟨H0, H1, H2, H3, H4, H5, H6, H7, H8, H9, H10⟩
  ihave H0' := (Pipeline.split_two _ _) $$ H0
  icases H0' with ⟨HL, HR⟩
  isplitl [HL]; · iexact HL
  isplitl [HR]; · iexact HR
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every weakly fair execution of @main terminates, each array of the pipeline at what the library computes from the
    proof data and every other unscoped buffer as it was. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0
    m ρ main (hbody := fun c => (body_obligation m c).loose) (howed := fun _ _ => rfl) (V := V m)
    (hmain := Pipeline.hmain_region cfgs 0 defs₀ Variants.none m main (fun _ => rfl))
    (hsplit := hsplit m) (hin := hin m) (hout := hout m)

/-- The frame: the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats m 0 c).arrAt_in 0 rfl _).trans (A_eq m c 0)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10))⟩) (run_main m ρ)

end Cert.KernelIdeal.Hand

end
-- ==== Proof.PieceBase.lean ====
/-
  What a buffer reads back after the body's stores, in plain terms.

  A load of a whole buffer reads the buffer's contents; a load of a block of rows reads those rows; and
  a buffer filled by stores that tile it reads back as the function the stores' values make up together.
  The bias buffer is filled by eight stores of 32 rows each: chunk `k` holds the geometric bias of the
  rows `32 k … 32 k + 31` of the position block.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«101895_j70987219469020_2_alg».proof.Proof.FrameDefs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Zero offsets -/

theorem hz1 : (![0] : Fin 1 → Nat) = fun _ => 0 := funext fun a => by fin_cases a; rfl
theorem hz2 : (![0, 0] : Fin 2 → Nat) = fun _ => 0 := funext fun a => by fin_cases a <;> rfl

/-! ## Loads -/

/-- A load of a whole buffer that holds `X` reads `X`. -/
theorem readAt_whole {S : Shape} {e : EltTy} (m : Memref sig .tc .vmem S e) (hm : m.IsWhole) {off : Fin S.rank → Nat}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread]
  exact View.ld_unit_zero h inb X

/-- A load through a rectangle of a buffer that holds `X` reads `X` at the rectangle's indices. -/
theorem readAt_part {S : Shape} {e : EltTy} (m : Memref sig .tc .vmem S e) (hm : m.IsWhole) (r : Rect S)
    (X : S.Idx → Elt F e) :
    View.readAt (Elt F) m.view r.toLoadRect (hm.unread X) = View.ld X r := by
  rw [View.readAt_eq_ld, hm.read_unread]

/-- A load of the whole buffer after a list of stores reads what the stores leave. -/
theorem readCov_whole {S : Shape} {e : EltTy} (v : View sig .tc .vmem S e) (L : List (View.Piece (Elt F) S e))
    {off : Fin S.rank → Nat} (h : off = fun _ => 0) (inb : ∀ a, off a + S.size a ≤ S.size a) :
    v.readCov L (Rect.unit off S.size inb).toLoadRect = View.canon L := by
  rw [View.readCov_eq_canon']
  exact View.ld_unit_zero h inb (View.canon L)

/-! ## The bias buffer -/

/-- The bias buffer after its eight chunk stores: chunk `k` is the bias of the rows `32 k … 32 k + 31` of
    the position block `x2`, with weight row `x3` and scalar bias `x4`. -/
def biasBuf (x3 : Vec F S1x64 .f32) (x4 : Vec F S1 .f32) (x2 : Vec F S256x128x64 .f32) : Vec F S256x128 .f32 :=
  View.canon [
    ⟨Rect.unit ![224, 0] S32x128.size inb_S256x128_S32x128_224_0,
      k0_pay20 (k0_pay9 x3) x4 (View.ld x2 (Rect.unit ![224, 0, 0] S32x128x64.size inb_S256x128x64_S32x128x64_224_0_0))⟩,
    ⟨Rect.unit ![192, 0] S32x128.size inb_S256x128_S32x128_192_0,
      k0_pay19 (k0_pay9 x3) x4 (View.ld x2 (Rect.unit ![192, 0, 0] S32x128x64.size inb_S256x128x64_S32x128x64_192_0_0))⟩,
    ⟨Rect.unit ![160, 0] S32x128.size inb_S256x128_S32x128_160_0,
      k0_pay18 (k0_pay17 (k0_pay9 x3) x4 (View.ld x2 (Rect.unit ![160, 0, 0] S32x128x64.size inb_S256x128x64_S32x128x64_160_0_0)))⟩,
    ⟨Rect.unit ![128, 0] S32x128.size inb_S256x128_S32x128_128_0,
      k0_pay16 (k0_pay9 x3) x4 (View.ld x2 (Rect.unit ![128, 0, 0] S32x128x64.size inb_S256x128x64_S32x128x64_128_0_0))⟩,
    ⟨Rect.unit ![96, 0] S32x128.size inb_S256x128_S32x128_96_0,
      k0_pay15 x4 (k0_pay14 (k0_pay9 x3) (View.ld x2 (Rect.unit ![96, 0, 0] S32x128x64.size inb_S256x128x64_S32x128x64_96_0_0)))⟩,
    ⟨Rect.unit ![64, 0] S32x128.size inb_S256x128_S32x128_64_0,
      k0_pay13 (k0_pay9 x3) x4 (View.ld x2 (Rect.unit ![64, 0, 0] S32x128x64.size inb_S256x128x64_S32x128x64_64_0_0))⟩,
    ⟨Rect.unit ![32, 0] S32x128.size inb_S256x128_S32x128_32_0,
      k0_pay12 (k0_pay9 x3) x4 (View.ld x2 (Rect.unit ![32, 0, 0] S32x128x64.size inb_S256x128x64_S32x128x64_32_0_0))⟩,
    ⟨Rect.unit ![0, 0] S32x128.size inb_S256x128_S32x128_0_0,
      k0_pay11 (k0_pay10 x3 x4 (View.ld x2 (Rect.unit ![0, 0, 0] S32x128x64.size inb_S256x128x64_S32x128x64_0_0_0)))⟩]

end Cert.KernelIdeal.Hand

end
-- ==== Proof.PieceA.lean ====
/-
  The first column tile of a row tile: what the body leaves in its own buffers, in plain terms.

  The body first stores the initial state (maximum, normaliser, weighted sum) and the key projection of
  the row tile, then the eight bias chunks, then loads all of these back and stores the new maximum,
  normaliser and weighted sum. Read back, each buffer holds the value of its last store, taken at the
  values the earlier stores left.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«101895_j70987219469020_2_alg».proof.Proof.RunA
import proofs.«101895_j70987219469020_2_alg».proof.Proof.PieceBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : cond0_0 i) (hc1 : ¬cond0_1 i)
  (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32)

/-- The cached key block is the key projection of the row tile. -/
theorem pieceA_wk :
    VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.2.1) = k0_pay5 x0 x5 x6 := by
  rw [View.read_writes_junk_eq_canon]
  unfold kernelRun0_A
  dsimp only
  sl_unfold_words
  rw [View.canon_unit_zero (S := S256x64) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    View.readCov_unit_zero (S := S256x1) _ hz2, View.readCov_unit_zero (S := S256x64) _ hz2,
    readCov_whole (S := S256x128) _ _ hz2]

/-- The running maximum after the first tile. -/
theorem pieceA_m :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.1)
      = k0_pay27 (k0_pay7 x1 x7 x8) (biasBuf x3 x4 x2) (k0_pay5 x0 x5 x6) k0_pay2 := by
  rw [View.read_writes_junk_eq_canon]
  unfold kernelRun0_A
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    View.readCov_unit_zero (S := S256x1) _ hz2, View.readCov_unit_zero (S := S256x64) _ hz2,
    readCov_whole (S := S256x128) _ _ hz2]
  rfl

/-- The normaliser after the first tile. -/
theorem pieceA_l :
    VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.1)
      = k0_pay25 (k0_pay7 x1 x7 x8) (biasBuf x3 x4 x2) (k0_pay5 x0 x5 x6) k0_pay2 k0_pay3 := by
  rw [View.read_writes_junk_eq_canon]
  unfold kernelRun0_A
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    View.readCov_unit_zero (S := S256x1) _ hz2, View.readCov_unit_zero (S := S256x64) _ hz2,
    readCov_whole (S := S256x128) _ _ hz2]
  rfl

/-- The weighted sum after the first tile. -/
theorem pieceA_acc :
    VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10).2.2.2.1)
      = k0_pay26 (k0_pay7 x1 x7 x8) (k0_pay8 x1 x9 x10) (biasBuf x3 x4 x2) (k0_pay5 x0 x5 x6) k0_pay2 k0_pay4 := by
  rw [View.read_writes_junk_eq_canon]
  unfold kernelRun0_A
  dsimp only
  sl_unfold_words
  rw [View.canon_cons_unit_zero (S := S256x64) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    View.readCov_unit_zero (S := S256x1) _ hz2, View.readCov_unit_zero (S := S256x64) _ hz2,
    readCov_whole (S := S256x128) _ _ hz2]
  rfl

end

end Cert.KernelIdeal.Hand

end
-- ==== Proof.PieceB.lean ====
/-
  A middle column tile of a row tile: what the body leaves in its own buffers, in plain terms.

  The running maximum, normaliser, weighted sum and cached key block come in from the previous tile;
  the body stores the eight bias chunks, loads everything back and stores the new maximum, normaliser
  and weighted sum: one more tile folded into the carried state.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«101895_j70987219469020_2_alg».proof.Proof.RunB
import proofs.«101895_j70987219469020_2_alg».proof.Proof.PieceBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : ¬cond0_1 i)
  (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32)

/-- The running maximum after the tile. -/
theorem pieceB_m :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1)
      = k0_pay27 (k0_pay7 x1 x7 x8) (biasBuf x3 x4 x2) xs3 xs0 := by
  rw [View.read_writes_junk_eq_canon]
  unfold kernelRun0_B
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

/-- The normaliser after the tile. -/
theorem pieceB_l :
    VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1)
      = k0_pay25 (k0_pay7 x1 x7 x8) (biasBuf x3 x4 x2) xs3 xs0 xs1 := by
  rw [View.read_writes_junk_eq_canon]
  unfold kernelRun0_B
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

/-- The weighted sum after the tile. -/
theorem pieceB_acc :
    VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1)
      = k0_pay26 (k0_pay7 x1 x7 x8) (k0_pay8 x1 x9 x10) (biasBuf x3 x4 x2) xs3 xs0 xs2 := by
  rw [View.read_writes_junk_eq_canon]
  unfold kernelRun0_B
  dsimp only
  sl_unfold_words
  rw [View.canon_cons_unit_zero (S := S256x64) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

end

end Cert.KernelIdeal.Hand

end
-- ==== Proof.PieceC.lean ====
/-
  The last column tile of a row tile: what the body leaves in its own buffers and in the result's
  buffer, in plain terms.

  As at a middle tile the carried state takes one more tile; then the new weighted sum, read back,
  is multiplied by the reciprocal of the new normaliser, read back, and stored as the result.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«101895_j70987219469020_2_alg».proof.Proof.RunC
import proofs.«101895_j70987219469020_2_alg».proof.Proof.PieceBase
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S256x256 .f32) (harg2 : arg2.IsWhole) (arg3 : Memref sig .tc .vmem S128x256 .f32) (harg3 : arg3.IsWhole) (arg4 : Memref sig .tc .vmem S256x128x64 .f32) (harg4 : arg4.IsWhole) (arg5 : Memref sig .tc .vmem S1x64 .f32) (harg5 : arg5.IsWhole) (arg6 : Memref sig .tc .vmem S1 .f32) (harg6 : arg6.IsWhole) (arg7 : Memref sig .tc .vmem S64x256 .f32) (harg7 : arg7.IsWhole) (arg8 : Memref sig .tc .vmem S64 .f32) (harg8 : arg8.IsWhole) (arg9 : Memref sig .tc .vmem S64x256 .f32) (harg9 : arg9.IsWhole) (arg10 : Memref sig .tc .vmem S64 .f32) (harg10 : arg10.IsWhole) (arg11 : Memref sig .tc .vmem S64x256 .f32) (harg11 : arg11.IsWhole) (arg12 : Memref sig .tc .vmem S64 .f32) (harg12 : arg12.IsWhole) (arg13 : Memref sig .tc .vmem S256x64 .f32) (harg13 : arg13.IsWhole) (arg14 : Memref sig .tc .vmem S256x1 .f32) (harg14 : arg14.IsWhole) (arg15 : Memref sig .tc .vmem S256x1 .f32) (harg15 : arg15.IsWhole) (arg16 : Memref sig .tc .vmem S256x64 .f32) (harg16 : arg16.IsWhole) (arg17 : Memref sig .tc .vmem S256x64 .f32) (harg17 : arg17.IsWhole) (arg18 : Memref sig .tc .vmem S256x128 .f32) (harg18 : arg18.IsWhole) (hc0 : ¬cond0_0 i) (hc1 : cond0_1 i)
  (x0 : Vec F S256x256 .f32) (x1 : Vec F S128x256 .f32) (x2 : Vec F S256x128x64 .f32) (x3 : Vec F S1x64 .f32) (x4 : Vec F S1 .f32) (x5 : Vec F S64x256 .f32) (x6 : Vec F S64 .f32) (x7 : Vec F S64x256 .f32) (x8 : Vec F S64 .f32) (x9 : Vec F S64x256 .f32) (x10 : Vec F S64 .f32) (xs0 : Vec F S256x1 .f32) (xs1 : Vec F S256x1 .f32) (xs2 : Vec F S256x64 .f32) (xs3 : Vec F S256x64 .f32)

/-- The running maximum after the tile. -/
theorem pieceC_m :
    VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.1)
      = k0_pay27 (k0_pay7 x1 x7 x8) (biasBuf x3 x4 x2) xs3 xs0 := by
  rw [View.read_writes_junk_eq_canon]
  unfold kernelRun0_C
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

/-- The normaliser after the tile. -/
theorem pieceC_l :
    VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.1)
      = k0_pay25 (k0_pay7 x1 x7 x8) (biasBuf x3 x4 x2) xs3 xs0 xs1 := by
  rw [View.read_writes_junk_eq_canon]
  unfold kernelRun0_C
  dsimp only
  sl_unfold_words
  rw [View.canon_cons_unit_zero (S := S256x1) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

/-- The weighted sum after the tile. -/
theorem pieceC_acc :
    VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).2.2.2.1)
      = k0_pay26 (k0_pay7 x1 x7 x8) (k0_pay8 x1 x9 x10) (biasBuf x3 x4 x2) xs3 xs0 xs2 := by
  rw [View.read_writes_junk_eq_canon]
  unfold kernelRun0_C
  dsimp only
  sl_unfold_words
  rw [View.canon_cons_unit_zero (S := S256x64) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

/-- The result: the new weighted sum times the reciprocal of the new normaliser. -/
theorem pieceC_out :
    VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 xs1 xs2 xs3).1)
      = k0_pay1 (k0_pay26 (k0_pay7 x1 x7 x8) (k0_pay8 x1 x9 x10) (biasBuf x3 x4 x2) xs3 xs0 xs2)
          (k0_pay25 (k0_pay7 x1 x7 x8) (biasBuf x3 x4 x2) xs3 xs0 xs1) := by
  rw [View.read_writes_junk_eq_canon]
  unfold kernelRun0_C
  dsimp only
  sl_unfold_words
  rw [View.canon_cons_unit_zero (S := S256x64) hz2]
  simp only [readAt_whole _ harg2 hz2, readAt_whole _ harg3 hz2, readAt_whole _ harg5 hz2, readAt_whole _ harg6 hz1,
    readAt_whole _ harg7 hz2, readAt_whole _ harg8 hz1, readAt_whole _ harg9 hz2, readAt_whole _ harg10 hz1,
    readAt_whole _ harg11 hz2, readAt_whole _ harg12 hz1, readAt_part _ harg4,
    readAt_whole _ harg14 hz2, readAt_whole _ harg15 hz2, readAt_whole _ harg16 hz2, readAt_whole _ harg17 hz2,
    readCov_whole (S := S256x1) _ _ hz2, readCov_whole (S := S256x64) _ _ hz2, readCov_whole (S := S256x128) _ _ hz2,
    View.canon_cons_unit_zero (S := S256x1) hz2, View.canon_cons_unit_zero (S := S256x64) hz2]
  rfl

end

end Cert.KernelIdeal.Hand

end
-- ==== Proof.BlockReads.lean ====
import proofs.«101895_j70987219469020_2_alg».proof.Proof.FrameDefs
import Idealize.ShloMosaic.Lib.ValueIdx

/-!
# The windows' blocks, read at an index

The grid is 8 row tiles by 16 column tiles walked row tile by row tile, so point `t` is row tile
`t / 16` and column tile `t % 16`. A block's coordinate on an axis is always
`block index * block size + coordinate inside the block`; the block indices are decided once over the
128 points (`tile_facts`, `whole_facts`):

* the row-tile features: rows `256 * (t / 16) + p` of the features, all 256 columns;
* the column-tile features: rows `128 * (t % 16) + c` of the same array;
* the pairwise embedding: rows `256 * (t / 16) + p`, columns `128 * (t % 16) + c`, all 64 entries;
* the eight weight and bias arrays: whole, block index `0`;
* the result: rows `256 * (t / 16) + p`, all 64 columns; it is written back at the last column tile
  of each row tile, and those eight blocks cover the array (`cover11`).
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A point of the grid is below 128. -/
theorem pt_lt (t : Fin cfg0.N) : t.val < 128 := lt_of_lt_of_eq t.isLt N_0

/-- The block indices of the tiled windows at point `t`: row tile `t / 16`, column tile `t % 16`. -/
theorem tile_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 3) = t.val / 16 ∧ win0_2.index t (1 : Fin 3) = t.val % 16
    ∧ win0_2.index t (2 : Fin 3) = 0
    ∧ win0_11.index t (0 : Fin 2) = t.val / 16 ∧ win0_11.index t (1 : Fin 2) = 0 :=
  (by decide +kernel : ∀ t : Fin grid0.N, _)

/-- The block indices of the whole-array windows are `0`. -/
theorem whole_facts : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## The tiled inputs -/

/-- Window 0 at point `t`: rows `256 * (t / 16) + p` of the features. -/
theorem iblk0_apply (c : Dev nD) (t : Fin cfg0.N) (p : Fin 256) (a : Fin 256) :
    iblk m c 0 t (ix2 p a)
      = m ((c : Thread nD τ).loc main_arg0)
          (ix2 (⟨256 * (t.val / 16) + p.val, by have := pt_lt t; omega⟩ : Fin 2048) a) := by
  unfold iblk
  show V m c main_arg0 (((cfg0.win 0).blk t).view.emb (ix2 p a)) = V m c main_arg0 _
  refine congrArg _ ?_
  obtain ⟨e0, e1, -⟩ := tile_facts t
  funext x; apply Fin.ext
  match x with
  | ⟨0, _⟩ =>
    show win0_0.index t (0 : Fin 2) * 256 + 1 * p.val = 256 * (t.val / 16) + p.val
    omega
  | ⟨1, _⟩ =>
    show win0_0.index t (1 : Fin 2) * 256 + 1 * a.val = a.val
    omega

/-- Window 1 at point `t`: rows `128 * (t % 16) + cc` of the features. -/
theorem iblk1_apply (c : Dev nD) (t : Fin cfg0.N) (cc : Fin 128) (a : Fin 256) :
    iblk m c 1 t (ix2 cc a)
      = m ((c : Thread nD τ).loc main_arg0)
          (ix2 (⟨128 * (t.val % 16) + cc.val, by omega⟩ : Fin 2048) a) := by
  unfold iblk
  show V m c main_arg0 (((cfg0.win 1).blk t).view.emb (ix2 cc a)) = V m c main_arg0 _
  refine congrArg _ ?_
  obtain ⟨-, -, e0, e1, -⟩ := tile_facts t
  funext x; apply Fin.ext
  match x with
  | ⟨0, _⟩ =>
    show win0_1.index t (0 : Fin 2) * 128 + 1 * cc.val = 128 * (t.val % 16) + cc.val
    omega
  | ⟨1, _⟩ =>
    show win0_1.index t (1 : Fin 2) * 256 + 1 * a.val = a.val
    omega

/-- Window 2 at point `t`: rows `256 * (t / 16) + p`, columns `128 * (t % 16) + cc` of the embedding. -/
theorem iblk2_apply (c : Dev nD) (t : Fin cfg0.N) (p : Fin 256) (cc : Fin 128) (g : Fin 64) :
    iblk m c 2 t (ix3 p cc g)
      = m ((c : Thread nD τ).loc main_arg1)
          (ix3 (⟨256 * (t.val / 16) + p.val, by have := pt_lt t; omega⟩ : Fin 2048)
            (⟨128 * (t.val % 16) + cc.val, by omega⟩ : Fin 2048) g) := by
  unfold iblk
  show V m c main_arg1 (((cfg0.win 2).blk t).view.emb (ix3 p cc g)) = V m c main_arg1 _
  refine congrArg _ ?_
  obtain ⟨-, -, -, -, e0, e1, e2, -⟩ := tile_facts t
  funext x; apply Fin.ext
  match x with
  | ⟨0, _⟩ =>
    show win0_2.index t (0 : Fin 3) * 256 + 1 * p.val = 256 * (t.val / 16) + p.val
    omega
  | ⟨1, _⟩ =>
    show win0_2.index t (1 : Fin 3) * 128 + 1 * cc.val = 128 * (t.val % 16) + cc.val
    omega
  | ⟨2, _⟩ =>
    show win0_2.index t (2 : Fin 3) * 64 + 1 * g.val = g.val
    omega

/-! ## The whole-array inputs -/

/-- Window 3's block is its whole array: block index `0` on every axis. -/
theorem iblk3_apply (c : Dev nD) (t : Fin cfg0.N) (j : S1x64.Idx) :
    iblk m c 3 t j = m ((c : Thread nD τ).loc main_arg2) j := by
  unfold iblk
  show V m c main_arg2 (((cfg0.win 3).blk t).view.emb j) = V m c main_arg2 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_3.index t (0 : Fin 2) * 1 + 1 * (j 0).val = (j 0).val
    omega
  | ⟨1, _⟩ =>
    show win0_3.index t (1 : Fin 2) * 64 + 1 * (j 1).val = (j 1).val
    omega

theorem iblk3_eq (c : Dev nD) (t : Fin cfg0.N) :
    iblk m c 3 t = m ((c : Thread nD τ).loc main_arg2) :=
  funext fun j => iblk3_apply m c t j

/-- Window 4's block is its whole array: block index `0` on every axis. -/
theorem iblk4_apply (c : Dev nD) (t : Fin cfg0.N) (j : S1.Idx) :
    iblk m c 4 t j = m ((c : Thread nD τ).loc main_arg3) j := by
  unfold iblk
  show V m c main_arg3 (((cfg0.win 4).blk t).view.emb j) = V m c main_arg3 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_4.index t (0 : Fin 1) * 1 + 1 * (j 0).val = (j 0).val
    omega

theorem iblk4_eq (c : Dev nD) (t : Fin cfg0.N) :
    iblk m c 4 t = m ((c : Thread nD τ).loc main_arg3) :=
  funext fun j => iblk4_apply m c t j

/-- Window 5's block is its whole array: block index `0` on every axis. -/
theorem iblk5_apply (c : Dev nD) (t : Fin cfg0.N) (j : S64x256.Idx) :
    iblk m c 5 t j = m ((c : Thread nD τ).loc main_arg4) j := by
  unfold iblk
  show V m c main_arg4 (((cfg0.win 5).blk t).view.emb j) = V m c main_arg4 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_5.index t (0 : Fin 2) * 64 + 1 * (j 0).val = (j 0).val
    omega
  | ⟨1, _⟩ =>
    show win0_5.index t (1 : Fin 2) * 256 + 1 * (j 1).val = (j 1).val
    omega

theorem iblk5_eq (c : Dev nD) (t : Fin cfg0.N) :
    iblk m c 5 t = m ((c : Thread nD τ).loc main_arg4) :=
  funext fun j => iblk5_apply m c t j

/-- Window 6's block is its whole array: block index `0` on every axis. -/
theorem iblk6_apply (c : Dev nD) (t : Fin cfg0.N) (j : S64.Idx) :
    iblk m c 6 t j = m ((c : Thread nD τ).loc main_arg5) j := by
  unfold iblk
  show V m c main_arg5 (((cfg0.win 6).blk t).view.emb j) = V m c main_arg5 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_6.index t (0 : Fin 1) * 64 + 1 * (j 0).val = (j 0).val
    omega

theorem iblk6_eq (c : Dev nD) (t : Fin cfg0.N) :
    iblk m c 6 t = m ((c : Thread nD τ).loc main_arg5) :=
  funext fun j => iblk6_apply m c t j

/-- Window 7's block is its whole array: block index `0` on every axis. -/
theorem iblk7_apply (c : Dev nD) (t : Fin cfg0.N) (j : S64x256.Idx) :
    iblk m c 7 t j = m ((c : Thread nD τ).loc main_arg6) j := by
  unfold iblk
  show V m c main_arg6 (((cfg0.win 7).blk t).view.emb j) = V m c main_arg6 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_7.index t (0 : Fin 2) * 64 + 1 * (j 0).val = (j 0).val
    omega
  | ⟨1, _⟩ =>
    show win0_7.index t (1 : Fin 2) * 256 + 1 * (j 1).val = (j 1).val
    omega

theorem iblk7_eq (c : Dev nD) (t : Fin cfg0.N) :
    iblk m c 7 t = m ((c : Thread nD τ).loc main_arg6) :=
  funext fun j => iblk7_apply m c t j

/-- Window 8's block is its whole array: block index `0` on every axis. -/
theorem iblk8_apply (c : Dev nD) (t : Fin cfg0.N) (j : S64.Idx) :
    iblk m c 8 t j = m ((c : Thread nD τ).loc main_arg7) j := by
  unfold iblk
  show V m c main_arg7 (((cfg0.win 8).blk t).view.emb j) = V m c main_arg7 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_8.index t (0 : Fin 1) * 64 + 1 * (j 0).val = (j 0).val
    omega

theorem iblk8_eq (c : Dev nD) (t : Fin cfg0.N) :
    iblk m c 8 t = m ((c : Thread nD τ).loc main_arg7) :=
  funext fun j => iblk8_apply m c t j

/-- Window 9's block is its whole array: block index `0` on every axis. -/
theorem iblk9_apply (c : Dev nD) (t : Fin cfg0.N) (j : S64x256.Idx) :
    iblk m c 9 t j = m ((c : Thread nD τ).loc main_arg8) j := by
  unfold iblk
  show V m c main_arg8 (((cfg0.win 9).blk t).view.emb j) = V m c main_arg8 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_9.index t (0 : Fin 2) * 64 + 1 * (j 0).val = (j 0).val
    omega
  | ⟨1, _⟩ =>
    show win0_9.index t (1 : Fin 2) * 256 + 1 * (j 1).val = (j 1).val
    omega

theorem iblk9_eq (c : Dev nD) (t : Fin cfg0.N) :
    iblk m c 9 t = m ((c : Thread nD τ).loc main_arg8) :=
  funext fun j => iblk9_apply m c t j

/-- Window 10's block is its whole array: block index `0` on every axis. -/
theorem iblk10_apply (c : Dev nD) (t : Fin cfg0.N) (j : S64.Idx) :
    iblk m c 10 t j = m ((c : Thread nD τ).loc main_arg9) j := by
  unfold iblk
  show V m c main_arg9 (((cfg0.win 10).blk t).view.emb j) = V m c main_arg9 j
  refine congrArg _ ?_
  obtain ⟨z3_0, z3_1, z4_0, z5_0, z5_1, z6_0, z7_0, z7_1, z8_0, z9_0, z9_1, z10_0⟩ := whole_facts t
  funext x; apply Fin.ext
  match x with
  | ⟨0, _⟩ =>
    show win0_10.index t (0 : Fin 1) * 64 + 1 * (j 0).val = (j 0).val
    omega

theorem iblk10_eq (c : Dev nD) (t : Fin cfg0.N) :
    iblk m c 10 t = m ((c : Thread nD τ).loc main_arg9) :=
  funext fun j => iblk10_apply m c t j

/-! ## The result's block -/

/-- Place `y` of the result's block at point `t` is row `256 * (t / 16) + y 0`, column `y 1` of the array. -/
theorem emb11 (t : Fin cfg0.N) (y : S256x64.Idx) :
    ((cfg0.win 11).blk t).view.emb y
      = (ix2 (⟨256 * (t.val / 16) + (y 0).val, by
            have := pt_lt t; have := idx2_lt0 y; omega⟩ : Fin 2048) (y 1) : S2048x64.Idx) := by
  obtain ⟨-, -, -, -, -, -, -, e0, e1⟩ := tile_facts t
  funext x; apply Fin.ext
  match x with
  | ⟨0, _⟩ =>
    show win0_11.index t (0 : Fin 2) * 256 + 1 * (y 0).val = 256 * (t.val / 16) + (y 0).val
    omega
  | ⟨1, _⟩ =>
    show win0_11.index t (1 : Fin 2) * 64 + 1 * (y 1).val = (y 1).val
    omega

/-- An index of the result is in point `t`'s block iff its row is one of the 256 rows of row tile
    `t / 16`. -/
theorem mem_blk11 (t : Fin cfg0.N) (i : S2048x64.Idx) :
    i ∈ ((cfg0.win 11).blk t).view.set
      ↔ 256 * (t.val / 16) ≤ (i 0).val ∧ (i 0).val < 256 * (t.val / 16) + 256 := by
  have hmem : i ∈ ((cfg0.win 11).blk t).view.set ↔ ∀ a : Fin 2,
      win0_11.index t a * S256x64.size a ≤ (i a).val
        ∧ (i a).val < win0_11.index t a * S256x64.size a + S256x64.size a := by
    show i ∈ ((View.whole main_v0).slice (win0_11.rect t)).set ↔ _
    rw [View.set_slice_whole, Rect.mem_set_unit]
    exact Iff.rfl
  obtain ⟨-, -, -, -, -, -, -, e0, e1⟩ := tile_facts t
  have h1 : (i 1).val < 64 := idx2_lt1 i
  rw [hmem]
  constructor
  · intro h
    have b0 : win0_11.index t (0 : Fin 2) * 256 ≤ (i 0).val
        ∧ (i 0).val < win0_11.index t (0 : Fin 2) * 256 + 256 := h 0
    omega
  · intro h a
    match a with
    | ⟨0, _⟩ =>
      show win0_11.index t (0 : Fin 2) * 256 ≤ (i 0).val
        ∧ (i 0).val < win0_11.index t (0 : Fin 2) * 256 + 256
      omega
    | ⟨1, _⟩ =>
      show win0_11.index t (1 : Fin 2) * 64 ≤ (i 1).val
        ∧ (i 1).val < win0_11.index t (1 : Fin 2) * 64 + 64
      omega

/-- Every index of the result lies in the block of a point that writes back: row `r` is in row tile
    `r / 256`, whose last column tile is point `16 * (r / 256) + 15`. -/
theorem cover11 (i : S2048x64.Idx) :
    ∃ t : Fin cfg0.N, (cfg0.win 11).flush t = true ∧ i ∈ ((cfg0.win 11).blk t).view.set := by
  have h0 : (i 0).val < 2048 := idx2_lt0 i
  refine ⟨⟨16 * ((i 0).val / 256) + 15, lt_of_lt_of_eq (by omega) N_0.symm⟩, ?_, ?_⟩
  · rw [flush0_11]
    show (16 * ((i 0).val / 256) + 15) % 16 = 15
    omega
  · rw [mem_blk11]
    show 256 * ((16 * ((i 0).val / 256) + 15) / 16) ≤ (i 0).val
      ∧ (i 0).val < 256 * ((16 * ((i 0).val / 256) + 15) / 16) + 256
    omega

end Cert.KernelIdeal.Hand

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«101895_j70987219469020_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.PayDot.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.LibPlainDot

/-!
# The kernel's matrix products, entry by entry

Each of the four products of the kernel contracts the columns of its left operand with the rows of
its right operand, into a zero accumulator. Read at the entry `(p, c)` it is the finite sum
`∑ k, a (p, k) * w (k, c)` over the shared extent.
-/

noncomputable section

open scoped BigOperators

namespace Cert.Pay

open Idealize.ShloMosaic Idealize.ShloMosaic.ValueIdx
open Cert.KernelIdeal Cert.KernelIdeal.Gen Cert.KernelIdeal.Facts₀ Cert.KernelIdeal.Facts

/-- A rows-by-columns product into the zero accumulator, read at `(p, c)`. -/
theorem plain_matmul_apply (R K N : ℕ) {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) :=
  (Ideal.matmul_constant_zero_apply (DotDims.plain R K N) prec a w (ix2 p c)).trans
    (Cert.DenseRow.contr_sum (DotDims.plain R K N) rfl rfl (Cert.PlainDot.lhs_at R K N)
      (Cert.PlainDot.rhs_at R K N) a w p c)

variable [Cert.KernelIdeal.Facts]

/-- The key projection's dimension record is the plain one. -/
theorem dot_key_eq : dot_S256x256_S256x64_S256x64_1_0_0_1_n_n = DotDims.plain 256 256 64 := rfl

/-- The query and value projections' dimension record is the plain one. -/
theorem dot_qv_eq : dot_S128x256_S256x64_S128x64_1_0_0_1_n_n = DotDims.plain 128 256 64 := rfl

/-- The score product's dimension record is the plain one. -/
theorem dot_score_eq : dot_S256x64_S64x128_S256x128_1_0_0_1_n_n = DotDims.plain 256 64 128 := rfl

/-- The weighted-value product's dimension record is the plain one. -/
theorem dot_value_eq : dot_S256x128_S128x64_S256x64_1_0_0_1_n_n = DotDims.plain 256 128 64 := rfl

end Cert.Pay

end
-- ==== Proof.PayProj.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.PayDot

/-!
# The three linear projections, entry by entry

The key, query and value projections are the same computation on different operands: a block of
appearance features `x` (rows by 256) times the transposed weight matrix `w` (64 by 256), plus the
bias row `b` broadcast over the rows. At `(p, d)` that is `(∑ a, x (p, a) * w (d, a)) + b d`.
-/

noncomputable section

open scoped BigOperators

namespace Cert.Pay

open Idealize.ShloMosaic Idealize.ShloMosaic.ValueIdx
open Cert.KernelIdeal Cert.KernelIdeal.Gen Cert.KernelIdeal.Facts₀ Cert.KernelIdeal.Facts

/-- A block times a transposed weight matrix plus a bias row, read at `(p, d)`. -/
theorem proj_apply (R K N : ℕ) {φ₁ φ₂ : FTy} (x : FVec Ideal ⟨2, ![R, K]⟩ φ₁) (w : FVec Ideal ⟨2, ![N, K]⟩ φ₂)
    (b : FVec Ideal ⟨1, ![N]⟩ .f32) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![R, N]⟩)
    (p : Fin R) (d : Fin N) :
    addf (matmul (DotDims.plain R K N) none x (transpose ⟨2, ![K, N]⟩ [1, 0] w ht)
          (constant ⟨2, ![R, N]⟩ .f32 0x00000000#32))
        (broadcastTo ⟨2, ![R, N]⟩ (shapeCast ⟨2, ![1, N]⟩ b hc) hb) (ix2 p d)
      = (∑ a : Fin K, x (ix2 p a) * w (ix2 d a)) + b (ix1 d) := by
  refine (addf_apply _ _ _).trans ?_
  refine congrArg₂ (· + ·) ?_ ?_
  · refine (plain_matmul_apply R K N none _ _ p d).trans ?_
    exact Finset.sum_congr rfl fun a _ => congrArg (x (ix2 p a) * ·) (transpose_ix2_apply w ht a d)
  · exact (broadcastTo_1b_ab_apply _ hb p d).trans (shapeCast_a_1a_apply b hc 0 d)

variable [Cert.KernelIdeal.Facts]

/-- The key projection of the row tile, cached once per row tile. -/
theorem pay5_apply (v198 : Vec Ideal S256x256 .f32) (v200 : Vec Ideal S64x256 .f32) (v204 : Vec Ideal S64 .f32)
    (p : Fin 256) (d : Fin 64) :
    k0_pay5 v198 v200 v204 (ix2 p d)
      = (∑ a : Fin 256, v198 (ix2 p a) * v200 (ix2 d a)) + v204 (ix1 d) := by
  unfold k0_pay5
  refine (congrFun (shapeCast_self _ _) _).trans ?_
  exact proj_apply 256 256 64 (φ₁ := .bf16) (φ₂ := .bf16) _ _ v204 _ _ _ p d

/-- The query projection of the column tile. -/
theorem pay7_apply (v3 : Vec Ideal S128x256 .f32) (v5 : Vec Ideal S64x256 .f32) (v11 : Vec Ideal S64 .f32)
    (c : Fin 128) (d : Fin 64) :
    k0_pay7 v3 v5 v11 (ix2 c d)
      = (∑ a : Fin 256, v3 (ix2 c a) * v5 (ix2 d a)) + v11 (ix1 d) := by
  unfold k0_pay7
  exact proj_apply 128 256 64 (φ₁ := .bf16) (φ₂ := .bf16) _ _ v11 _ _ _ c d

/-- The value projection of the column tile. -/
theorem pay8_apply (v3 : Vec Ideal S128x256 .f32) (v7 : Vec Ideal S64x256 .f32) (v17 : Vec Ideal S64 .f32)
    (c : Fin 128) (d : Fin 64) :
    k0_pay8 v3 v7 v17 (ix2 c d)
      = (∑ a : Fin 256, v3 (ix2 c a) * v7 (ix2 d a)) + v17 (ix1 d) := by
  unfold k0_pay8
  exact proj_apply 128 256 64 (φ₁ := .bf16) (φ₂ := .bf16) _ _ v17 _ _ _ c d

end Cert.Pay

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.PayBias.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.LibLayout3

/-!
# The geometric bias, chunk by chunk

The bias of the pair (row `r`, column `c`) is
`log (max ε (max ((∑ g, x (r, c, g) * wg g) + bg) 0))`: the position embedding's 64 features
contracted with the weight row, plus the scalar bias, rectified, clamped below at
`ε` (the word `0x358637BD`, about `1e-6`) and passed through the logarithm. The body computes it in eight
chunks of 32 rows; the eight stored values are the same function of the chunk's rows.
-/

noncomputable section

open scoped BigOperators

namespace Cert.Pay

open Idealize.ShloMosaic Idealize.ShloMosaic.ValueIdx
open Cert.KernelIdeal Cert.KernelIdeal.Gen Cert.KernelIdeal.Facts₀ Cert.KernelIdeal.Facts

section Broadcasts
variable {α : Type}

/-- A `[1, 1, c]` array broadcast to `[a, b, c]` reads, at `(r, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (j : Fin b) (d : Fin c) :
    broadcastTo ⟨3, ![a, b, c]⟩ v h (ix3 r j d) = v (ix3 (0 : Fin 1) (0 : Fin 1) d) := by
  refine broadcastTo_apply v h (ix3 r j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (r : Fin a) (j : Fin b) :
    broadcastTo ⟨2, ![a, b]⟩ v h (ix2 r j) = v (ix2 (0 : Fin 1) (0 : Fin 1)) := by
  refine broadcastTo_apply v h (ix2 r j) (ix2 (0 : Fin 1) (0 : Fin 1)) fun ax => ?_
  match ax with
  | ⟨0, _⟩ => rfl
  | ⟨1, _⟩ => rfl

end Broadcasts

/-- Rectify, clamp below at `ε`, take the logarithm. -/
def bclamp (y : EReal) : EReal :=
  Ideal.log (max (Ideal.ofBits .f32 0x358637BD#32) (max y (Ideal.ofBits .f32 0x00000000#32)))

/-- The geometric bias of the pair (`r`, `c`) of a chunk `x` of 32 rows, with weight row `wg` and
    scalar bias `bg`. -/
def bchunk (wg : Vec Ideal S1x64 .f32) (bg : Vec Ideal S1 .f32) (x : Vec Ideal S32x128x64 .f32)
    (r : Fin 32) (c : Fin 128) : EReal :=
  Ideal.log (max (Ideal.ofBits .f32 0x358637BD#32)
    (max ((∑ g : Fin 64, x (ix3 r c g) * wg (ix2 (0 : Fin 1) g)) + bg (ix1 (0 : Fin 1)))
      (Ideal.ofBits .f32 0x00000000#32)))

theorem bchunk_eq (wg : Vec Ideal S1x64 .f32) (bg : Vec Ideal S1 .f32) (x : Vec Ideal S32x128x64 .f32)
    (r : Fin 32) (c : Fin 128) :
    bchunk wg bg x r c
      = bclamp ((∑ g : Fin 64, x (ix3 r c g) * wg (ix2 (0 : Fin 1) g)) + bg (ix1 (0 : Fin 1))) := rfl

variable [Cert.KernelIdeal.Facts]

/-- The weight row viewed as `[1, 1, 64]` reads the weight row. -/
theorem pay9_apply (v21 : Vec Ideal S1x64 .f32) (g : Fin 64) :
    k0_pay9 v21 (ix3 (0 : Fin 1) (0 : Fin 1) g) = v21 (ix2 (0 : Fin 1) g) := by
  unfold k0_pay9
  exact shapeCast_ab_1ab_apply v21 _ 0 0 g

/-- From the array of products to the bias: sum over the features, add the scalar bias, clamp, log. -/
theorem bias_tail (prod : FVec Ideal S32x128x64 .f32) (v23 : Vec Ideal S1 .f32) (r : Fin 32) (c : Fin 128) :
    log (maximumf (broadcast S32x128 (Scalar.ofBits (F := Ideal) .f32 0x358637BD#32))
        (maximumf
          (addf (multiReduction (F := Ideal) .add [2] S32x128 prod 0x00000000#32 Gen.reduces_S32x128x64_S32x128 (.inl rfl) rfl)
            (broadcastTo S32x128 (shapeCast S1x1 v23 Gen.shapeCasts_S1_S1x1) Gen.broadcasts_S1x1_S32x128))
          (broadcast S32x128 (Scalar.ofBits (F := Ideal) .f32 0x00000000#32)))) (ix2 r c)
      = bclamp ((∑ g : Fin 64, prod (ix3 r c g)) + v23 (ix1 (0 : Fin 1))) := by
  show Ideal.log (max (Ideal.ofBits .f32 0x358637BD#32) (max (_ + _) (Ideal.ofBits .f32 0x00000000#32))) = _
  refine congrArg (fun y => bclamp y) ?_
  refine congrArg₂ (· + ·) ?_ ?_
  · exact Cert.LibLayout3.sum_abc_last prod _ rfl r c
  · exact (broadcastTo_11_ab_apply _ _ r c).trans (shapeCast_a_1a_apply v23 _ 0 0)

/-- A chunk multiplied by the broadcast weight row, then the tail. -/
theorem bias_full (w3 : FVec Ideal S1x1x64 .f32) (v23 : Vec Ideal S1 .f32) (x : Vec Ideal S32x128x64 .f32)
    (r : Fin 32) (c : Fin 128) :
    log (maximumf (broadcast S32x128 (Scalar.ofBits (F := Ideal) .f32 0x358637BD#32))
        (maximumf
          (addf (multiReduction (F := Ideal) .add [2] S32x128
              (mulf x (broadcastTo S32x128x64 w3 Gen.broadcasts_S1x1x64_S32x128x64))
              0x00000000#32 Gen.reduces_S32x128x64_S32x128 (.inl rfl) rfl)
            (broadcastTo S32x128 (shapeCast S1x1 v23 Gen.shapeCasts_S1_S1x1) Gen.broadcasts_S1x1_S32x128))
          (broadcast S32x128 (Scalar.ofBits (F := Ideal) .f32 0x00000000#32)))) (ix2 r c)
      = bclamp ((∑ g : Fin 64, x (ix3 r c g) * w3 (ix3 (0 : Fin 1) (0 : Fin 1) g)) + v23 (ix1 (0 : Fin 1))) := by
  refine (bias_tail _ v23 r c).trans ?_
  refine congrArg (fun S => bclamp (S + v23 (ix1 (0 : Fin 1)))) ?_
  refine Finset.sum_congr rfl fun g _ => ?_
  refine (mulf_apply _ _ _).trans ?_
  exact congrArg (x (ix3 r c g) * ·) (broadcastTo_11c_abc_apply w3 _ r c g)

/-- With the weight row's `[1, 1, 64]` view: the chunk's bias. -/
theorem bias_chunk (v21 : Vec Ideal S1x64 .f32) (v23 : Vec Ideal S1 .f32) (x : Vec Ideal S32x128x64 .f32)
    (r : Fin 32) (c : Fin 128) :
    bclamp ((∑ g : Fin 64, x (ix3 r c g) * k0_pay9 v21 (ix3 (0 : Fin 1) (0 : Fin 1) g)) + v23 (ix1 (0 : Fin 1)))
      = bchunk v21 v23 x r c := by
  refine congrArg (fun S => bclamp (S + v23 (ix1 (0 : Fin 1)))) ?_
  exact Finset.sum_congr rfl fun g _ => congrArg (x (ix3 r c g) * ·) (pay9_apply v21 g)

/-- Rows 0–31. -/
theorem pay11_apply (v21 : Vec Ideal S1x64 .f32) (v23 : Vec Ideal S1 .f32) (v24 : Vec Ideal S32x128x64 .f32)
    (r : Fin 32) (c : Fin 128) :
    k0_pay11 (k0_pay10 v21 v23 v24) (ix2 r c) = bchunk v21 v23 v24 r c := by
  unfold k0_pay11
  refine (congrFun (shapeCast_self _ _) _).trans ?_
  unfold k0_pay10
  exact (bias_full (k0_pay9 v21) v23 v24 r c).trans (bias_chunk v21 v23 v24 r c)

/-- Rows 32–63. -/
theorem pay12_apply (v21 : Vec Ideal S1x64 .f32) (v23 : Vec Ideal S1 .f32) (v39 : Vec Ideal S32x128x64 .f32)
    (r : Fin 32) (c : Fin 128) :
    k0_pay12 (k0_pay9 v21) v23 v39 (ix2 r c) = bchunk v21 v23 v39 r c := by
  unfold k0_pay12
  refine (congrFun (shapeCast_self _ _) _).trans ?_
  exact (bias_full (k0_pay9 v21) v23 v39 r c).trans (bias_chunk v21 v23 v39 r c)

/-- Rows 64–95. -/
theorem pay13_apply (v21 : Vec Ideal S1x64 .f32) (v23 : Vec Ideal S1 .f32) (v54 : Vec Ideal S32x128x64 .f32)
    (r : Fin 32) (c : Fin 128) :
    k0_pay13 (k0_pay9 v21) v23 v54 (ix2 r c) = bchunk v21 v23 v54 r c := by
  unfold k0_pay13
  refine (congrFun (shapeCast_self _ _) _).trans ?_
  exact (bias_full (k0_pay9 v21) v23 v54 r c).trans (bias_chunk v21 v23 v54 r c)

/-- Rows 96–127. -/
theorem pay15_apply (v21 : Vec Ideal S1x64 .f32) (v23 : Vec Ideal S1 .f32) (v69 : Vec Ideal S32x128x64 .f32)
    (r : Fin 32) (c : Fin 128) :
    k0_pay15 v23 (k0_pay14 (k0_pay9 v21) v69) (ix2 r c) = bchunk v21 v23 v69 r c := by
  unfold k0_pay15
  refine (congrFun (shapeCast_self _ _) _).trans ?_
  unfold k0_pay14
  exact (bias_full (k0_pay9 v21) v23 v69 r c).trans (bias_chunk v21 v23 v69 r c)

/-- Rows 128–159. -/
theorem pay16_apply (v21 : Vec Ideal S1x64 .f32) (v23 : Vec Ideal S1 .f32) (v84 : Vec Ideal S32x128x64 .f32)
    (r : Fin 32) (c : Fin 128) :
    k0_pay16 (k0_pay9 v21) v23 v84 (ix2 r c) = bchunk v21 v23 v84 r c := by
  unfold k0_pay16
  refine (congrFun (shapeCast_self _ _) _).trans ?_
  exact (bias_full (k0_pay9 v21) v23 v84 r c).trans (bias_chunk v21 v23 v84 r c)

/-- Rows 160–191. -/
theorem pay18_apply (v21 : Vec Ideal S1x64 .f32) (v23 : Vec Ideal S1 .f32) (v99 : Vec Ideal S32x128x64 .f32)
    (r : Fin 32) (c : Fin 128) :
    k0_pay18 (k0_pay17 (k0_pay9 v21) v23 v99) (ix2 r c) = bchunk v21 v23 v99 r c := by
  unfold k0_pay18
  refine (congrFun (shapeCast_self _ _) _).trans ?_
  unfold k0_pay17
  exact (bias_full (k0_pay9 v21) v23 v99 r c).trans (bias_chunk v21 v23 v99 r c)

/-- Rows 192–223. -/
theorem pay19_apply (v21 : Vec Ideal S1x64 .f32) (v23 : Vec Ideal S1 .f32) (v114 : Vec Ideal S32x128x64 .f32)
    (r : Fin 32) (c : Fin 128) :
    k0_pay19 (k0_pay9 v21) v23 v114 (ix2 r c) = bchunk v21 v23 v114 r c := by
  unfold k0_pay19
  refine (congrFun (shapeCast_self _ _) _).trans ?_
  exact (bias_full (k0_pay9 v21) v23 v114 r c).trans (bias_chunk v21 v23 v114 r c)

/-- Rows 224–255. -/
theorem pay20_apply (v21 : Vec Ideal S1x64 .f32) (v23 : Vec Ideal S1 .f32) (v129 : Vec Ideal S32x128x64 .f32)
    (r : Fin 32) (c : Fin 128) :
    k0_pay20 (k0_pay9 v21) v23 v129 (ix2 r c) = bchunk v21 v23 v129 r c := by
  unfold k0_pay20
  refine (congrFun (shapeCast_self _ _) _).trans ?_
  exact (bias_full (k0_pay9 v21) v23 v129 r c).trans (bias_chunk v21 v23 v129 r c)

end Cert.Pay

end
-- ==== Proof.PieceBias.lean ====
/-
  The bias buffer, entry by entry, at the exact extended reals.

  Row `p = 32 k + r` of the bias buffer lies in chunk `k`, whose store holds the bias of row `r` of the
  rows `32 k … 32 k + 31` of the position block: that is the bias of row `p` of the whole block. The eight
  chunks tile the buffer, so the buffer is that one function of `(p, c)`.
-/
import proofs.«101895_j70987219469020_2_alg».proof.Proof.Gen.KernelIdeal.Launch
import proofs.«101895_j70987219469020_2_alg».proof.Proof.Gen.KernelIdeal.Skeleton
import proofs.«101895_j70987219469020_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import proofs.«101895_j70987219469020_2_alg».proof.Proof.PieceBase
import proofs.«101895_j70987219469020_2_alg».proof.Proof.PayBias
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-- The geometric bias of the pair (row `p`, column `c`) of the position block `x2`. -/
def biasAt (x3 : Vec Ideal S1x64 .f32) (x4 : Vec Ideal S1 .f32) (x2 : Vec Ideal S256x128x64 .f32)
    (p : Fin 256) (c : Fin 128) : EReal :=
  Cert.Pay.bclamp ((∑ g : Fin 64, x2 (ix3 p c g) * x3 (ix2 (0 : Fin 1) g)) + x4 (ix1 (0 : Fin 1)))

/-- The same as a function of the buffer's index. -/
def biasFn (x3 : Vec Ideal S1x64 .f32) (x4 : Vec Ideal S1 .f32) (x2 : Vec Ideal S256x128x64 .f32) :
    S256x128.Idx → EReal :=
  fun y => biasAt x3 x4 x2 (idxEquiv2 (n0 := 256) (n1 := 128) y).1 (idxEquiv2 (n0 := 256) (n1 := 128) y).2

/-- The chunk that starts at row `o`: its bias at `(r, c)` is the whole block's bias at `(o + r, c)`. -/
theorem chunk_at (o : ℕ) (inb2 : ∀ a, (![o, 0] : Fin 2 → ℕ) a + S32x128.size a ≤ S256x128.size a)
    (inb3 : ∀ a, (![o, 0, 0] : Fin 3 → ℕ) a + S32x128x64.size a ≤ S256x128x64.size a)
    (x3 : Vec Ideal S1x64 .f32) (x4 : Vec Ideal S1 .f32) (x2 : Vec Ideal S256x128x64 .f32) (r : Fin 32) (c : Fin 128) :
    Cert.Pay.bchunk x3 x4 (View.ld x2 (Rect.unit ![o, 0, 0] S32x128x64.size inb3)) r c
      = biasFn x3 x4 x2 ((Rect.unit (s := S256x128) ![o, 0] S32x128.size inb2).emb (ix2 r c)) := by
  rw [Cert.Pay.bchunk_eq]
  show Cert.Pay.bclamp _ = Cert.Pay.bclamp _
  refine congrArg (fun S => Cert.Pay.bclamp (S + x4 (ix1 (0 : Fin 1)))) ?_
  refine Finset.sum_congr rfl fun g _ => ?_
  refine congrArg (· * x3 (ix2 (0 : Fin 1) g)) ?_
  refine congrArg x2 (funext fun a => Fin.ext ?_)
  match a with
  | ⟨0, _⟩ => rfl
  | ⟨1, _⟩ => rfl
  | ⟨2, _⟩ => show 0 + 1 * g.val = g.val; omega

/-- THE BIAS BUFFER AT `(p, c)`: the geometric bias of row `p`, column `c` of the position block. -/
theorem biasBuf_apply (x3 : Vec Ideal S1x64 .f32) (x4 : Vec Ideal S1 .f32) (x2 : Vec Ideal S256x128x64 .f32)
    (p : Fin 256) (c : Fin 128) :
    biasBuf x3 x4 x2 (ix2 p c)
      = Cert.Pay.bclamp ((∑ g : Fin 64, x2 (ix3 p c g) * x3 (ix2 (0 : Fin 1) g)) + x4 (ix1 (0 : Fin 1))) := by
  unfold biasBuf
  refine View.canon_apply_of_pieces (Val := Elt Ideal) (S := S256x128) (e := .f32) (biasFn x3 x4 x2) _ ?_ (ix2 p c)
    (View.cover_of_tiledL (s := S256x128) _ ![32, 128] (by sl_kernel_rfl) (ix2 p c))
  intro q hq
  simp only [List.mem_cons, List.not_mem_nil, or_false] at hq
  rcases hq with rfl | rfl | rfl | rfl | rfl | rfl | rfl | rfl
  · intro x
    obtain ⟨r, c, rfl⟩ : ∃ (r : Fin 32) (c : Fin 128), x = ix2 r c := ⟨x 0, x 1, eq_ix2 x⟩
    exact (Cert.Pay.pay20_apply x3 x4 _ r c).trans (chunk_at 224 inb_S256x128_S32x128_224_0 inb_S256x128x64_S32x128x64_224_0_0 x3 x4 x2 r c)
  · intro x
    obtain ⟨r, c, rfl⟩ : ∃ (r : Fin 32) (c : Fin 128), x = ix2 r c := ⟨x 0, x 1, eq_ix2 x⟩
    exact (Cert.Pay.pay19_apply x3 x4 _ r c).trans (chunk_at 192 inb_S256x128_S32x128_192_0 inb_S256x128x64_S32x128x64_192_0_0 x3 x4 x2 r c)
  · intro x
    obtain ⟨r, c, rfl⟩ : ∃ (r : Fin 32) (c : Fin 128), x = ix2 r c := ⟨x 0, x 1, eq_ix2 x⟩
    exact (Cert.Pay.pay18_apply x3 x4 _ r c).trans (chunk_at 160 inb_S256x128_S32x128_160_0 inb_S256x128x64_S32x128x64_160_0_0 x3 x4 x2 r c)
  · intro x
    obtain ⟨r, c, rfl⟩ : ∃ (r : Fin 32) (c : Fin 128), x = ix2 r c := ⟨x 0, x 1, eq_ix2 x⟩
    exact (Cert.Pay.pay16_apply x3 x4 _ r c).trans (chunk_at 128 inb_S256x128_S32x128_128_0 inb_S256x128x64_S32x128x64_128_0_0 x3 x4 x2 r c)
  · intro x
    obtain ⟨r, c, rfl⟩ : ∃ (r : Fin 32) (c : Fin 128), x = ix2 r c := ⟨x 0, x 1, eq_ix2 x⟩
    exact (Cert.Pay.pay15_apply x3 x4 _ r c).trans (chunk_at 96 inb_S256x128_S32x128_96_0 inb_S256x128x64_S32x128x64_96_0_0 x3 x4 x2 r c)
  · intro x
    obtain ⟨r, c, rfl⟩ : ∃ (r : Fin 32) (c : Fin 128), x = ix2 r c := ⟨x 0, x 1, eq_ix2 x⟩
    exact (Cert.Pay.pay13_apply x3 x4 _ r c).trans (chunk_at 64 inb_S256x128_S32x128_64_0 inb_S256x128x64_S32x128x64_64_0_0 x3 x4 x2 r c)
  · intro x
    obtain ⟨r, c, rfl⟩ : ∃ (r : Fin 32) (c : Fin 128), x = ix2 r c := ⟨x 0, x 1, eq_ix2 x⟩
    exact (Cert.Pay.pay12_apply x3 x4 _ r c).trans (chunk_at 32 inb_S256x128_S32x128_32_0 inb_S256x128x64_S32x128x64_32_0_0 x3 x4 x2 r c)
  · intro x
    obtain ⟨r, c, rfl⟩ : ∃ (r : Fin 32) (c : Fin 128), x = ix2 r c := ⟨x 0, x 1, eq_ix2 x⟩
    exact (Cert.Pay.pay11_apply x3 x4 _ r c).trans (chunk_at 0 inb_S256x128_S32x128_0_0 inb_S256x128x64_S32x128x64_0_0_0 x3 x4 x2 r c)

end Cert.KernelIdeal.Hand

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.PayInit.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.LibLayout3
import proofs.«101895_j70987219469020_2_alg».proof.Proof.LibNormSum

/-!
# The initial state and the final normalisation, entry by entry

Before the first column tile the running maximum of every row is `-∞`, its normaliser `0` and its
weighted sum `0`. After the last tile each entry of the weighted sum is multiplied by the reciprocal
`1 / l` of its row's normaliser. Everything is read at the exact extended reals.
-/

noncomputable section

namespace Cert.Pay

open Idealize.ShloMosaic Idealize.ShloMosaic.ValueIdx
open Cert.KernelIdeal Cert.KernelIdeal.Gen Cert.KernelIdeal.Facts₀ Cert.KernelIdeal.Facts

variable [Cert.KernelIdeal.Facts]

/-- The single-precision word of `1.0` is the real number one. -/
theorem one_word : Ideal.ofBits .f32 0x3F800000#32 = ((1 : ℝ) : EReal) :=
  Cert.NormSum.one_word.trans EReal.coe_one.symm

/-- The single-precision word of `-∞` is the bottom of the extended reals. -/
theorem neg_inf_word : Ideal.ofBits .f32 0xFF800000#32 = (⊥ : EReal) := by
  simp [Ideal.ofBits, Ideal.ieee]

/-- The normalised output: the weighted sum times the reciprocal of the row's normaliser. -/
theorem pay1_apply (v186 : Vec Ideal S256x64 .f32) (v187 : Vec Ideal S256x1 .f32) (p : Fin 256) (h : Fin 64) :
    k0_pay1 v186 v187 (ix2 p h)
      = v186 (ix2 p h) * Ideal.div (Ideal.ofBits .f32 0x3F800000#32) (v187 (ix2 p (0 : Fin 1))) := by
  unfold k0_pay1
  refine (mulf_apply _ _ _).trans ?_
  refine congrArg (v186 (ix2 p h) * ·) ?_
  exact Cert.LibLayout3.broadcastTo_a1_ab_apply _ _ p h

/-- The running maximum starts at `-∞`. -/
theorem pay2_apply (p : Fin 256) : k0_pay2 (F := Ideal) (ix2 p (0 : Fin 1)) = (⊥ : EReal) := by
  unfold k0_pay2
  rw [shapeCast_self]
  exact neg_inf_word

/-- The normaliser starts at `0`. -/
theorem pay3_apply (p : Fin 256) : k0_pay3 (F := Ideal) (ix2 p (0 : Fin 1)) = (0 : EReal) := by
  unfold k0_pay3
  rw [shapeCast_self]
  exact Ideal.ofBits_zero_f32

/-- The weighted sum starts at `0`. -/
theorem pay4_apply (p : Fin 256) (h : Fin 64) : k0_pay4 (F := Ideal) (ix2 p h) = (0 : EReal) := by
  unfold k0_pay4
  rw [shapeCast_self]
  exact Ideal.ofBits_zero_f32

end Cert.Pay

end
-- ==== Proof.LibOnlineSoftmax.lean ====
import Idealize.ShloMosaic.PureOps.Ideal

/-!
# Streaming ("online") softmax equals plain softmax, on the extended reals

One query row of an attention computation has scores `s k c` (tile `k`, column `c`) and values
`v k c h` (head coordinate `h`). Its softmax-weighted sum is
`∑ k c, (exp (s k c - M) / L) * v k c h` with `M` the maximum of all scores and
`L = ∑ k c, exp (s k c - M)`.

The streaming form never sees all scores at once: it keeps a state `(m, l, acc)` — the running
maximum, the running normaliser and the running weighted sum — starts from `(⊥, 0, 0)`, and folds
in one tile at a time:
`m' = max m (max of the tile)`, `a = exp (m - m')`,
`l' = a * l + ∑ c, exp (s c - m')`, `acc' h = a * acc h + ∑ c, exp (s c - m') * v c h`;
the result is `acc h / l`.

Everything is an extended real (`EReal`) with the exact operations `Ideal.exp` and `Ideal.div`.
A masked column has score `⊥`, where `exp ⊥ = 0`. Under the hypotheses that no score is `⊤`, every
value is a real number, and the first tile has at least one real score, the two results agree
(`run_div_eq_softmax`).

The proof: after the tiles `k ≤ n` the state is
`(M, ∑ exp (s - M), ∑ exp (s - M) * v)` with `M` the maximum so far, a real number (`run_inv`).
A step rescales by `exp (M - M')`, and `exp (M - M') * exp (x - M) = exp (x - M')` for real `x`,
`0 = 0` for `x = ⊥` (`E_shift`). Every quantity is the coercion of a real number, so the algebra is
done in `ℝ` and the coercion is pushed through the finite sums (`coe_sum`). The last step is
`(∑ e * v) / L = ∑ (e / L) * v` for a real `L ≠ 0`.

The last section drops masked columns from a maximum, a normaliser and a weighted sum.
-/

noncomputable section

namespace Cert.LibOnlineSoftmax

open Idealize.ShloMosaic
open scoped BigOperators

variable {C : Type*} {H : Type*} [Fintype C]

/-- Coercion of a finite real sum. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The real number `exp (x - M)` for a score `x` that is real or `⊥` (where it is `0`). -/
def E (x : EReal) (M : ℝ) : ℝ := (Ideal.exp (x - (M : EReal))).toReal

/-- A masked score contributes `0`. -/
theorem E_bot (M : ℝ) : E ⊥ M = 0 := by
  rw [E, EReal.bot_sub, Ideal.exp_bot, EReal.toReal_zero]

/-- A real score `r` contributes `exp (r - M)`. -/
theorem E_coe (r M : ℝ) : E (r : EReal) M = Real.exp (r - M) := by
  rw [E, ← EReal.coe_sub, Ideal.exp_coe, EReal.toReal_coe]

/-- For a score that is not `⊤`, `exp (x - M)` against a real `M` is a real number. -/
theorem exp_sub_coe {x : EReal} (hx : x ≠ ⊤) (M : ℝ) :
    Ideal.exp (x - (M : EReal)) = ((E x M : ℝ) : EReal) := by
  induction x using EReal.rec with
  | bot => rw [E_bot, EReal.bot_sub, Ideal.exp_bot, EReal.coe_zero]
  | coe r => rw [E_coe, ← EReal.coe_sub, Ideal.exp_coe]
  | top => exact absurd rfl hx

/-- Every term is non-negative. -/
theorem E_nonneg (x : EReal) (M : ℝ) : 0 ≤ E x M := by
  induction x using EReal.rec with
  | bot => rw [E_bot]
  | coe r => rw [E_coe]; exact (Real.exp_pos _).le
  | top => rw [E, EReal.top_sub_coe, Ideal.exp_top, EReal.toReal_top]

/-- A real score's term is positive. -/
theorem E_pos {x : EReal} (hx : x ≠ ⊤) (hx' : x ≠ ⊥) (M : ℝ) : 0 < E x M := by
  induction x using EReal.rec with
  | bot => exact absurd rfl hx'
  | coe r => rw [E_coe]; exact Real.exp_pos _
  | top => exact absurd rfl hx

/-- Changing the reference maximum from `M` to `M'` rescales a term by `exp (M - M')`: for a real
    score `exp (M - M') * exp (x - M) = exp (x - M')`, and for a masked one `0 = 0`. -/
theorem E_shift {x : EReal} (hx : x ≠ ⊤) (M M' : ℝ) : Real.exp (M - M') * E x M = E x M' := by
  induction x using EReal.rec with
  | bot => rw [E_bot, E_bot, mul_zero]
  | coe r => rw [E_coe, E_coe, ← Real.exp_add]; congr 1; ring
  | top => exact absurd rfl hx

/-! ### The streaming state -/

/-- The state of the streaming softmax of one query row: the running maximum `m`, the running
    normaliser `l`, and the running weighted sum `acc` (one entry per head coordinate). -/
structure St (H : Type*) where
  m : EReal
  l : EReal
  acc : H → EReal

/-- The state before any tile: maximum `⊥`, normaliser `0`, weighted sum `0`. -/
def St.init : St H := ⟨⊥, 0, fun _ => 0⟩

/-- Fold one tile, with scores `s` and values `v`, into the state: the new maximum is
    `m' = max m (max of s)`, the old normaliser and weighted sum are rescaled by `exp (m - m')`, and
    the tile's terms `exp (s c - m')` and `exp (s c - m') * v c h` are added. -/
def St.step (s : C → EReal) (v : C → H → EReal) (st : St H) : St H where
  m := max st.m (Finset.univ.fold max ⊥ s)
  l := Ideal.exp (st.m - max st.m (Finset.univ.fold max ⊥ s)) * st.l
        + ∑ c, Ideal.exp (s c - max st.m (Finset.univ.fold max ⊥ s))
  acc := fun h => Ideal.exp (st.m - max st.m (Finset.univ.fold max ⊥ s)) * st.acc h
        + ∑ c, Ideal.exp (s c - max st.m (Finset.univ.fold max ⊥ s)) * v c h

theorem St.step_m (s : C → EReal) (v : C → H → EReal) (st : St H) :
    (St.step s v st).m = max st.m (Finset.univ.fold max ⊥ s) := rfl

theorem St.step_l (s : C → EReal) (v : C → H → EReal) (st : St H) :
    (St.step s v st).l
      = Ideal.exp (st.m - max st.m (Finset.univ.fold max ⊥ s)) * st.l
        + ∑ c, Ideal.exp (s c - max st.m (Finset.univ.fold max ⊥ s)) := rfl

theorem St.step_acc (s : C → EReal) (v : C → H → EReal) (st : St H) (h : H) :
    (St.step s v st).acc h
      = Ideal.exp (st.m - max st.m (Finset.univ.fold max ⊥ s)) * st.acc h
        + ∑ c, Ideal.exp (s c - max st.m (Finset.univ.fold max ⊥ s)) * v c h := rfl

/-- The state after the tiles `k < n`, folded in in order from `St.init`. -/
def St.run (s : ℕ → C → EReal) (v : ℕ → C → H → EReal) : ℕ → St H
  | 0 => St.init
  | n + 1 => St.step (s n) (v n) (St.run s v n)

theorem St.run_zero (s : ℕ → C → EReal) (v : ℕ → C → H → EReal) :
    St.run s v 0 = St.init := rfl

theorem St.run_succ (s : ℕ → C → EReal) (v : ℕ → C → H → EReal) (n : ℕ) :
    St.run s v (n + 1) = St.step (s n) (v n) (St.run s v n) := rfl

/-- The maximum of the scores of the tiles `k < n`, as the nested fold of `max` from `⊥`. -/
def runMax (s : ℕ → C → EReal) (n : ℕ) : EReal :=
  (Finset.range n).fold max ⊥ (fun k => Finset.univ.fold max ⊥ (s k))

/-- No tiles: the maximum is `⊥`. -/
theorem runMax_zero (s : ℕ → C → EReal) : runMax s 0 = ⊥ := by
  rw [runMax, Finset.range_zero, Finset.fold_empty]

/-- One more tile: the maximum so far against that tile's maximum. -/
theorem runMax_succ (s : ℕ → C → EReal) (n : ℕ) :
    runMax s (n + 1) = max (runMax s n) (Finset.univ.fold max ⊥ (s n)) := by
  rw [runMax, Finset.range_add_one, Finset.fold_insert Finset.notMem_range_self, max_comm, runMax]

/-- The running maximum after the tiles `k < n` is the maximum of all their scores. -/
theorem run_m (s : ℕ → C → EReal) (v : ℕ → C → H → EReal) (n : ℕ) :
    (St.run s v n).m = runMax s n := by
  induction n with
  | zero => rw [runMax_zero]; rfl
  | succ n ih =>
    show max (St.run s v n).m (Finset.univ.fold max ⊥ (s n)) = _
    rw [ih, runMax_succ]

/-- No score is `⊤`, so the maximum is not. -/
theorem runMax_ne_top (s : ℕ → C → EReal) (n : ℕ) (hs : ∀ k < n, ∀ c, s k c ≠ ⊤) :
    runMax s n ≠ ⊤ := by
  refine ((Finset.fold_max_lt _).2 ⟨bot_lt_top, fun k hk => ?_⟩).ne
  exact (Finset.fold_max_lt _).2
    ⟨bot_lt_top, fun c _ => lt_top_iff_ne_top.2 (hs k (Finset.mem_range.1 hk) c)⟩

/-- Tile `0` has a score above `⊥`, so every maximum that includes tile `0` is above `⊥`. -/
theorem runMax_ne_bot (s : ℕ → C → EReal) (n : ℕ) (h0 : ∃ c, s 0 c ≠ ⊥) :
    runMax s (n + 1) ≠ ⊥ := by
  obtain ⟨c, hc⟩ := h0
  refine ((Finset.lt_fold_max _).2 (Or.inr ⟨0, Finset.mem_range.2 n.succ_pos, ?_⟩)).ne'
  exact (Finset.lt_fold_max _).2 (Or.inr ⟨c, Finset.mem_univ c, bot_lt_iff_ne_bot.2 hc⟩)

/-! ### One step, on a state of real numbers -/

/-- A tile's normaliser terms against a real maximum sum to a real number. -/
theorem sum_exp_coe (s : C → EReal) (hs : ∀ c, s c ≠ ⊤) (M : ℝ) :
    ∑ c, Ideal.exp (s c - (M : EReal)) = ((∑ c, E (s c) M : ℝ) : EReal) := by
  rw [coe_sum]
  exact Finset.sum_congr rfl (fun c _ => exp_sub_coe (hs c) M)

/-- A tile's weighted terms against a real maximum, with real values, sum to a real number. -/
theorem sum_exp_mul_coe (s : C → EReal) (hs : ∀ c, s c ≠ ⊤) (w : C → EReal)
    (hw : ∀ c, w c ≠ ⊤ ∧ w c ≠ ⊥) (M : ℝ) :
    ∑ c, Ideal.exp (s c - (M : EReal)) * w c
      = ((∑ c, E (s c) M * (w c).toReal : ℝ) : EReal) := by
  rw [coe_sum]
  refine Finset.sum_congr rfl (fun c _ => ?_)
  rw [EReal.coe_mul, EReal.coe_toReal (hw c).1 (hw c).2, exp_sub_coe (hs c) M]

/-- One step on a state whose normaliser and weighted sum are real, when the new maximum `M'` is
    real and the rescaling factor `exp (m - M')` is the real `a`: the new normaliser and weighted sum
    are the real numbers `a * L + ∑ exp (s - M')` and `a * A h + ∑ exp (s - M') * v`. -/
theorem step_coe (s : C → EReal) (v : C → H → EReal) (hs : ∀ c, s c ≠ ⊤)
    (hv : ∀ c h, v c h ≠ ⊤ ∧ v c h ≠ ⊥) (st : St H) (M' : ℝ)
    (hM' : max st.m (Finset.univ.fold max ⊥ s) = (M' : EReal)) (a : ℝ)
    (ha : Ideal.exp (st.m - (M' : EReal)) = (a : EReal)) (L : ℝ) (hl : st.l = (L : EReal))
    (A : H → ℝ) (hacc : ∀ h, st.acc h = (A h : EReal)) :
    (St.step s v st).l = ((a * L + ∑ c, E (s c) M' : ℝ) : EReal)
      ∧ ∀ h, (St.step s v st).acc h
          = ((a * A h + ∑ c, E (s c) M' * (v c h).toReal : ℝ) : EReal) := by
  constructor
  · show Ideal.exp (st.m - max st.m (Finset.univ.fold max ⊥ s)) * st.l
        + ∑ c, Ideal.exp (s c - max st.m (Finset.univ.fold max ⊥ s)) = _
    rw [hM', ha, hl, sum_exp_coe s hs M', EReal.coe_add, EReal.coe_mul]
  · intro h
    show Ideal.exp (st.m - max st.m (Finset.univ.fold max ⊥ s)) * st.acc h
        + ∑ c, Ideal.exp (s c - max st.m (Finset.univ.fold max ⊥ s)) * v c h = _
    rw [hM', ha, hacc h, sum_exp_mul_coe s hs (fun c => v c h) (fun c => hv c h) M',
      EReal.coe_add, EReal.coe_mul]

/-! ### The invariant -/

/-- After the tiles `k ≤ n` the running maximum is the maximum `M` of all their scores, a real
    number; the running normaliser is `∑ exp (s - M)` and the running weighted sum is
    `∑ exp (s - M) · v`, over all their columns, both real. -/
theorem run_inv (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
        = ((∑ k ∈ Finset.range (n + 1), ∑ c, E (s k c) (runMax s (n + 1)).toReal : ℝ) : EReal)
      ∧ ∀ h, (St.run s v (n + 1)).acc h
        = ((∑ k ∈ Finset.range (n + 1), ∑ c,
              E (s k c) (runMax s (n + 1)).toReal * (v k c h).toReal : ℝ) : EReal) := by
  induction n with
  | zero =>
    have hM : runMax s 1 = ((runMax s 1).toReal : EReal) :=
      (EReal.coe_toReal (runMax_ne_top s 1 (fun k hk => hs k (Nat.lt_succ_iff.1 hk)))
        (runMax_ne_bot s 0 h0)).symm
    have hstep := step_coe (s 0) (v 0) (hs 0 le_rfl) (hv 0 le_rfl) (St.init : St H)
      (runMax s 1).toReal
      (by rw [← hM, runMax_succ, runMax_zero]; rfl) 0
      (by show Ideal.exp (⊥ - _) = _; rw [EReal.bot_sub, Ideal.exp_bot, EReal.coe_zero]) 0
      (by show (0 : EReal) = _; rw [EReal.coe_zero]) (fun _ => 0)
      (fun _ => by show (0 : EReal) = _; rw [EReal.coe_zero])
    refine ⟨?_, fun h => ?_⟩
    · rw [Finset.sum_range_one]
      have := hstep.1
      rw [mul_zero, zero_add] at this
      exact this
    · rw [Finset.sum_range_one]
      have := hstep.2 h
      rw [mul_zero, zero_add] at this
      exact this
  | succ n ih =>
    obtain ⟨ihl, ihacc⟩ := ih (fun k hk => hs k (Nat.le_succ_of_le hk))
      (fun k hk => hv k (Nat.le_succ_of_le hk))
    have hM : runMax s (n + 1) = ((runMax s (n + 1)).toReal : EReal) :=
      (EReal.coe_toReal (runMax_ne_top s (n + 1) (fun k hk => hs k (Nat.le_of_lt hk)))
        (runMax_ne_bot s n h0)).symm
    have hM' : runMax s (n + 2) = ((runMax s (n + 2)).toReal : EReal) :=
      (EReal.coe_toReal (runMax_ne_top s (n + 2) (fun k hk => hs k (Nat.lt_succ_iff.1 hk)))
        (runMax_ne_bot s (n + 1) h0)).symm
    set M := (runMax s (n + 1)).toReal with hMdef
    set M' := (runMax s (n + 2)).toReal with hM'def
    have hstep := step_coe (s (n + 1)) (v (n + 1)) (hs (n + 1) le_rfl) (hv (n + 1) le_rfl)
      (St.run s v (n + 1)) M'
      (by rw [run_m, ← hM', runMax_succ s (n + 1)]) (Real.exp (M - M'))
      (by rw [run_m, hM, ← EReal.coe_sub, Ideal.exp_coe]) _ ihl _ ihacc
    have hsk : ∀ k ∈ Finset.range (n + 1), ∀ c, s k c ≠ ⊤ :=
      fun k hk c => hs k (Nat.le_of_lt (Finset.mem_range.1 hk)) c
    refine ⟨?_, fun h => ?_⟩
    · show (St.step (s (n + 1)) (v (n + 1)) (St.run s v (n + 1))).l = _
      rw [hstep.1, Finset.sum_range_succ _ (n + 1), Finset.mul_sum]
      congr 2
      refine Finset.sum_congr rfl (fun k hk => ?_)
      rw [Finset.mul_sum]
      exact Finset.sum_congr rfl (fun c _ => E_shift (hsk k hk c) M M')
    · show (St.step (s (n + 1)) (v (n + 1)) (St.run s v (n + 1))).acc h = _
      rw [hstep.2 h, Finset.sum_range_succ _ (n + 1), Finset.mul_sum]
      congr 2
      refine Finset.sum_congr rfl (fun k hk => ?_)
      rw [Finset.mul_sum]
      refine Finset.sum_congr rfl (fun c _ => ?_)
      rw [← mul_assoc, E_shift (hsk k hk c) M M']

/-- The normaliser is positive: tile `0` has a real score and every term is non-negative. -/
theorem runSum_pos (n : ℕ) (s : ℕ → C → EReal) (hs : ∀ k ≤ n, ∀ c, s k c ≠ ⊤)
    (h0 : ∃ c, s 0 c ≠ ⊥) (M : ℝ) :
    0 < ∑ k ∈ Finset.range (n + 1), ∑ c, E (s k c) M := by
  obtain ⟨c0, hc0⟩ := h0
  refine Finset.sum_pos' (fun k _ => Finset.sum_nonneg (fun c _ => E_nonneg _ _))
    ⟨0, Finset.mem_range.2 n.succ_pos, ?_⟩
  exact Finset.sum_pos' (fun c _ => E_nonneg _ _)
    ⟨c0, Finset.mem_univ c0, E_pos (hs 0 (Nat.zero_le n) c0) hc0 M⟩

/-- The maximum of all scores of the tiles `k ≤ n` is a real number. -/
theorem runMax_coe (n : ℕ) (s : ℕ → C → EReal) (hs : ∀ k ≤ n, ∀ c, s k c ≠ ⊤)
    (h0 : ∃ c, s 0 c ≠ ⊥) :
    runMax s (n + 1) = ((runMax s (n + 1)).toReal : EReal) :=
  (EReal.coe_toReal (runMax_ne_top s (n + 1) (fun k hk => hs k (Nat.lt_succ_iff.1 hk)))
    (runMax_ne_bot s n h0)).symm

/-- The softmax normaliser `∑ exp (s - M)` over the tiles `k ≤ n` is a real number. -/
theorem runSum_coe (n : ℕ) (s : ℕ → C → EReal) (hs : ∀ k ≤ n, ∀ c, s k c ≠ ⊤) (M : ℝ) :
    ∑ k ∈ Finset.range (n + 1), ∑ c, Ideal.exp (s k c - (M : EReal))
      = ((∑ k ∈ Finset.range (n + 1), ∑ c, E (s k c) M : ℝ) : EReal) := by
  rw [coe_sum]
  exact Finset.sum_congr rfl
    (fun k hk => sum_exp_coe (s k) (hs k (Nat.lt_succ_iff.1 (Finset.mem_range.1 hk))) M)

/-- **Streaming softmax equals plain softmax.** Fold the tiles `0, …, n` of one query row into the
    state `(m, l, acc)` from `(⊥, 0, 0)`; then `acc / l` is the softmax-weighted sum of the values
    over all the columns of those tiles, with the softmax taken against the maximum `M` of all the
    scores and normalised by `L = ∑ exp (s - M)`. Scores are real or `⊥` (a masked column), values
    are real, and tile `0` has at least one real score. -/
theorem run_div_eq_softmax (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    Ideal.div ((St.run s v (n + 1)).acc h) (St.run s v (n + 1)).l
      = ∑ k ∈ Finset.range (n + 1), ∑ c,
          Ideal.div
            (Ideal.exp (s k c
              - (Finset.range (n + 1)).fold max ⊥ (fun k => Finset.univ.fold max ⊥ (s k))))
            (∑ k' ∈ Finset.range (n + 1), ∑ c',
              Ideal.exp (s k' c'
                - (Finset.range (n + 1)).fold max ⊥ (fun k => Finset.univ.fold max ⊥ (s k))))
          * v k c h := by
  obtain ⟨hl, hacc⟩ := run_inv n s v hs hv h0
  have hM := runMax_coe n s hs h0
  show Ideal.div ((St.run s v (n + 1)).acc h) (St.run s v (n + 1)).l
      = ∑ k ∈ Finset.range (n + 1), ∑ c,
          Ideal.div (Ideal.exp (s k c - runMax s (n + 1)))
            (∑ k' ∈ Finset.range (n + 1), ∑ c', Ideal.exp (s k' c' - runMax s (n + 1)))
          * v k c h
  set M := (runMax s (n + 1)).toReal with hMdef
  have hLpos := runSum_pos n s hs h0 M
  have hmem : ∀ k ∈ Finset.range (n + 1), k ≤ n :=
    fun k hk => Nat.lt_succ_iff.1 (Finset.mem_range.1 hk)
  rw [hM, runSum_coe n s hs M, hl, hacc h]
  set L : ℝ := ∑ k ∈ Finset.range (n + 1), ∑ c, E (s k c) M with hLdef
  have hLne : L ≠ 0 := hLpos.ne'
  have hR : ∀ k ∈ Finset.range (n + 1),
      ∑ c, Ideal.div (Ideal.exp (s k c - (M : EReal))) (L : EReal) * v k c h
        = ((∑ c, E (s k c) M * (1 / L) * (v k c h).toReal : ℝ) : EReal) := by
    intro k hk
    refine ((coe_sum _ _).trans ?_).symm
    refine Finset.sum_congr rfl (fun c _ => ?_)
    rw [Ideal.div_coe hLne, exp_sub_coe (hs k (hmem k hk) c) M, EReal.coe_mul, EReal.coe_mul,
      EReal.coe_toReal (hv k (hmem k hk) c h).1 (hv k (hmem k hk) c h).2]
  have hsum : (∑ k ∈ Finset.range (n + 1), ∑ c,
        Ideal.div (Ideal.exp (s k c - (M : EReal))) (L : EReal) * v k c h)
      = ∑ k ∈ Finset.range (n + 1),
          ((∑ c, E (s k c) M * (1 / L) * (v k c h).toReal : ℝ) : EReal) :=
    Finset.sum_congr rfl hR
  rw [hsum, Ideal.div_coe hLne, ← coe_sum, ← EReal.coe_mul, Finset.sum_mul]
  congr 1
  refine Finset.sum_congr rfl (fun k _ => ?_)
  rw [Finset.sum_mul]
  exact Finset.sum_congr rfl (fun c _ => by ring)

/-- The running maximum after the tiles `k ≤ n` is the maximum of all their scores. -/
theorem run_m_eq (n : ℕ) (s : ℕ → C → EReal) (v : ℕ → C → H → EReal) :
    (St.run s v (n + 1)).m
      = (Finset.range (n + 1)).fold max ⊥ (fun k => Finset.univ.fold max ⊥ (s k)) :=
  run_m s v (n + 1)

/-- The maximum of all scores of the tiles `k ≤ n` is a real number. -/
theorem runMax_real (n : ℕ) (s : ℕ → C → EReal) (hs : ∀ k ≤ n, ∀ c, s k c ≠ ⊤)
    (h0 : ∃ c, s 0 c ≠ ⊥) :
    ∃ M : ℝ, (Finset.range (n + 1)).fold max ⊥ (fun k => Finset.univ.fold max ⊥ (s k))
      = (M : EReal) :=
  ⟨_, runMax_coe n s hs h0⟩

/-- The softmax normaliser over the tiles `k ≤ n` is a positive real number. -/
theorem runSum_real_pos (n : ℕ) (s : ℕ → C → EReal) (hs : ∀ k ≤ n, ∀ c, s k c ≠ ⊤)
    (h0 : ∃ c, s 0 c ≠ ⊥) :
    ∃ L : ℝ, 0 < L ∧
      ∑ k ∈ Finset.range (n + 1), ∑ c,
        Ideal.exp (s k c
          - (Finset.range (n + 1)).fold max ⊥ (fun k => Finset.univ.fold max ⊥ (s k)))
        = (L : EReal) := by
  refine ⟨_, runSum_pos n s hs h0 (runMax s (n + 1)).toReal, ?_⟩
  show ∑ k ∈ Finset.range (n + 1), ∑ c, Ideal.exp (s k c - runMax s (n + 1)) = _
  have hM := runMax_coe n s hs h0
  generalize (runMax s (n + 1)).toReal = M at hM ⊢
  rw [hM]
  exact runSum_coe n s hs M

/-- The running normaliser after the tiles `k ≤ n` is the softmax normaliser `∑ exp (s - M)` over
    all their columns, `M` the maximum of all their scores. -/
theorem run_l_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) :
    (St.run s v (n + 1)).l
      = ∑ k ∈ Finset.range (n + 1), ∑ c,
          Ideal.exp (s k c
            - (Finset.range (n + 1)).fold max ⊥ (fun k => Finset.univ.fold max ⊥ (s k))) := by
  show _ = ∑ k ∈ Finset.range (n + 1), ∑ c, Ideal.exp (s k c - runMax s (n + 1))
  rw [(run_inv n s v hs hv h0).1]
  have hM := runMax_coe n s hs h0
  generalize (runMax s (n + 1)).toReal = M at hM ⊢
  rw [hM]
  exact (runSum_coe n s hs M).symm

/-- The running weighted sum after the tiles `k ≤ n` is `∑ exp (s - M) * v` over all their columns,
    `M` the maximum of all their scores. -/
theorem run_acc_eq (n : ℕ) (s : ℕ → C → EReal) (v : ℕ → C → H → EReal)
    (hs : ∀ k ≤ n, ∀ c, s k c ≠ ⊤) (hv : ∀ k ≤ n, ∀ c h, v k c h ≠ ⊤ ∧ v k c h ≠ ⊥)
    (h0 : ∃ c, s 0 c ≠ ⊥) (h : H) :
    (St.run s v (n + 1)).acc h
      = ∑ k ∈ Finset.range (n + 1), ∑ c,
          Ideal.exp (s k c
            - (Finset.range (n + 1)).fold max ⊥ (fun k => Finset.univ.fold max ⊥ (s k)))
          * v k c h := by
  show _ = ∑ k ∈ Finset.range (n + 1), ∑ c, Ideal.exp (s k c - runMax s (n + 1)) * v k c h
  rw [(run_inv n s v hs hv h0).2 h]
  have hM := runMax_coe n s hs h0
  generalize (runMax s (n + 1)).toReal = M at hM ⊢
  rw [hM]
  refine (coe_sum _ _).trans (Finset.sum_congr rfl (fun k hk => ?_))
  have hk' : k ≤ n := Nat.lt_succ_iff.1 (Finset.mem_range.1 hk)
  exact (sum_exp_mul_coe (s k) (hs k hk') (fun c => v k c h) (fun c => hv k hk' c h) M).symm

/-! ### Dropping masked columns -/

/-- A maximum over all indices is the maximum over any set outside which the scores are `⊥`. -/
theorem fold_max_univ_eq {J : Type*} [Fintype J] (S : Finset J) (s : J → EReal)
    (hS : ∀ j, j ∉ S → s j = ⊥) : Finset.univ.fold max ⊥ s = S.fold max ⊥ s := by
  apply le_antisymm
  · refine (Finset.fold_max_le _).2 ⟨bot_le, fun j _ => ?_⟩
    by_cases hj : j ∈ S
    · exact (Finset.le_fold_max _).2 (Or.inr ⟨j, hj, le_rfl⟩)
    · rw [hS j hj]; exact bot_le
  · exact (Finset.fold_max_le _).2 ⟨bot_le, fun j _ =>
      (Finset.le_fold_max _).2 (Or.inr ⟨j, Finset.mem_univ j, le_rfl⟩)⟩

/-- A masked column (score `⊥`) contributes `exp ⊥ = 0` to the normaliser. -/
theorem sum_exp_univ_eq {J : Type*} [Fintype J] (S : Finset J) (s : J → EReal)
    (hS : ∀ j, j ∉ S → s j = ⊥) (M : EReal) :
    ∑ j, Ideal.exp (s j - M) = ∑ j ∈ S, Ideal.exp (s j - M) := by
  refine (Finset.sum_subset (Finset.subset_univ S) (fun j _ hj => ?_)).symm
  rw [hS j hj, EReal.bot_sub, Ideal.exp_bot]

/-- A masked column (score `⊥`) has weight `0 / L = 0` and contributes nothing to the weighted
    sum, whatever its value. -/
theorem sum_div_exp_univ_eq {J : Type*} [Fintype J] (S : Finset J) (s : J → EReal)
    (hS : ∀ j, j ∉ S → s j = ⊥) (M L : EReal) (hL : L ≠ 0) (w : J → EReal) :
    ∑ j, Ideal.div (Ideal.exp (s j - M)) L * w j
      = ∑ j ∈ S, Ideal.div (Ideal.exp (s j - M)) L * w j := by
  refine (Finset.sum_subset (Finset.subset_univ S) (fun j _ hj => ?_)).symm
  rw [hS j hj, EReal.bot_sub, Ideal.exp_bot, Ideal.div, if_neg hL, zero_mul, zero_mul]

end Cert.LibOnlineSoftmax

end
-- ==== Proof.PayStep.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.PayDot
import proofs.«101895_j70987219469020_2_alg».proof.Proof.PayInit
import proofs.«101895_j70987219469020_2_alg».proof.Proof.LibLayout3
import proofs.«101895_j70987219469020_2_alg».proof.Proof.LibOnlineSoftmax

/-!
# One tile folded into the streaming softmax state, row by row

For a row `p` of the row tile, the body reads the old running maximum `m`, normaliser `l` and
weighted sum `acc`, and the tile's scores `s c` and value rows. It stores
`m' = max m (max over the columns of s)`,
`l' = exp (m - m') * l + ∑ c, exp (s c - m')` and
`acc' h = exp (m - m') * acc h + ∑ c, exp (s c - m') * v c h`:
exactly one step of the streaming softmax on that row's state.
-/

noncomputable section

open scoped BigOperators

namespace Cert.Pay

open Idealize.ShloMosaic Idealize.ShloMosaic.ValueIdx
open Cert.KernelIdeal Cert.KernelIdeal.Gen Cert.KernelIdeal.Facts₀ Cert.KernelIdeal.Facts
open Cert.LibOnlineSoftmax

variable [Cert.KernelIdeal.Facts]

/-- The new running maximum of row `p`: the old one against the largest score of the row. -/
theorem pay22_apply (v14 : FVec Ideal S128x64 .f32) (v144 : Vec Ideal S256x128 .f32)
    (v145 : Vec Ideal S256x64 .f32) (v153 : Vec Ideal S256x1 .f32) (p : Fin 256) :
    k0_pay22 v14 v144 v145 v153 (ix2 p (0 : Fin 1))
      = max (v153 (ix2 p (0 : Fin 1)))
          (Finset.univ.fold max (⊥ : EReal) fun c : Fin 128 => k0_pay21 v14 v144 v145 (ix2 p c)) := by
  unfold k0_pay22
  refine (maximumf_apply _ _ _).trans ?_
  refine congrArg (max (v153 (ix2 p (0 : Fin 1)))) ?_
  refine (Cert.LibLayout3.shapeCast_a_a1_apply _ _ p 0).trans ?_
  refine (Cert.LibLayout3.max_ab_last _ _ rfl p).trans ?_
  exact congrArg (fun b : EReal => Finset.univ.fold max b fun c : Fin 128 => k0_pay21 v14 v144 v145 (ix2 p c))
    neg_inf_word

/-- The rescaling factor of row `p`: `exp (m - m')`. -/
theorem pay23_apply (v14 : FVec Ideal S128x64 .f32) (v144 : Vec Ideal S256x128 .f32)
    (v145 : Vec Ideal S256x64 .f32) (v153 : Vec Ideal S256x1 .f32) (p : Fin 256) :
    k0_pay23 v14 v144 v145 v153 (ix2 p (0 : Fin 1))
      = Ideal.exp (v153 (ix2 p (0 : Fin 1)) - k0_pay22 v14 v144 v145 v153 (ix2 p (0 : Fin 1))) := rfl

/-- The tile's term at `(p, c)`: `exp (s c - m')`. -/
theorem pay24_apply (v14 : FVec Ideal S128x64 .f32) (v144 : Vec Ideal S256x128 .f32)
    (v145 : Vec Ideal S256x64 .f32) (v153 : Vec Ideal S256x1 .f32) (p : Fin 256) (c : Fin 128) :
    k0_pay24 v14 v144 v145 v153 (ix2 p c)
      = Ideal.exp (k0_pay21 v14 v144 v145 (ix2 p c) - k0_pay22 v14 v144 v145 v153 (ix2 p (0 : Fin 1))) := by
  unfold k0_pay24
  show Ideal.exp (k0_pay21 v14 v144 v145 (ix2 p c) - broadcastTo S256x128 _ _ (ix2 p c)) = _
  exact congrArg (fun x => Ideal.exp (k0_pay21 v14 v144 v145 (ix2 p c) - x))
    (Cert.LibLayout3.broadcastTo_a1_ab_apply _ _ p c)

/-- The new normaliser of row `p`. -/
theorem pay25_apply (v14 : FVec Ideal S128x64 .f32) (v144 : Vec Ideal S256x128 .f32)
    (v145 : Vec Ideal S256x64 .f32) (v153 v162 : Vec Ideal S256x1 .f32) (p : Fin 256) :
    k0_pay25 v14 v144 v145 v153 v162 (ix2 p (0 : Fin 1))
      = k0_pay23 v14 v144 v145 v153 (ix2 p (0 : Fin 1)) * v162 (ix2 p (0 : Fin 1))
        + ∑ c : Fin 128, k0_pay24 v14 v144 v145 v153 (ix2 p c) := by
  unfold k0_pay25
  refine (congrFun (shapeCast_self _ _) _).trans ?_
  refine (addf_apply _ _ _).trans ?_
  refine congrArg₂ (· + ·) (mulf_apply _ _ _) ?_
  refine (Cert.LibLayout3.shapeCast_a_a1_apply _ _ p 0).trans ?_
  exact Cert.LibLayout3.sum_ab_last _ _ rfl p

/-- The new weighted sum of row `p` at head coordinate `h`. -/
theorem pay26_apply (v14 v20 : FVec Ideal S128x64 .f32) (v144 : Vec Ideal S256x128 .f32)
    (v145 : Vec Ideal S256x64 .f32) (v153 : Vec Ideal S256x1 .f32) (v170 : Vec Ideal S256x64 .f32)
    (p : Fin 256) (h : Fin 64) :
    k0_pay26 v14 v20 v144 v145 v153 v170 (ix2 p h)
      = k0_pay23 v14 v144 v145 v153 (ix2 p (0 : Fin 1)) * v170 (ix2 p h)
        + ∑ c : Fin 128, k0_pay24 v14 v144 v145 v153 (ix2 p c) * v20 (ix2 c h) := by
  unfold k0_pay26
  refine (congrFun (shapeCast_self _ _) _).trans ?_
  refine (addf_apply _ _ _).trans ?_
  refine congrArg₂ (· + ·) ?_ ?_
  · refine (mulf_apply _ _ _).trans ?_
    exact congrArg (· * v170 (ix2 p h)) (Cert.LibLayout3.broadcastTo_a1_ab_apply _ _ p h)
  · refine (congrArg (fun D => matmul D none _ _ _ (ix2 p h)) dot_value_eq).trans ?_
    exact (plain_matmul_apply 256 128 64 none _ _ p h).trans (Finset.sum_congr rfl fun c _ => rfl)

/-- The stored maximum is the new running maximum. -/
theorem pay27_apply (v14 : FVec Ideal S128x64 .f32) (v144 : Vec Ideal S256x128 .f32)
    (v145 : Vec Ideal S256x64 .f32) (v153 : Vec Ideal S256x1 .f32) (p : Fin 256) :
    k0_pay27 v14 v144 v145 v153 (ix2 p (0 : Fin 1)) = k0_pay22 v14 v144 v145 v153 (ix2 p (0 : Fin 1)) := by
  unfold k0_pay27
  exact congrFun (shapeCast_self _ _) _

/-! ### The three stores are one step of the streaming softmax -/

/-- The stored maximum of row `p` is the step's maximum. -/
theorem tile_step_m (v14 v20 : FVec Ideal S128x64 .f32) (v144 : Vec Ideal S256x128 .f32)
    (v145 : Vec Ideal S256x64 .f32) (v153 v162 : Vec Ideal S256x1 .f32) (v170 : Vec Ideal S256x64 .f32)
    (p : Fin 256) :
    k0_pay27 v14 v144 v145 v153 (ix2 p (0 : Fin 1))
      = (St.step (fun c : Fin 128 => k0_pay21 v14 v144 v145 (ix2 p c))
          (fun (c : Fin 128) (h : Fin 64) => v20 (ix2 c h))
          (⟨v153 (ix2 p (0 : Fin 1)), v162 (ix2 p (0 : Fin 1)), fun h => v170 (ix2 p h)⟩ : St (Fin 64))).m :=
  (pay27_apply v14 v144 v145 v153 p).trans (pay22_apply v14 v144 v145 v153 p)

/-- The stored normaliser of row `p` is the step's normaliser. -/
theorem tile_step_l (v14 v20 : FVec Ideal S128x64 .f32) (v144 : Vec Ideal S256x128 .f32)
    (v145 : Vec Ideal S256x64 .f32) (v153 v162 : Vec Ideal S256x1 .f32) (v170 : Vec Ideal S256x64 .f32)
    (p : Fin 256) :
    k0_pay25 v14 v144 v145 v153 v162 (ix2 p (0 : Fin 1))
      = (St.step (fun c : Fin 128 => k0_pay21 v14 v144 v145 (ix2 p c))
          (fun (c : Fin 128) (h : Fin 64) => v20 (ix2 c h))
          (⟨v153 (ix2 p (0 : Fin 1)), v162 (ix2 p (0 : Fin 1)), fun h => v170 (ix2 p h)⟩ : St (Fin 64))).l := by
  rw [pay25_apply, pay23_apply]
  simp only [pay24_apply, pay22_apply]
  rfl

/-- The stored weighted sum of row `p` is the step's weighted sum, at every head coordinate. -/
theorem tile_step_acc (v14 v20 : FVec Ideal S128x64 .f32) (v144 : Vec Ideal S256x128 .f32)
    (v145 : Vec Ideal S256x64 .f32) (v153 v162 : Vec Ideal S256x1 .f32) (v170 : Vec Ideal S256x64 .f32)
    (p : Fin 256) (h : Fin 64) :
    k0_pay26 v14 v20 v144 v145 v153 v170 (ix2 p h)
      = (St.step (fun c : Fin 128 => k0_pay21 v14 v144 v145 (ix2 p c))
          (fun (c : Fin 128) (h : Fin 64) => v20 (ix2 c h))
          (⟨v153 (ix2 p (0 : Fin 1)), v162 (ix2 p (0 : Fin 1)), fun h => v170 (ix2 p h)⟩ : St (Fin 64))).acc h := by
  rw [pay26_apply, pay23_apply]
  simp only [pay24_apply, pay22_apply]
  rfl

end Cert.Pay

end
-- ==== Proof.PayScore.lean ====
import proofs.«101895_j70987219469020_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«101895_j70987219469020_2_alg».proof.Proof.PayDot

/-!
# The scores of one tile, entry by entry

For a row `p` of the row tile and a column `c` of the column tile the score is the stored bias plus
the inner product of the cached key row `p` with the query row `c`, scaled by `1/8` (the word
`0x3E000000`). The query block is transposed before the product, so the product's right operand at
`(d, c)` is the query block at `(c, d)`.
-/

noncomputable section

open scoped BigOperators

namespace Cert.Pay

open Idealize.ShloMosaic Idealize.ShloMosaic.ValueIdx
open Cert.KernelIdeal Cert.KernelIdeal.Gen Cert.KernelIdeal.Facts₀ Cert.KernelIdeal.Facts

variable [Cert.KernelIdeal.Facts]

/-- The score at `(p, c)`: bias plus the scaled inner product of key row `p` and query row `c`. -/
theorem pay21_apply (v14 : FVec Ideal S128x64 .f32) (v144 : Vec Ideal S256x128 .f32)
    (v145 : Vec Ideal S256x64 .f32) (p : Fin 256) (c : Fin 128) :
    k0_pay21 v14 v144 v145 (ix2 p c)
      = v144 (ix2 p c)
        + (∑ d : Fin 64, v145 (ix2 p d) * v14 (ix2 c d)) * Ideal.ofBits .f32 0x3E000000#32 := by
  unfold k0_pay21
  refine (addf_apply _ _ _).trans ?_
  refine congrArg (v144 (ix2 p c) + ·) ?_
  refine (mulf_apply _ _ _).trans ?_
  refine congrArg (· * Ideal.ofBits .f32 0x3E000000#32) ?_
  refine (congrArg (fun D => matmul D none _ _ _ (ix2 p c)) dot_score_eq).trans ?_
  refine (plain_matmul_apply 256 64 128 none _ _ p c).trans ?_
  refine Finset.sum_congr rfl fun d _ => ?_
  refine congrArg (v145 (ix2 p d) * ·) ?_
  exact transpose_ix2_apply _ _ d c

end Cert.Pay

end
-- ==== Proof.TileMath.lean ====
/-
  One column tile folded into one row's state, in the kernel's own terms.

  Row `p` of a row tile carries three numbers per head coordinate: its running maximum, its running normaliser
  and its running weighted sum.  Folding a column tile in replaces them by the streaming-softmax step over the
  tile's 128 scores `B (p, c) + (∑ d, wk (p, d) * q (c, d)) * (1/8)` and value rows `v (c, ·)`; the reset values are the
  state before any tile.
-/
import proofs.«101895_j70987219469020_2_alg».proof.Proof.PayStep
import proofs.«101895_j70987219469020_2_alg».proof.Proof.PayScore
import proofs.«101895_j70987219469020_2_alg».proof.Proof.PayInit
import proofs.«101895_j70987219469020_2_alg».proof.Proof.LibOnlineSoftmax

noncomputable section

namespace Cert.Tile

open Cert.KernelIdeal Cert.KernelIdeal.Gen Cert.Pay Cert.LibOnlineSoftmax
open Idealize.ShloMosaic Idealize.ShloMosaic.ValueIdx
open scoped BigOperators

/-- Two streaming states with the same maximum, normaliser and weighted sum are the same state. -/
theorem St.ext' {H : Type*} (a b : St H) (hm : a.m = b.m) (hl : a.l = b.l) (hacc : ∀ h, a.acc h = b.acc h) : a = b := by
  cases a; cases b
  simp only at hm hl hacc
  subst hm hl
  have : _ = _ := funext hacc
  subst this
  rfl

/-- Row `p`'s state, read off the three buffers that carry it. -/
def rowState (mx l : Vec Ideal S256x1 .f32) (acc : Vec Ideal S256x64 .f32) (p : Fin 256) : St (Fin 64) :=
  ⟨mx (ix2 p (0 : Fin 1)), l (ix2 p (0 : Fin 1)), fun h => acc (ix2 p h)⟩

/-- The scores of row `p` against the tile's 128 columns. -/
def tileScores (q : FVec Ideal S128x64 .f32) (B : Vec Ideal S256x128 .f32) (wk : Vec Ideal S256x64 .f32) (p : Fin 256) (c : Fin 128) : EReal :=
  B (ix2 p c) + (∑ d : Fin 64, wk (ix2 p d) * q (ix2 c d)) * Ideal.ofBits .f32 0x3E000000#32

/-- Folding a tile in is the streaming-softmax step on every row. -/
theorem fold_tile (q v : FVec Ideal S128x64 .f32) (B : Vec Ideal S256x128 .f32) (wk : Vec Ideal S256x64 .f32)
    (mx l : Vec Ideal S256x1 .f32) (acc : Vec Ideal S256x64 .f32) (p : Fin 256) :
    rowState (k0_pay27 q B wk mx) (k0_pay25 q B wk mx l) (k0_pay26 q v B wk mx acc) p
      = St.step (tileScores q B wk p) (fun (c : Fin 128) (h : Fin 64) => v (ix2 c h)) (rowState mx l acc p) := by
  have hs : (fun c : Fin 128 => k0_pay21 q B wk (ix2 p c)) = tileScores q B wk p :=
    funext fun c => pay21_apply q B wk p c
  apply St.ext'
  · exact (tile_step_m q v B wk mx l acc p).trans (by rw [hs]; rfl)
  · exact (tile_step_l q v B wk mx l acc p).trans (by rw [hs]; rfl)
  · intro h
    exact (tile_step_acc q v B wk mx l acc p h).trans (by rw [hs]; rfl)

/-- The reset values are the state before any tile: maximum `-∞`, normaliser and weighted sum `0`. -/
theorem reset_state (p : Fin 256) :
    rowState (k0_pay2 (F := Ideal)) (k0_pay3 (F := Ideal)) (k0_pay4 (F := Ideal)) p = ⟨⊥, 0, fun _ => 0⟩ := by
  apply St.ext'
  · exact pay2_apply p
  · exact pay3_apply p
  · intro h; exact pay4_apply p h

end Cert.Tile

end
-- ==== Proof.Spec.lean ====
import Idealize.ShloMosaic.PureOps.Ideal
import Idealize.ShloMosaic.Lib.ValueIdx

/-!
# The attention with a geometric bias, as one function of its arguments

Row `m` of the result is a softmax-weighted sum of value rows:

* three linear projections of the appearance features, `K m d`, `Q n d`, `V n d`
  (`proj`: a row of `f_a` against a row of the weight matrix, plus the bias entry);
* a geometric bias `B m n = log (max ε (max (pe(m,n,·) · wg + bg) 0))`, with `ε` the
  single-precision word nearest to 10⁻⁶ (`bias`);
* the score `S m n = B m n + (∑ d, K m d * Q n d) * (1/8)` (`score`);
* the weights `exp (S m n - M m) / L m`, where `M m` is the largest score of row `m` and
  `L m = ∑ n, exp (S m n - M m)` (`rowMax`, `rowSum`);
* the result `out m h = ∑ n, (exp (S m n - M m) / L m) * V n h`.

Everything is an extended real; the operations are the exact ones.
-/

noncomputable section

namespace Cert.Spec

open Idealize.ShloMosaic Idealize.ShloMosaic.ValueIdx
open scoped BigOperators

/-- The appearance features, one row of 256 per item. -/
abbrev SFa : Shape := ⟨2, ![2048, 256]⟩
/-- The pairwise geometric embedding, 64 numbers per pair of items. -/
abbrev SPe : Shape := ⟨3, ![2048, 2048, 64]⟩
/-- The weight row of the geometric projection. -/
abbrev SWg : Shape := ⟨2, ![1, 64]⟩
/-- Its bias, one number. -/
abbrev SBg : Shape := ⟨1, ![1]⟩
/-- A projection's weight matrix, 64 rows of 256. -/
abbrev SW : Shape := ⟨2, ![64, 256]⟩
/-- A projection's bias, 64 numbers. -/
abbrev SB : Shape := ⟨1, ![64]⟩
/-- The result, one row of 64 per item. -/
abbrev SOut : Shape := ⟨2, ![2048, 64]⟩

/-- The single-precision word nearest to 10⁻⁶, below which the bias's argument is clamped. -/
abbrev epsW : BitVec 32 := 0x358637BD#32
/-- The single-precision word of 1/8. -/
abbrev eighthW : BitVec 32 := 0x3E000000#32

/-- A linear projection: row `n` of the features against row `d` of the weights, plus bias `d`. -/
def proj (fa : SFa.Idx → EReal) (w : SW.Idx → EReal) (b : SB.Idx → EReal) (n : Fin 2048) (d : Fin 64) :
    EReal :=
  (∑ a : Fin 256, fa (ix2 n a) * w (ix2 d a)) + b (ix1 d)

/-- The geometric projection of the pair `(m, n)` before the clamp. -/
def geo (pe : SPe.Idx → EReal) (wg : SWg.Idx → EReal) (bg : SBg.Idx → EReal) (m n : Fin 2048) : EReal :=
  (∑ g : Fin 64, pe (ix3 m n g) * wg (ix2 (0 : Fin 1) g)) + bg (ix1 (0 : Fin 1))

/-- The geometric bias: the logarithm of the projection clamped below at 0 and then at `ε`. -/
def bias (pe : SPe.Idx → EReal) (wg : SWg.Idx → EReal) (bg : SBg.Idx → EReal) (m n : Fin 2048) : EReal :=
  Ideal.log (max (Ideal.ofBits .f32 epsW) (max (geo pe wg bg m n) (Ideal.ofBits .f32 0x00000000#32)))

/-- The score of the pair `(m, n)`: the bias plus the scaled dot product of key `m` and query `n`. -/
def score (fa : SFa.Idx → EReal) (pe : SPe.Idx → EReal) (wg : SWg.Idx → EReal) (bg : SBg.Idx → EReal)
    (wk : SW.Idx → EReal) (bk : SB.Idx → EReal) (wq : SW.Idx → EReal) (bq : SB.Idx → EReal)
    (m n : Fin 2048) : EReal :=
  bias pe wg bg m n + (∑ d : Fin 64, proj fa wk bk m d * proj fa wq bq n d) * Ideal.ofBits .f32 eighthW

/-- The largest score of a row. -/
def rowMax (s : Fin 2048 → EReal) : EReal := Finset.univ.fold max ⊥ s

/-- The normaliser of a row: the sum of `exp (s n - M)`. -/
def rowSum (s : Fin 2048 → EReal) : EReal := ∑ n : Fin 2048, Ideal.exp (s n - rowMax s)

/-- The softmax-weighted sum of the values `v` under the scores `s`. -/
def attend (s : Fin 2048 → EReal) (v : Fin 2048 → EReal) : EReal :=
  ∑ n : Fin 2048, Ideal.div (Ideal.exp (s n - rowMax s)) (rowSum s) * v n

/-- The whole result as one function of the ten argument arrays. -/
def G (fa : SFa.Idx → EReal) (pe : SPe.Idx → EReal) (wg : SWg.Idx → EReal) (bg : SBg.Idx → EReal)
    (wk : SW.Idx → EReal) (bk : SB.Idx → EReal) (wq : SW.Idx → EReal) (bq : SB.Idx → EReal)
    (wv : SW.Idx → EReal) (bv : SB.Idx → EReal) : SOut.Idx → EReal :=
  fun i => attend (fun n => score fa pe wg bg wk bk wq bq (i 0) n) (fun n => proj fa wv bv n (i 1))

end Cert.Spec

end
-- ==== Proof.Online.lean ====
import Idealize.ShloMosaic.PureOps.Ideal
import Idealize.ShloMosaic.Lib.IdealHost
import proofs.«101895_j70987219469020_2_alg».proof.Proof.Spec
import proofs.«101895_j70987219469020_2_alg».proof.Proof.LibOnlineSoftmax

/-!
# The streaming softmax over sixteen tiles of 128 columns is the attention row

A row of 2048 scores `s n` and values `v n h` is cut into sixteen tiles of 128 consecutive columns:
column `c` of tile `k` is `n = 128 * k + c` (`tileS`, `tileV`). Folding the sixteen tiles into the
streaming state `(m, l, acc)` and multiplying `acc h` by `1 / l` gives the softmax-weighted sum of the
whole row (`online_attend`).

Three facts are put together.

* The streaming state after all tiles satisfies `acc h / l = ∑ k c, (exp (s k c - M) / L) * v k c h`,
  with `M` the nested maximum over tiles and columns and `L` the nested sum of the exponentials.
* The map `(k, c) ↦ 128 * k + c` is a bijection from `Fin 16 × Fin 128` onto `Fin 2048`, so a nested sum
  over tiles and columns is the sum over the row (`sum_tiles`, `sum_range_tiles`); the nested maximum
  is the maximum of the row because each is an upper bound of the other's terms (`fold_tiles_max`):
  the column `n` sits in tile `n / 128` at place `n % 128`.
* The normaliser `l` is a positive real `L`, where `x * (1 / L) = x / L` for every extended real `x`,
  and the single-precision word `0x3F800000` is the real `1`.
-/

noncomputable section

namespace Cert.Online

open Idealize.ShloMosaic Cert.LibOnlineSoftmax
open scoped BigOperators

/-- The scores of tile `k`: column `c` of the tile is column `128 * k + c` of the row. Beyond the
    sixteen tiles there is nothing: a masked score. -/
def tileS (s : Fin 2048 → EReal) (k : ℕ) (c : Fin 128) : EReal :=
  if h : k < 16 then s ⟨128 * k + c.val, by omega⟩ else ⊥

/-- The values of tile `k`: row `c` of the tile is row `128 * k + c` of the values. -/
def tileV (v : Fin 2048 → Fin 64 → EReal) (k : ℕ) (c : Fin 128) (h : Fin 64) : EReal :=
  if hk : k < 16 then v ⟨128 * k + c.val, by omega⟩ h else 0

theorem tileS_of_lt (s : Fin 2048 → EReal) (k : ℕ) (hk : k < 16) (c : Fin 128) :
    tileS s k c = s ⟨128 * k + c.val, by omega⟩ := dif_pos hk

theorem tileV_of_lt (v : Fin 2048 → Fin 64 → EReal) (k : ℕ) (hk : k < 16) (c : Fin 128) (h : Fin 64) :
    tileV v k c h = v ⟨128 * k + c.val, by omega⟩ h := dif_pos hk

/-! ### Tiles and columns against the row -/

/-- A sum over tiles and, inside each, over its columns is the sum over the row: `(k, c) ↦ 128 * k + c`
    is a bijection from `Fin 16 × Fin 128` onto `Fin 2048`. -/
theorem sum_tiles {M : Type*} [AddCommMonoid M] (F : Fin 2048 → M) :
    ∑ k : Fin 16, ∑ c : Fin 128, F ⟨128 * k.val + c.val, by omega⟩ = ∑ n : Fin 2048, F n := by
  rw [← Fintype.sum_prod_type']
  refine Fintype.sum_equiv (finProdFinEquiv : Fin 16 × Fin 128 ≃ Fin 2048) _ _ (fun p => ?_)
  refine congrArg F (Fin.ext ?_)
  show 128 * p.1.val + p.2.val = p.2.val + 128 * p.1.val
  exact Nat.add_comm _ _

/-- The same with the tiles counted by natural numbers below sixteen, for a family that on those tiles
    reads the row at `128 * k + c`. -/
theorem sum_range_tiles {M : Type*} [AddCommMonoid M] (F : Fin 2048 → M) (f : ℕ → Fin 128 → M)
    (hf : ∀ (k : ℕ) (hk : k < 16) (c : Fin 128), f k c = F ⟨128 * k + c.val, by omega⟩) :
    ∑ k ∈ Finset.range 16, ∑ c : Fin 128, f k c = ∑ n : Fin 2048, F n := by
  rw [Finset.sum_range, ← sum_tiles F]
  exact Finset.sum_congr rfl (fun k _ => Finset.sum_congr rfl (fun c _ => hf k.val k.isLt c))

/-- The maximum over the tiles of each tile's maximum is the maximum of the row. -/
theorem fold_tiles_max (s : Fin 2048 → EReal) :
    (Finset.range 16).fold max ⊥ (fun k => Finset.univ.fold max ⊥ (tileS s k))
      = Cert.Spec.rowMax s := by
  apply le_antisymm
  · refine (Finset.fold_max_le _).2 ⟨bot_le, fun k hk => ?_⟩
    refine (Finset.fold_max_le _).2 ⟨bot_le, fun c _ => ?_⟩
    rw [tileS_of_lt s k (Finset.mem_range.1 hk) c]
    exact (Finset.le_fold_max _).2 (Or.inr ⟨_, Finset.mem_univ _, le_rfl⟩)
  · refine (Finset.fold_max_le _).2 ⟨bot_le, fun n _ => ?_⟩
    have hk : n.val / 128 < 16 := by omega
    have hc : n.val % 128 < 128 := Nat.mod_lt _ (by norm_num)
    refine (Finset.le_fold_max _).2 (Or.inr ⟨n.val / 128, Finset.mem_range.2 hk, ?_⟩)
    refine (Finset.le_fold_max _).2 (Or.inr ⟨⟨n.val % 128, hc⟩, Finset.mem_univ _, ?_⟩)
    rw [tileS_of_lt s _ hk]
    exact le_of_eq (congrArg s (Fin.ext (Nat.div_add_mod n.val 128).symm))

/-! ### The hypotheses of the streaming theorem, for a row of real scores and values -/

theorem tileS_ne_top (s : Fin 2048 → EReal) (hs : ∀ n, s n ≠ ⊤ ∧ s n ≠ ⊥) :
    ∀ k ≤ 15, ∀ c, tileS s k c ≠ ⊤ := by
  intro k hk c
  rw [tileS_of_lt s k (by omega) c]
  exact (hs _).1

theorem tileV_real (v : Fin 2048 → Fin 64 → EReal) (hv : ∀ n h, v n h ≠ ⊤ ∧ v n h ≠ ⊥) :
    ∀ k ≤ 15, ∀ c h, tileV v k c h ≠ ⊤ ∧ tileV v k c h ≠ ⊥ := by
  intro k hk c h
  rw [tileV_of_lt v k (by omega) c h]
  exact hv _ _

theorem tileS_zero_ne_bot (s : Fin 2048 → EReal) (hs : ∀ n, s n ≠ ⊤ ∧ s n ≠ ⊥) :
    ∃ c, tileS s 0 c ≠ ⊥ := by
  refine ⟨0, ?_⟩
  rw [tileS_of_lt s 0 (by norm_num) 0]
  exact (hs _).2

/-! ### The state after the sixteen tiles -/

/-- The running maximum after the sixteen tiles is the maximum of the row. -/
theorem run_m_rowMax (s : Fin 2048 → EReal) (v : Fin 2048 → Fin 64 → EReal) :
    (St.run (tileS s) (tileV v) 16).m = Cert.Spec.rowMax s :=
  (run_m_eq 15 (tileS s) (tileV v)).trans (fold_tiles_max s)

/-- The running normaliser after the sixteen tiles is the normaliser of the row. -/
theorem run_l_rowSum (s : Fin 2048 → EReal) (v : Fin 2048 → Fin 64 → EReal)
    (hs : ∀ n, s n ≠ ⊤ ∧ s n ≠ ⊥) (hv : ∀ n h, v n h ≠ ⊤ ∧ v n h ≠ ⊥) :
    (St.run (tileS s) (tileV v) 16).l = Cert.Spec.rowSum s := by
  refine (run_l_eq 15 (tileS s) (tileV v) (tileS_ne_top s hs) (tileV_real v hv)
    (tileS_zero_ne_bot s hs)).trans ?_
  show ∑ k ∈ Finset.range 16, ∑ c : Fin 128,
      Ideal.exp (tileS s k c
        - (Finset.range 16).fold max ⊥ (fun k => Finset.univ.fold max ⊥ (tileS s k))) = _
  rw [fold_tiles_max s]
  exact sum_range_tiles (fun n => Ideal.exp (s n - Cert.Spec.rowMax s)) _
    (fun k hk c => by rw [tileS_of_lt s k hk c])

/-- The running normaliser after the sixteen tiles is a positive real number. -/
theorem run_l_real (s : Fin 2048 → EReal) (v : Fin 2048 → Fin 64 → EReal)
    (hs : ∀ n, s n ≠ ⊤ ∧ s n ≠ ⊥) (hv : ∀ n h, v n h ≠ ⊤ ∧ v n h ≠ ⊥) :
    ∃ L : ℝ, 0 < L ∧ (St.run (tileS s) (tileV v) 16).l = (L : EReal) := by
  obtain ⟨L, hL, hsum⟩ := runSum_real_pos 15 (tileS s) (tileS_ne_top s hs) (tileS_zero_ne_bot s hs)
  exact ⟨L, hL, (run_l_eq 15 (tileS s) (tileV v) (tileS_ne_top s hs) (tileV_real v hv)
    (tileS_zero_ne_bot s hs)).trans hsum⟩

/-- Multiplying by the reciprocal of a positive real normaliser is dividing by it. -/
theorem mul_one_div (x : EReal) (L : ℝ) (hL : 0 < L) :
    x * Ideal.div (Ideal.ofBits .f32 0x3F800000#32) (L : EReal) = Ideal.div x (L : EReal) := by
  rw [Ideal.ofBits_one_f32, Ideal.div_coe hL.ne', one_mul, ← Ideal.div_coe hL.ne']

/-- **The streaming softmax over the sixteen tiles is the attention row.** With real scores and real
    values, the weighted sum accumulated over the tiles, times the reciprocal of the accumulated
    normaliser, is the softmax-weighted sum of the values over the whole row. -/
theorem online_attend (s : Fin 2048 → EReal) (v : Fin 2048 → Fin 64 → EReal)
    (hs : ∀ n, s n ≠ ⊤ ∧ s n ≠ ⊥) (hv : ∀ n h, v n h ≠ ⊤ ∧ v n h ≠ ⊥) (h : Fin 64) :
    (St.run (tileS s) (tileV v) 16).acc h
        * Ideal.div (Ideal.ofBits .f32 0x3F800000#32) (St.run (tileS s) (tileV v) 16).l
      = Cert.Spec.attend s (fun n => v n h) := by
  obtain ⟨L, hL, hl⟩ := run_l_real s v hs hv
  have hsum := run_l_rowSum s v hs hv
  have key := run_div_eq_softmax 15 (tileS s) (tileV v) (tileS_ne_top s hs) (tileV_real v hv)
    (tileS_zero_ne_bot s hs) h
  rw [hl, mul_one_div _ L hL, ← hl]
  refine key.trans ?_
  show ∑ k ∈ Finset.range 16, ∑ c : Fin 128,
      Ideal.div
        (Ideal.exp (tileS s k c
          - (Finset.range 16).fold max ⊥ (fun k => Finset.univ.fold max ⊥ (tileS s k))))
        (∑ k' ∈ Finset.range 16, ∑ c' : Fin 128,
          Ideal.exp (tileS s k' c'
            - (Finset.range 16).fold max ⊥ (fun k => Finset.univ.fold max ⊥ (tileS s k))))
        * tileV v k c h = _
  rw [fold_tiles_max s,
    sum_range_tiles (fun n => Ideal.exp (s n - Cert.Spec.rowMax s)) (fun k c => Ideal.exp (tileS s k c - Cert.Spec.rowMax s))
      (fun k hk c => by rw [tileS_of_lt s k hk c])]
  exact sum_range_tiles
    (fun n => Ideal.div (Ideal.exp (s n - Cert.Spec.rowMax s)) (Cert.Spec.rowSum s) * v n h) _
    (fun k hk c => by rw [tileS_of_lt s k hk c, tileV_of_lt v k hk c h]; rfl)

end Cert.Online

end
-- ==== Proof.KBlocks.lean ====
/-
  The kernel's inputs at a grid point, in the specification's terms.

  At point `t` the row tile is `t / 16` and the column tile `t % 16`: row `p` of the row tile is item
  `256 * (t / 16) + p`, column `c` of the column tile is item `128 * (t % 16) + c`.  Read at an index, the query and
  value projections the body computes from its column-tile block are the specification's projections of those items,
  the key block it caches is the specification's key projection of the row tile's items, and the bias buffer it fills
  is the specification's bias of the pair.
-/
import proofs.«101895_j70987219469020_2_alg».proof.Proof.BlockReads
import proofs.«101895_j70987219469020_2_alg».proof.Proof.PayProj
import proofs.«101895_j70987219469020_2_alg».proof.Proof.PieceBias
import proofs.«101895_j70987219469020_2_alg».proof.Proof.TileMath
import proofs.«101895_j70987219469020_2_alg».proof.Proof.Online
import proofs.«101895_j70987219469020_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Pay Cert.Tile Cert.Online Cert.LibOnlineSoftmax
open scoped BigOperators

variable (m : (ℓ : Loc nD τ sig) → Buf (Elt Ideal) ℓ)

/-- Item `256 * (t / 16) + p`: row `p` of point `t`'s row tile. -/
def rowOf (t : Fin cfg0.N) (p : Fin 256) : Fin 2048 := ⟨256 * (t.val / 16) + p.val, by have := pt_lt t; omega⟩
/-- Item `128 * (t % 16) + c`: column `c` of point `t`'s column tile. -/
def colOf (t : Fin cfg0.N) (cc : Fin 128) : Fin 2048 := ⟨128 * (t.val % 16) + cc.val, by omega⟩

/-- The ten argument arrays on core `c`. -/
abbrev a0 (c : Dev nD) : Cert.Spec.SFa.Idx → EReal := m ((c : Thread nD τ).loc main_arg0)
abbrev a1 (c : Dev nD) : Cert.Spec.SPe.Idx → EReal := m ((c : Thread nD τ).loc main_arg1)
abbrev a2 (c : Dev nD) : Cert.Spec.SWg.Idx → EReal := m ((c : Thread nD τ).loc main_arg2)
abbrev a3 (c : Dev nD) : Cert.Spec.SBg.Idx → EReal := m ((c : Thread nD τ).loc main_arg3)
abbrev a4 (c : Dev nD) : Cert.Spec.SW.Idx → EReal := m ((c : Thread nD τ).loc main_arg4)
abbrev a5 (c : Dev nD) : Cert.Spec.SB.Idx → EReal := m ((c : Thread nD τ).loc main_arg5)
abbrev a6 (c : Dev nD) : Cert.Spec.SW.Idx → EReal := m ((c : Thread nD τ).loc main_arg6)
abbrev a7 (c : Dev nD) : Cert.Spec.SB.Idx → EReal := m ((c : Thread nD τ).loc main_arg7)
abbrev a8 (c : Dev nD) : Cert.Spec.SW.Idx → EReal := m ((c : Thread nD τ).loc main_arg8)
abbrev a9 (c : Dev nD) : Cert.Spec.SB.Idx → EReal := m ((c : Thread nD τ).loc main_arg9)

/-- The query projection of the column tile. -/
theorem qTile_apply (c : Dev nD) (t : Fin cfg0.N) (cc : Fin 128) (d : Fin 64) :
    k0_pay7 (iblk m c 1 t) (iblk m c 7 t) (iblk m c 8 t) (ix2 cc d) = Cert.Spec.proj (a0 m c) (a6 m c) (a7 m c) (colOf t cc) d := by
  refine (pay7_apply (iblk m c 1 t) (iblk m c 7 t) (iblk m c 8 t) cc d).trans ?_
  unfold Cert.Spec.proj
  rw [iblk8_apply]
  refine congrArg (· + _) (Finset.sum_congr rfl fun a _ => ?_)
  rw [iblk1_apply, iblk7_apply]
  rfl

/-- The value projection of the column tile. -/
theorem vTile_apply (c : Dev nD) (t : Fin cfg0.N) (cc : Fin 128) (h : Fin 64) :
    k0_pay8 (iblk m c 1 t) (iblk m c 9 t) (iblk m c 10 t) (ix2 cc h) = Cert.Spec.proj (a0 m c) (a8 m c) (a9 m c) (colOf t cc) h := by
  refine (pay8_apply (iblk m c 1 t) (iblk m c 9 t) (iblk m c 10 t) cc h).trans ?_
  unfold Cert.Spec.proj
  rw [iblk10_apply]
  refine congrArg (· + _) (Finset.sum_congr rfl fun a _ => ?_)
  rw [iblk1_apply, iblk9_apply]
  rfl

/-- The key projection of the row tile. -/
theorem kBlock_apply (c : Dev nD) (t : Fin cfg0.N) (p : Fin 256) (d : Fin 64) :
    k0_pay5 (iblk m c 0 t) (iblk m c 5 t) (iblk m c 6 t) (ix2 p d) = Cert.Spec.proj (a0 m c) (a4 m c) (a5 m c) (rowOf t p) d := by
  refine (pay5_apply (iblk m c 0 t) (iblk m c 5 t) (iblk m c 6 t) p d).trans ?_
  unfold Cert.Spec.proj
  rw [iblk6_apply]
  refine congrArg (· + _) (Finset.sum_congr rfl fun a _ => ?_)
  rw [iblk0_apply, iblk5_apply]
  rfl

/-- The bias of the pair (row item, column item). -/
theorem biasBlock_apply (c : Dev nD) (t : Fin cfg0.N) (p : Fin 256) (cc : Fin 128) :
    biasBuf (iblk m c 3 t) (iblk m c 4 t) (iblk m c 2 t) (ix2 p cc) = Cert.Spec.bias (a1 m c) (a2 m c) (a3 m c) (rowOf t p) (colOf t cc) := by
  refine (biasBuf_apply (iblk m c 3 t) (iblk m c 4 t) (iblk m c 2 t) p cc).trans ?_
  unfold Cert.Pay.bclamp Cert.Spec.bias Cert.Spec.geo
  rw [iblk4_apply]
  refine congrArg (fun y => Ideal.log (max _ (max (y + _) _))) (Finset.sum_congr rfl fun g _ => ?_)
  rw [iblk2_apply, iblk3_apply]
  rfl

/-- The tile's scores of row `p`, given that the cached key block holds the row tile's key projection, are the
    specification's scores of the row item against the column tile. -/
theorem tileScores_eq (c : Dev nD) (t : Fin cfg0.N) (wk : Vec Ideal S256x64 .f32)
    (hwk : ∀ (p : Fin 256) (d : Fin 64), wk (ix2 p d) = Cert.Spec.proj (a0 m c) (a4 m c) (a5 m c) (rowOf t p) d) (p : Fin 256) :
    tileScores (k0_pay7 (iblk m c 1 t) (iblk m c 7 t) (iblk m c 8 t)) (biasBuf (iblk m c 3 t) (iblk m c 4 t) (iblk m c 2 t)) wk p
      = tileS (fun n => Cert.Spec.score (a0 m c) (a1 m c) (a2 m c) (a3 m c) (a4 m c) (a5 m c) (a6 m c) (a7 m c) (rowOf t p) n) (t.val % 16) := by
  funext cc
  rw [tileS_of_lt _ _ (Nat.mod_lt _ (by decide))]
  unfold tileScores Cert.Spec.score
  rw [biasBlock_apply]
  refine congrArg (fun y => _ + y * _) (Finset.sum_congr rfl fun d _ => ?_)
  rw [hwk, qTile_apply]
  rfl

/-- The tile's value rows are the specification's value projection of the column tile. -/
theorem tileValues_eq (c : Dev nD) (t : Fin cfg0.N) :
    (fun (cc : Fin 128) (h : Fin 64) => k0_pay8 (iblk m c 1 t) (iblk m c 9 t) (iblk m c 10 t) (ix2 cc h))
      = tileV (fun n h => Cert.Spec.proj (a0 m c) (a8 m c) (a9 m c) n h) (t.val % 16) := by
  funext cc h
  rw [tileV_of_lt _ _ (Nat.mod_lt _ (by decide)), vTile_apply]
  rfl

end Cert.KernelIdeal.Hand

end
-- ==== Proof.RealWords.lean ====
import Idealize.ShloMosaic.PureOps.Ideal
import proofs.«101895_j70987219469020_2_alg».proof.Proof.Spec

/-!
# The two single-precision words of the score, as real numbers

A single-precision word with sign bit `0`, biased exponent `E` (neither `0` nor `255`) and fraction `T`
denotes the real number `(2 ^ 23 + T) * 2 ^ (E - 127 - 23)`.

* `0x3E000000`: `E = 124`, `T = 0`, so `2 ^ 23 * 2 ^ (-26) = 1 / 8`, the scale of the dot product.
* `0x358637BD`: `E = 107`, `T = 407485`, so `8796093 * 2 ^ (-43) = 8796093 / 2 ^ 43`, the single-precision
  number nearest to `10⁻⁶`; what matters of it is that it is a positive real.

Both words are evaluated here and nowhere else.
-/

noncomputable section

namespace Cert.Realness

open Idealize.ShloMosaic

/-- The word `0x3E000000` is the real number `1 / 8`. -/
theorem eighth_word : Ideal.ofBits .f32 0x3E000000#32 = ((1 / 8 : ℝ) : EReal) := by
  simp [Ideal.ofBits, Ideal.ieee, -EReal.coe_mul]; norm_num

/-- The same, for the specification's name of the word. -/
theorem eighthW_eq : Ideal.ofBits .f32 Cert.Spec.eighthW = ((1 / 8 : ℝ) : EReal) := eighth_word

/-- The word `0x358637BD` is the real number `8796093 / 2 ^ 43`. -/
theorem eps_word : Ideal.ofBits .f32 0x358637BD#32 = ((8796093 / 2 ^ 43 : ℝ) : EReal) := by
  simp [Ideal.ofBits, Ideal.ieee, -EReal.coe_mul]; norm_num

/-- The clamp's lower bound is a positive real number. -/
theorem eps_word_pos : ∃ r : ℝ, 0 < r ∧ Ideal.ofBits .f32 0x358637BD#32 = (r : EReal) :=
  ⟨8796093 / 2 ^ 43, by positivity, eps_word⟩

/-- The same, for the specification's name of the word. -/
theorem epsW_pos : ∃ r : ℝ, 0 < r ∧ Ideal.ofBits .f32 Cert.Spec.epsW = (r : EReal) := eps_word_pos

end Cert.Realness

end
-- ==== Proof.Realness.lean ====
import Idealize.ShloMosaic.PureOps.Ideal
import Idealize.ShloMosaic.PureOps.Ideal.Laws
import proofs.«101895_j70987219469020_2_alg».proof.Proof.Spec
import proofs.«101895_j70987219469020_2_alg».proof.Proof.RealWords

/-!
# With real arguments every projection, bias and score is a real number

An extended real is a real number when it is neither `⊤` nor `⊥`, equivalently when it is the coercion
of a real (`IsReal`, `isReal_iff`). Real numbers are closed under sum, product, maximum and finite
sums, and the logarithm of an extended real that is real and at least a positive real is real.

* A projection `∑ a, f a * w a + b` is a finite sum of products of reals plus a real (`proj_real`).
* The geometric projection likewise. Clamping it below at `0` and then at the positive real `ε` gives a
  real number that is at least `ε`, so its logarithm, the bias, is real (`bias_real`).
* The score is the bias plus a finite sum of products of projections times `1 / 8` (`score_real`).
-/

noncomputable section

namespace Cert.Realness

open Idealize.ShloMosaic Idealize.ShloMosaic.ValueIdx Cert.Spec
open scoped BigOperators

/-- The extended real is the coercion of a real number. -/
def IsReal (x : EReal) : Prop := ∃ r : ℝ, x = (r : EReal)

/-- Being a real number is being neither infinity. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.real {x : EReal} (h : IsReal x) : x ≠ ⊤ ∧ x ≠ ⊥ := isReal_iff.1 h

theorem IsReal.of_real {x : EReal} (h : x ≠ ⊤ ∧ x ≠ ⊥) : IsReal x := isReal_iff.2 h

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.max {a b : EReal} (ha : IsReal a) (hb : IsReal b) : IsReal (max a b) := by
  rcases le_total a b with h | h
  · rwa [max_eq_right h]
  · rwa [max_eq_left h]

theorem IsReal.sum {ι : Type*} (S : Finset ι) (f : ι → EReal) (h : ∀ i ∈ S, IsReal (f i)) :
    IsReal (∑ i ∈ S, f i) := by
  classical
  induction S using Finset.induction_on with
  | empty => exact ⟨0, by simp⟩
  | insert a S ha ih =>
    rw [Finset.sum_insert ha]
    exact (h _ (Finset.mem_insert_self _ _)).add (ih fun i hi => h i (Finset.mem_insert_of_mem hi))

/-- The logarithm of a real number that is at least a positive real is a real number. -/
theorem IsReal.log_of_le {x : EReal} (hx : IsReal x) (r : ℝ) (hr : 0 < r) (hle : (r : EReal) ≤ x) :
    IsReal (Ideal.log x) := by
  obtain ⟨t, rfl⟩ := hx
  have ht : 0 < t := hr.trans_le (EReal.coe_le_coe_iff.1 hle)
  rw [Ideal.log_coe, if_neg (not_le.2 ht)]
  exact ⟨_, rfl⟩

/-! ### The pieces of the score -/

/-- A projection of real features by real weights and a real bias is real. -/
theorem proj_isReal (fa : SFa.Idx → EReal) (w : SW.Idx → EReal) (b : SB.Idx → EReal)
    (hfa : ∀ i, IsReal (fa i)) (hw : ∀ i, IsReal (w i)) (hb : ∀ i, IsReal (b i))
    (n : Fin 2048) (d : Fin 64) : IsReal (proj fa w b n d) := by
  unfold proj
  exact (IsReal.sum _ _ (fun a _ => (hfa _).mul (hw _))).add (hb _)

/-- The geometric projection of real embeddings by a real weight row and a real bias is real. -/
theorem geo_isReal (pe : SPe.Idx → EReal) (wg : SWg.Idx → EReal) (bg : SBg.Idx → EReal)
    (hpe : ∀ i, IsReal (pe i)) (hwg : ∀ i, IsReal (wg i)) (hbg : ∀ i, IsReal (bg i))
    (m n : Fin 2048) : IsReal (geo pe wg bg m n) := by
  unfold geo
  exact (IsReal.sum _ _ (fun g _ => (hpe _).mul (hwg _))).add (hbg _)

/-- The geometric bias is real: the clamped projection is a real number at least `ε > 0`. -/
theorem bias_isReal (pe : SPe.Idx → EReal) (wg : SWg.Idx → EReal) (bg : SBg.Idx → EReal)
    (hpe : ∀ i, IsReal (pe i)) (hwg : ∀ i, IsReal (wg i)) (hbg : ∀ i, IsReal (bg i))
    (m n : Fin 2048) : IsReal (bias pe wg bg m n) := by
  obtain ⟨r, hr, he⟩ := epsW_pos
  unfold bias
  rw [he, Ideal.ofBits_zero_f32]
  exact ((IsReal.coe r).max ((geo_isReal pe wg bg hpe hwg hbg m n).max IsReal.zero)).log_of_le r hr
    (le_max_left _ _)

/-- The score of real arguments is real. -/
theorem score_isReal (fa : SFa.Idx → EReal) (pe : SPe.Idx → EReal) (wg : SWg.Idx → EReal)
    (bg : SBg.Idx → EReal) (wk : SW.Idx → EReal) (bk : SB.Idx → EReal) (wq : SW.Idx → EReal)
    (bq : SB.Idx → EReal) (hfa : ∀ i, IsReal (fa i)) (hpe : ∀ i, IsReal (pe i))
    (hwg : ∀ i, IsReal (wg i)) (hbg : ∀ i, IsReal (bg i)) (hwk : ∀ i, IsReal (wk i))
    (hbk : ∀ i, IsReal (bk i)) (hwq : ∀ i, IsReal (wq i)) (hbq : ∀ i, IsReal (bq i))
    (m n : Fin 2048) : IsReal (score fa pe wg bg wk bk wq bq m n) := by
  unfold score
  rw [eighthW_eq]
  exact (bias_isReal pe wg bg hpe hwg hbg m n).add
    ((IsReal.sum _ _ (fun d _ => (proj_isReal fa wk bk hfa hwk hbk m d).mul
      (proj_isReal fa wq bq hfa hwq hbq n d))).mul (IsReal.coe _))

/-! ### The same with "neither infinity" in the hypotheses and the conclusions -/

theorem proj_real (fa : SFa.Idx → EReal) (w : SW.Idx → EReal) (b : SB.Idx → EReal)
    (hfa : ∀ i, fa i ≠ ⊤ ∧ fa i ≠ ⊥) (hw : ∀ i, w i ≠ ⊤ ∧ w i ≠ ⊥) (hb : ∀ i, b i ≠ ⊤ ∧ b i ≠ ⊥)
    (n : Fin 2048) (d : Fin 64) : proj fa w b n d ≠ ⊤ ∧ proj fa w b n d ≠ ⊥ :=
  (proj_isReal fa w b (fun i => .of_real (hfa i)) (fun i => .of_real (hw i))
    (fun i => .of_real (hb i)) n d).real

theorem bias_real (pe : SPe.Idx → EReal) (wg : SWg.Idx → EReal) (bg : SBg.Idx → EReal)
    (hpe : ∀ i, pe i ≠ ⊤ ∧ pe i ≠ ⊥) (hwg : ∀ i, wg i ≠ ⊤ ∧ wg i ≠ ⊥)
    (hbg : ∀ i, bg i ≠ ⊤ ∧ bg i ≠ ⊥) (m n : Fin 2048) :
    bias pe wg bg m n ≠ ⊤ ∧ bias pe wg bg m n ≠ ⊥ :=
  (bias_isReal pe wg bg (fun i => .of_real (hpe i)) (fun i => .of_real (hwg i))
    (fun i => .of_real (hbg i)) m n).real

theorem score_real (fa : SFa.Idx → EReal) (pe : SPe.Idx → EReal) (wg : SWg.Idx → EReal)
    (bg : SBg.Idx → EReal) (wk : SW.Idx → EReal) (bk : SB.Idx → EReal) (wq : SW.Idx → EReal)
    (bq : SB.Idx → EReal) (hfa : ∀ i, fa i ≠ ⊤ ∧ fa i ≠ ⊥) (hpe : ∀ i, pe i ≠ ⊤ ∧ pe i ≠ ⊥)
    (hwg : ∀ i, wg i ≠ ⊤ ∧ wg i ≠ ⊥) (hbg : ∀ i, bg i ≠ ⊤ ∧ bg i ≠ ⊥)
    (hwk : ∀ i, wk i ≠ ⊤ ∧ wk i ≠ ⊥) (hbk : ∀ i, bk i ≠ ⊤ ∧ bk i ≠ ⊥)
    (hwq : ∀ i, wq i ≠ ⊤ ∧ wq i ≠ ⊥) (hbq : ∀ i, bq i ≠ ⊤ ∧ bq i ≠ ⊥) (m n : Fin 2048) :
    score fa pe wg bg wk bk wq bq m n ≠ ⊤ ∧ score fa pe wg bg wk bk wq bq m n ≠ ⊥ :=
  (score_isReal fa pe wg bg wk bk wq bq (fun i => .of_real (hfa i)) (fun i => .of_real (hpe i))
    (fun i => .of_real (hwg i)) (fun i => .of_real (hbg i)) (fun i => .of_real (hwk i))
    (fun i => .of_real (hbk i)) (fun i => .of_real (hwq i)) (fun i => .of_real (hbq i)) m n).real

end Cert.Realness

end
-- ==== Proof.OnlineSpec.lean ====
import proofs.«101895_j70987219469020_2_alg».proof.Proof.Spec
import proofs.«101895_j70987219469020_2_alg».proof.Proof.Online
import proofs.«101895_j70987219469020_2_alg».proof.Proof.Realness

/-!
# The specification, entry by entry, as the streaming softmax over sixteen tiles

Entry `(m, h)` of the result is the attention row `m` with the scores `n ↦ score m n` and the values
`n ↦ V n h`. With real arguments every score and every value is a real number, so the streaming state
after the sixteen tiles of that row gives the entry: `acc h * (1 / l)`.
-/

noncomputable section

namespace Cert.Online

open Idealize.ShloMosaic Idealize.ShloMosaic.ValueIdx Cert.LibOnlineSoftmax Cert.Spec

/-- With real arguments, entry `(m, h)` of the specification is the streaming softmax of row `m`:
    the weighted sum accumulated over the sixteen tiles times the reciprocal of the normaliser. -/
theorem online_G (fa : SFa.Idx → EReal) (pe : SPe.Idx → EReal) (wg : SWg.Idx → EReal)
    (bg : SBg.Idx → EReal) (wk : SW.Idx → EReal) (bk : SB.Idx → EReal) (wq : SW.Idx → EReal)
    (bq : SB.Idx → EReal) (wv : SW.Idx → EReal) (bv : SB.Idx → EReal)
    (hfa : ∀ i, fa i ≠ ⊤ ∧ fa i ≠ ⊥) (hpe : ∀ i, pe i ≠ ⊤ ∧ pe i ≠ ⊥)
    (hwg : ∀ i, wg i ≠ ⊤ ∧ wg i ≠ ⊥) (hbg : ∀ i, bg i ≠ ⊤ ∧ bg i ≠ ⊥)
    (hwk : ∀ i, wk i ≠ ⊤ ∧ wk i ≠ ⊥) (hbk : ∀ i, bk i ≠ ⊤ ∧ bk i ≠ ⊥)
    (hwq : ∀ i, wq i ≠ ⊤ ∧ wq i ≠ ⊥) (hbq : ∀ i, bq i ≠ ⊤ ∧ bq i ≠ ⊥)
    (hwv : ∀ i, wv i ≠ ⊤ ∧ wv i ≠ ⊥) (hbv : ∀ i, bv i ≠ ⊤ ∧ bv i ≠ ⊥)
    (m : Fin 2048) (h : Fin 64) :
    (St.run (tileS (fun n => score fa pe wg bg wk bk wq bq m n))
        (tileV (fun n h => proj fa wv bv n h)) 16).acc h
      * Ideal.div (Ideal.ofBits .f32 0x3F800000#32)
          (St.run (tileS (fun n => score fa pe wg bg wk bk wq bq m n))
            (tileV (fun n h => proj fa wv bv n h)) 16).l
      = G fa pe wg bg wk bk wq bq wv bv (ix2 m h) :=
  online_attend (fun n => score fa pe wg bg wk bk wq bq m n) (fun n h => proj fa wv bv n h)
    (fun n => Cert.Realness.score_real fa pe wg bg wk bk wq bq hfa hpe hwg hbg hwk hbk hwq hbq m n)
    (fun n h => Cert.Realness.proj_real fa wv bv hfa hwv hbv n h) h

/-- The same read from the specification's side. -/
theorem G_online (fa : SFa.Idx → EReal) (pe : SPe.Idx → EReal) (wg : SWg.Idx → EReal)
    (bg : SBg.Idx → EReal) (wk : SW.Idx → EReal) (bk : SB.Idx → EReal) (wq : SW.Idx → EReal)
    (bq : SB.Idx → EReal) (wv : SW.Idx → EReal) (bv : SB.Idx → EReal)
    (hfa : ∀ i, fa i ≠ ⊤ ∧ fa i ≠ ⊥) (hpe : ∀ i, pe i ≠ ⊤ ∧ pe i ≠ ⊥)
    (hwg : ∀ i, wg i ≠ ⊤ ∧ wg i ≠ ⊥) (hbg : ∀ i, bg i ≠ ⊤ ∧ bg i ≠ ⊥)
    (hwk : ∀ i, wk i ≠ ⊤ ∧ wk i ≠ ⊥) (hbk : ∀ i, bk i ≠ ⊤ ∧ bk i ≠ ⊥)
    (hwq : ∀ i, wq i ≠ ⊤ ∧ wq i ≠ ⊥) (hbq : ∀ i, bq i ≠ ⊤ ∧ bq i ≠ ⊥)
    (hwv : ∀ i, wv i ≠ ⊤ ∧ wv i ≠ ⊥) (hbv : ∀ i, bv i ≠ ⊤ ∧ bv i ≠ ⊥)
    (m : Fin 2048) (h : Fin 64) :
    G fa pe wg bg wk bk wq bq wv bv (ix2 m h)
      = (St.run (tileS (fun n => score fa pe wg bg wk bk wq bq m n))
          (tileV (fun n h => proj fa wv bv n h)) 16).acc h
        * Ideal.div (Ideal.ofBits .f32 0x3F800000#32)
            (St.run (tileS (fun n => score fa pe wg bg wk bk wq bq m n))
              (tileV (fun n h => proj fa wv bv n h)) 16).l :=
  (online_G fa pe wg bg wk bk wq bq wv bv hfa hpe hwg hbg hwk hbk hwq hbq hwv hbv m h).symm

/-! ### A sequence of states produced tile by tile is the run -/

/-- A sequence of states whose first term is the first tile folded into the empty state
    `(⊥, 0, 0)`, and each of whose later terms (below `N`) is the next tile folded into the term before,
    is the run: term `k` is the state after the tiles `0, …, k`. -/
theorem run_of_steps {C H : Type*} [Fintype C] (s : ℕ → C → EReal) (v : ℕ → C → H → EReal)
    (N : ℕ) (S : ℕ → St H) (h0 : S 0 = St.step (s 0) (v 0) ⟨⊥, 0, fun _ => 0⟩)
    (hstep : ∀ k, k + 1 < N → S (k + 1) = St.step (s (k + 1)) (v (k + 1)) (S k)) :
    ∀ k, k < N → S k = St.run s v (k + 1) := by
  intro k
  induction k with
  | zero => intro _; exact h0
  | succ k ih =>
    intro hk
    rw [hstep k hk, ih (Nat.lt_of_succ_lt hk)]
    rfl

/-- For the sixteen tiles of a row: the sixteenth state of such a sequence is the state the
    attention row is read from. -/
theorem run_of_tile_steps (s : Fin 2048 → EReal) (v : Fin 2048 → Fin 64 → EReal)
    (S : ℕ → St (Fin 64)) (h0 : S 0 = St.step (tileS s 0) (tileV v 0) ⟨⊥, 0, fun _ => 0⟩)
    (hstep : ∀ k, k + 1 < 16 →
      S (k + 1) = St.step (tileS s (k + 1)) (tileV v (k + 1)) (S k)) :
    S 15 = St.run (tileS s) (tileV v) 16 :=
  run_of_steps (tileS s) (tileV v) 16 S h0 hstep 15 (by norm_num)

end Cert.Online

end
-- ==== Proof.KValue.lean ====
/-
  What the kernel's buffers hold after every grid point, in the specification's terms, and from it the result array.

  By induction on the point: after point `t` the cached key block is the key projection of the row tile's items, and
  row `p`'s running maximum, normaliser and weighted sum are the streaming-softmax state of item `256 * (t / 16) + p`
  after the column tiles `0 … t % 16`.  The first column tile of a row tile starts from the reset state; every other
  point folds one more tile into what the point before left.  At the last column tile the stored block is the
  weighted sum times the reciprocal of the normaliser, which for real scores and values is the softmax-weighted sum
  of the specification.
-/
import proofs.«101895_j70987219469020_2_alg».proof.Proof.FrameData
import proofs.«101895_j70987219469020_2_alg».proof.Proof.PieceA
import proofs.«101895_j70987219469020_2_alg».proof.Proof.PieceB
import proofs.«101895_j70987219469020_2_alg».proof.Proof.PieceC
import proofs.«101895_j70987219469020_2_alg».proof.Proof.KBlocks
import proofs.«101895_j70987219469020_2_alg».proof.Proof.OnlineSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Pay Cert.Tile Cert.Online Cert.LibOnlineSoftmax
open scoped BigOperators

variable (m : (ℓ : Loc nD τ sig) → Buf (Elt Ideal) ℓ)

/-- The scores of an item against all items, and the values of all items, on core `c`. -/
abbrev scoreRow (c : Dev nD) (M : Fin 2048) : Fin 2048 → EReal := fun n => Cert.Spec.score (a0 m c) (a1 m c) (a2 m c) (a3 m c) (a4 m c) (a5 m c) (a6 m c) (a7 m c) M n
abbrev valRows (c : Dev nD) : Fin 2048 → Fin 64 → EReal := fun n h => Cert.Spec.proj (a0 m c) (a8 m c) (a9 m c) n h

/-- After point `n`: the cached key block and every row's streaming state. -/
def Inv (c : Dev nD) (n : ℕ) (hn : n < cfg0.N) : Prop :=
  (∀ (p : Fin 256) (d : Fin 64), (outsAt0 m c n hn).2.2.2.2 (ix2 p d) = Cert.Spec.proj (a0 m c) (a4 m c) (a5 m c) (rowOf ⟨n, hn⟩ p) d)
  ∧ ∀ p : Fin 256, rowState (outsAt0 m c n hn).2.1 (outsAt0 m c n hn).2.2.1 (outsAt0 m c n hn).2.2.2.1 p
      = St.run (tileS (scoreRow m c (rowOf ⟨n, hn⟩ p))) (tileV (valRows m c)) (n % 16 + 1)

/-- A point at the first column tile of its row tile. -/
theorem inv_first (c : Dev nD) (n : ℕ) (hn : n < cfg0.N) (h0 : n % 16 = 0) : Inv m c n hn := by
  have h1 : ¬ n % 16 = 15 := by omega
  have e := outsAt0_A m c ⟨n, hn⟩ h0 h1
  dsimp only at e
  have hwk : ∀ (p : Fin 256) (d : Fin 64), (outsAt0 m c n hn).2.2.2.2 (ix2 p d) = Cert.Spec.proj (a0 m c) (a4 m c) (a5 m c) (rowOf ⟨n, hn⟩ p) d := by
    intro p d
    rw [e]
    unfold res0_A; dsimp only
    rw [pieceA_wk]
    exact kBlock_apply m c ⟨n, hn⟩ p d
  refine ⟨hwk, fun p => ?_⟩
  rw [e]
  unfold res0_A; dsimp only
  rw [pieceA_m, pieceA_l, pieceA_acc]
  rw [fold_tile, reset_state]
  rw [tileScores_eq m c ⟨n, hn⟩ _ (fun p d => kBlock_apply m c ⟨n, hn⟩ p d) p, tileValues_eq m c ⟨n, hn⟩]
  show _ = St.run _ _ (n % 16 + 1)
  rw [show (⟨n, hn⟩ : Fin cfg0.N).val % 16 = 0 from h0]
  rfl

/-- A point at a later column tile continues from the point before. -/
theorem inv_next (c : Dev nD) (n : ℕ) (hn : n + 1 < cfg0.N) (h0 : ¬ (n + 1) % 16 = 0)
    (ih : Inv m c n (Nat.lt_of_succ_lt hn)) : Inv m c (n + 1) hn := by
  have hrow : ∀ p : Fin 256, rowOf (⟨n + 1, hn⟩ : Fin cfg0.N) p = rowOf ⟨n, Nat.lt_of_succ_lt hn⟩ p := fun p =>
    Fin.ext (by unfold rowOf; dsimp only; omega)
  have hmod : (n + 1) % 16 = n % 16 + 1 := by omega
  obtain ⟨ihk, ihs⟩ := ih
  have key : ∀ (X : _) (eX : outsAt0 m c (n + 1) hn = X)
      (hX3 : X.2.2.2.2 = (outsAt0 m c n (Nat.lt_of_succ_lt hn)).2.2.2.2)
      (hXm : X.2.1 = k0_pay27 (k0_pay7 (iblk m c 1 ⟨n + 1, hn⟩) (iblk m c 7 ⟨n + 1, hn⟩) (iblk m c 8 ⟨n + 1, hn⟩)) (biasBuf (iblk m c 3 ⟨n + 1, hn⟩) (iblk m c 4 ⟨n + 1, hn⟩) (iblk m c 2 ⟨n + 1, hn⟩)) (outsAt0 m c n (Nat.lt_of_succ_lt hn)).2.2.2.2 (outsAt0 m c n (Nat.lt_of_succ_lt hn)).2.1)
      (hXl : X.2.2.1 = k0_pay25 (k0_pay7 (iblk m c 1 ⟨n + 1, hn⟩) (iblk m c 7 ⟨n + 1, hn⟩) (iblk m c 8 ⟨n + 1, hn⟩)) (biasBuf (iblk m c 3 ⟨n + 1, hn⟩) (iblk m c 4 ⟨n + 1, hn⟩) (iblk m c 2 ⟨n + 1, hn⟩)) (outsAt0 m c n (Nat.lt_of_succ_lt hn)).2.2.2.2 (outsAt0 m c n (Nat.lt_of_succ_lt hn)).2.1 (outsAt0 m c n (Nat.lt_of_succ_lt hn)).2.2.1)
      (hXa : X.2.2.2.1 = k0_pay26 (k0_pay7 (iblk m c 1 ⟨n + 1, hn⟩) (iblk m c 7 ⟨n + 1, hn⟩) (iblk m c 8 ⟨n + 1, hn⟩)) (k0_pay8 (iblk m c 1 ⟨n + 1, hn⟩) (iblk m c 9 ⟨n + 1, hn⟩) (iblk m c 10 ⟨n + 1, hn⟩)) (biasBuf (iblk m c 3 ⟨n + 1, hn⟩) (iblk m c 4 ⟨n + 1, hn⟩) (iblk m c 2 ⟨n + 1, hn⟩)) (outsAt0 m c n (Nat.lt_of_succ_lt hn)).2.2.2.2 (outsAt0 m c n (Nat.lt_of_succ_lt hn)).2.1 (outsAt0 m c n (Nat.lt_of_succ_lt hn)).2.2.2.1),
      Inv m c (n + 1) hn := by
    intro X eX hX3 hXm hXl hXa
    have hwk : ∀ (p : Fin 256) (d : Fin 64), (outsAt0 m c n (Nat.lt_of_succ_lt hn)).2.2.2.2 (ix2 p d) = Cert.Spec.proj (a0 m c) (a4 m c) (a5 m c) (rowOf ⟨n + 1, hn⟩ p) d :=
      fun p d => (ihk p d).trans (by rw [hrow])
    unfold Inv
    rw [eX, hX3, hXm, hXl, hXa]
    refine ⟨hwk, fun p => ?_⟩
    rw [fold_tile, ihs p]
    rw [tileScores_eq m c ⟨n + 1, hn⟩ _ hwk p, tileValues_eq m c ⟨n + 1, hn⟩, hrow]
    show St.step (tileS _ ((n + 1) % 16)) (tileV _ ((n + 1) % 16)) _ = St.run _ _ ((n + 1) % 16 + 1)
    rw [hmod]
    rfl
  by_cases h1 : (n + 1) % 16 = 15
  · have e := outsAt0_C m c ⟨n + 1, hn⟩ h0 h1
    dsimp only at e
    refine key _ e rfl ?_ ?_ ?_
    · unfold res0_C; dsimp only; exact pieceC_m ..
    · unfold res0_C; dsimp only; exact pieceC_l ..
    · unfold res0_C; dsimp only; exact pieceC_acc ..
  · have e := outsAt0_B m c ⟨n + 1, hn⟩ h0 h1
    dsimp only at e
    refine key _ e rfl ?_ ?_ ?_
    · unfold res0_B; dsimp only; exact pieceB_m ..
    · unfold res0_B; dsimp only; exact pieceB_l ..
    · unfold res0_B; dsimp only; exact pieceB_acc ..

/-- The invariant holds after every point. -/
theorem inv_all (c : Dev nD) : ∀ (n : ℕ) (hn : n < cfg0.N), Inv m c n hn := by
  intro n
  induction n with
  | zero => intro hn; exact inv_first m c 0 hn rfl
  | succ n ih =>
    intro hn
    by_cases h0 : (n + 1) % 16 = 0
    · exact inv_first m c (n + 1) hn h0
    · exact inv_next m c n hn h0 (ih (Nat.lt_of_succ_lt hn))

end Cert.KernelIdeal.Hand

end
-- ==== Proof.KFinal.lean ====
/-
  The result array of the attention kernel is the specification.

  The pipeline writes the result's block back at the last column tile of each row tile; what it writes there is the
  running weighted sum times the reciprocal of the running normaliser after all sixteen column tiles, which for real
  inputs is the specification's softmax-weighted sum of the row tile's items.  The eight written blocks tile the
  array, so the array ends holding the specification; the arguments are inputs and end as they began.
-/
import proofs.«101895_j70987219469020_2_alg».proof.Proof.FrameRun
import proofs.«101895_j70987219469020_2_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)
open Cert.Pay Cert.Tile Cert.Online Cert.LibOnlineSoftmax
open scoped BigOperators

variable (m : (ℓ : Loc nD τ sig) → Buf (Elt Ideal) ℓ) (ρ : Dev nD → PrngReg)

/-- Every entry of the ten argument arrays on core `c` is a real number. -/
def AllReal (c : Dev nD) : Prop :=
  (∀ i, a0 m c i ≠ ⊤ ∧ a0 m c i ≠ ⊥) ∧ (∀ i, a1 m c i ≠ ⊤ ∧ a1 m c i ≠ ⊥) ∧ (∀ i, a2 m c i ≠ ⊤ ∧ a2 m c i ≠ ⊥) ∧ (∀ i, a3 m c i ≠ ⊤ ∧ a3 m c i ≠ ⊥) ∧ (∀ i, a4 m c i ≠ ⊤ ∧ a4 m c i ≠ ⊥) ∧ (∀ i, a5 m c i ≠ ⊤ ∧ a5 m c i ≠ ⊥) ∧ (∀ i, a6 m c i ≠ ⊤ ∧ a6 m c i ≠ ⊥) ∧ (∀ i, a7 m c i ≠ ⊤ ∧ a7 m c i ≠ ⊥) ∧ (∀ i, a8 m c i ≠ ⊤ ∧ a8 m c i ≠ ⊥) ∧ (∀ i, a9 m c i ≠ ⊤ ∧ a9 m c i ≠ ⊥)

/-- The specification at core `c`'s arguments. -/
abbrev Gout (c : Dev nD) : Cert.Spec.SOut.Idx → EReal :=
  Cert.Spec.G (a0 m c) (a1 m c) (a2 m c) (a3 m c) (a4 m c) (a5 m c) (a6 m c) (a7 m c) (a8 m c) (a9 m c)

/-- At the last column tile the stored block is the new weighted sum times the reciprocal of the new normaliser. -/
theorem out_eq (c : Dev nD) (t : Fin cfg0.N) (h0 : ¬ t.val % 16 = 0) (h15 : t.val % 16 = 15) :
    (outsAt0 m c t.val t.isLt).1 = k0_pay1 (outsAt0 m c t.val t.isLt).2.2.2.1 (outsAt0 m c t.val t.isLt).2.2.1 := by
  rw [outsAt0_C m c t h0 h15]
  unfold res0_C; dsimp only
  rw [pieceC_out, pieceC_acc, pieceC_l]

/-- Read at an index, it is the specification at the row tile's item. -/
theorem out_apply (c : Dev nD) (hr : AllReal m c) (t : Fin cfg0.N) (h15 : t.val % 16 = 15) (p : Fin 256) (h : Fin 64) :
    (outsAt0 m c t.val t.isLt).1 (ix2 p h) = Gout m c (ix2 (rowOf t p) h) := by
  have h0 : ¬ t.val % 16 = 0 := by omega
  obtain ⟨r0, r1, r2, r3, r4, r5, r6, r7, r8, r9⟩ := hr
  rw [out_eq m c t h0 h15]
  refine (pay1_apply _ _ p h).trans ?_
  have hs := (inv_all m c t.val t.isLt).2 p
  have hA : (outsAt0 m c t.val t.isLt).2.2.2.1 (ix2 p h) = (St.run (tileS (scoreRow m c (rowOf t p))) (tileV (valRows m c)) (t.val % 16 + 1)).acc h :=
    congrArg (fun s => s.acc h) hs
  have hL : (outsAt0 m c t.val t.isLt).2.2.1 (ix2 p (0 : Fin 1)) = (St.run (tileS (scoreRow m c (rowOf t p))) (tileV (valRows m c)) (t.val % 16 + 1)).l :=
    congrArg (fun s => s.l) hs
  rw [hA, hL, h15]
  exact online_G (a0 m c) (a1 m c) (a2 m c) (a3 m c) (a4 m c) (a5 m c) (a6 m c) (a7 m c) (a8 m c) (a9 m c) r0 r1 r2 r3 r4 r5 r6 r7 r8 r9 (rowOf t p) h

/-- What a writing point writes back is its block of the specification. -/
theorem flushed_eq (c : Dev nD) (hr : AllReal m c) (t : Fin cfg0.N) (hf : (cfg0.win 11).flush t = true) :
    (dats m 0 c).flushed 11 t = ((cfg0.win 11).blk t).view.read (Elt Ideal) (Gout m c) := by
  have h15 : t.val % 16 = 15 := (flush0_11 t).mp hf
  show (cfg0.win 11).cut (grid0.coords t) ((dats m 0 c).after 11 t) = _
  rw [after0_11]
  funext y
  rw [View.read_apply, emb11]
  obtain ⟨p, h, rfl⟩ : ∃ (p : Fin 256) (h : Fin 64), y = ix2 p h := ⟨y 0, y 1, eq_ix2 y⟩
  exact out_apply m c hr t h15 p h

/-- The result array after the run. -/
theorem final (c : Dev nD) (hr : AllReal m c) : (dats m 0 c).arrAt 11 cfg0.N = Gout m c :=
  (dats m 0 c).arrAt_eq_of_cover 11 (Gout m c) (fun t hf => flushed_eq m c hr t hf) cover11

/-- Every weakly fair execution of the idealized kernel terminates with the result array at the specification and the
    ten arguments unchanged, when every argument entry is real. -/
theorem kernel_run (hr : ∀ c, AllReal m c) :
    θ_run (defs (F := Ideal)) (onTc (τ := τ) (main (F := Ideal))) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 11).trans (final m c (hr c)),
    ((h c).1 0).trans (((dats m 0 c).arrAt_in 0 rfl _).trans (A_eq m c 0)),
    ((h c).1 2).trans (((dats m 0 c).arrAt_in 2 rfl _).trans (A_eq m c 2)),
    ((h c).1 3).trans (((dats m 0 c).arrAt_in 3 rfl _).trans (A_eq m c 3)),
    ((h c).1 4).trans (((dats m 0 c).arrAt_in 4 rfl _).trans (A_eq m c 4)),
    ((h c).1 5).trans (((dats m 0 c).arrAt_in 5 rfl _).trans (A_eq m c 5)),
    ((h c).1 6).trans (((dats m 0 c).arrAt_in 6 rfl _).trans (A_eq m c 6)),
    ((h c).1 7).trans (((dats m 0 c).arrAt_in 7 rfl _).trans (A_eq m c 7)),
    ((h c).1 8).trans (((dats m 0 c).arrAt_in 8 rfl _).trans (A_eq m c 8)),
    ((h c).1 9).trans (((dats m 0 c).arrAt_in 9 rfl _).trans (A_eq m c 9)),
    ((h c).1 10).trans (((dats m 0 c).arrAt_in 10 rfl _).trans (A_eq m c 10))⟩) (run_main m ρ)

end Cert.KernelIdeal.Hand

end
-- ==== Proof.RefProj.lean ====
import proofs.«101895_j70987219469020_2_alg».proof.Proof.Gen.ReferenceIdeal.Read
import proofs.«101895_j70987219469020_2_alg».proof.Proof.Spec

/-!
# The three linear projections of the reference

The reference forms keys, queries and values the same way: the features times the transposed weight matrix,
plus the bias broadcast down the rows.  Entry `(n, d)` of such a product is the sum over the 256 feature
coordinates of `f_a (n, a) * W (d, a)`, plus `b d`: the specification's `proj`.
-/

noncomputable section

namespace Cert.RefValue

open Cert.ReferenceIdeal Cert.ReferenceIdeal.Read Idealize.ShloMosaic Idealize.ShloMosaic.ValueIdx
open scoped BigOperators

/-- Row `n` of the left operand of a projection's product, at contraction coordinate `k`. -/
theorem proj_lidx (n : Fin 2048) (d : Fin 64) (k : Fin 256) : lidx_main_v9 (ix2 n d) k = ix2 n k :=
  funext fun a => Fin.ext (by match a with | ⟨0, _⟩ => rfl | ⟨1, _⟩ => rfl)

/-- The transposed weight matrix at `(k, d)` is the weight matrix at `(d, k)`. -/
theorem proj_ridx (n : Fin 2048) (d : Fin 64) (k : Fin 256) : idx_main_v8 (ridx_main_v9 (ix2 n d) k) = ix2 d k :=
  funext fun a => Fin.ext (by match a with | ⟨0, _⟩ => rfl | ⟨1, _⟩ => rfl)

/-- The bias broadcast to `[1, 64]` and then down the rows, at `(n, d)`, is the bias at `d`. -/
theorem proj_bidx (n : Fin 2048) (d : Fin 64) : idx_main_v10 (idx_main_v11 (ix2 n d)) = ix1 d :=
  funext fun a => Fin.ext (by match a with | ⟨0, _⟩ => rfl)

/-- The key projection at `(n, d)`. -/
theorem keys_apply (fa : FVec Ideal S2048x256 .f32) (w : FVec Ideal S64x256 .f32) (b : FVec Ideal S64 .f32)
    (n : Fin 2048) (d : Fin 64) :
    val_main_v12 (F := Ideal) fa w b (ix2 n d) = Cert.Spec.proj fa w b n d := by
  rw [val_main_v12_apply, val_main_v9_apply, val_main_v11_apply, val_main_v10_apply]
  simp only [val_main_v8_apply, proj_lidx, proj_ridx, proj_bidx, Ideal.addf_def]
  rfl

/-- The query projection is the same function of its own weights and bias. -/
theorem queries_eq (fa : FVec Ideal S2048x256 .f32) (w : FVec Ideal S64x256 .f32) (b : FVec Ideal S64 .f32) :
    val_main_v17 (F := Ideal) fa w b = val_main_v12 (F := Ideal) fa w b := rfl

/-- The value projection is the same function of its own weights and bias. -/
theorem values_eq (fa : FVec Ideal S2048x256 .f32) (w : FVec Ideal S64x256 .f32) (b : FVec Ideal S64 .f32) :
    val_main_v22 (F := Ideal) fa w b = val_main_v12 (F := Ideal) fa w b := rfl

/-- The query projection at `(n, d)`. -/
theorem queries_apply (fa : FVec Ideal S2048x256 .f32) (w : FVec Ideal S64x256 .f32) (b : FVec Ideal S64 .f32)
    (n : Fin 2048) (d : Fin 64) :
    val_main_v17 (F := Ideal) fa w b (ix2 n d) = Cert.Spec.proj fa w b n d := by
  rw [queries_eq]; exact keys_apply fa w b n d

/-- The value projection at `(n, d)`. -/
theorem values_apply (fa : FVec Ideal S2048x256 .f32) (w : FVec Ideal S64x256 .f32) (b : FVec Ideal S64 .f32)
    (n : Fin 2048) (d : Fin 64) :
    val_main_v22 (F := Ideal) fa w b (ix2 n d) = Cert.Spec.proj fa w b n d := by
  rw [values_eq]; exact keys_apply fa w b n d

end Cert.RefValue

end
-- ==== Proof.RefBias.lean ====
import proofs.«101895_j70987219469020_2_alg».proof.Proof.Gen.ReferenceIdeal.Read
import proofs.«101895_j70987219469020_2_alg».proof.Proof.Spec

/-!
# The geometric bias of the reference

The reference flattens the pairwise embedding `[2048, 2048, 64]` to `[4194304, 64]`, multiplies by the
transposed weight row, adds the one bias number, clamps below at zero, reshapes the column `[4194304, 1]` back to
`[2048, 2048]`, clamps below at the word nearest `10⁻⁶` and takes the logarithm.  Row `m * 2048 + n` of the
flattened embedding is the pair `(m, n)`, so entry `(m, n)` of the result is the specification's `bias`.
-/

noncomputable section

namespace Cert.RefValue

open Cert.ReferenceIdeal Cert.ReferenceIdeal.Read Idealize.ShloMosaic Idealize.ShloMosaic.ValueIdx
open scoped BigOperators

/-- Coordinate `g` of flattened row `m * 2048 + n` is coordinate `g` of the pair `(m, n)`. -/
theorem geo_lidx (m n : Fin 2048) (g : Fin 64) :
    idx_main_v0 (lidx_main_v2 (idx_main_v7 (ix2 m n)) g) = ix3 m n g :=
  funext fun a => Fin.ext (by
    have hm := m.isLt; have hn := n.isLt; have hg := g.isLt
    match a with
    | ⟨0, _⟩ => show ((m.val * 2048 + n.val) / 1 * 64 + g.val) / 131072 = m.val; omega
    | ⟨1, _⟩ => show ((m.val * 2048 + n.val) / 1 * 64 + g.val) / 64 % 2048 = n.val; omega
    | ⟨2, _⟩ => show ((m.val * 2048 + n.val) / 1 * 64 + g.val) % 64 = g.val; omega)

/-- The transposed weight row at `(g, 0)` is the weight row at `(0, g)`. -/
theorem geo_ridx (m n : Fin 2048) (g : Fin 64) :
    idx_main_v1 (ridx_main_v2 (idx_main_v7 (ix2 m n)) g) = ix2 (0 : Fin 1) g :=
  funext fun a => Fin.ext (by match a with | ⟨0, _⟩ => rfl | ⟨1, _⟩ => rfl)

/-- The bias number broadcast to the column is the bias number. -/
theorem geo_bidx (m n : Fin 2048) : idx_main_v3 (idx_main_v4 (idx_main_v7 (ix2 m n))) = ix1 (0 : Fin 1) :=
  funext fun a => Fin.ext (by match a with | ⟨0, _⟩ => rfl)

/-- The clamped projection reshaped to `[2048, 2048]`, at `(m, n)`. -/
theorem relu_geo_apply (pe : FVec Ideal S2048x2048x64 .f32) (wg : FVec Ideal S1x64 .f32) (bg : FVec Ideal S1 .f32)
    (m n : Fin 2048) :
    val_main_v7 (F := Ideal) pe wg bg (ix2 m n)
      = max (Cert.Spec.geo pe wg bg m n) (Ideal.ofBits .f32 0x00000000#32) := by
  rw [val_main_v7_apply, val_main_v6_apply, val_main_v5_apply, val_main_v2_apply, val_main_v4_apply,
    val_main_v3_apply, val_main_call0_v0_apply, val_main_call0_cst_apply]
  simp only [val_main_v0_apply, val_main_v1_apply, geo_lidx, geo_ridx, geo_bidx, Ideal.addf_def, Ideal.maximumf_def,
    Ideal.ofBits_def]
  rfl

/-- The logarithm of the twice-clamped projection, at `(m, n)`: the specification's bias. -/
theorem bias_apply (pe : FVec Ideal S2048x2048x64 .f32) (wg : FVec Ideal S1x64 .f32) (bg : FVec Ideal S1 .f32)
    (m n : Fin 2048) :
    val_main_v29 (F := Ideal) pe wg bg (ix2 m n) = Cert.Spec.bias pe wg bg m n := by
  rw [val_main_v29_apply, val_main_v28_apply, val_main_call1_v1_apply, val_main_call1_v0_apply, val_main_cst_0_apply,
    relu_geo_apply]
  simp only [Ideal.hostUnary_log_def, Ideal.maximumf_def, Ideal.ofBits_def]
  rfl

end Cert.RefValue

end
-- ==== Proof.RefConsts.lean ====
import Idealize.ShloMosaic.PureOps.Ideal

/-!
# The single-precision words the reference spells, as extended reals

The reference scales the key–query products by dividing by `sqrt 64.0`, and starts each row's maximum from
the word of `-∞`.  Here: the word `0xFF800000` denotes `⊥`; the word `0x42800000` denotes the real `64`,
whose square root is `8`; the word `0x3E000000` denotes the real `1/8`; so dividing any extended real by
`sqrt 64.0` is multiplying it by the word of `1/8`.
-/

noncomputable section

namespace Cert.RefConsts

open Idealize.ShloMosaic

/-- The word with sign bit set, all-ones exponent and zero fraction denotes `-∞`. -/
theorem ofBits_negInf : Ideal.ofBits .f32 0xFF800000#32 = (⊥ : EReal) := by
  simp [Ideal.ofBits, Ideal.ieee]

/-- The word `0x42800000` denotes the real `64`. -/
theorem ofBits_64 : Ideal.ofBits .f32 0x42800000#32 = ((64 : ℝ) : EReal) := by
  simp [Ideal.ofBits, Ideal.ieee, -EReal.coe_mul]; norm_num

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The square root of `64` is `8`. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 * 8 by norm_num]
    exact Real.sqrt_mul_self (by norm_num)
  rw [h]

/-- Dividing by `sqrt 64.0` is multiplying by the word of `1/8`, on every extended real. -/
theorem div_sqrt_64 (x : EReal) :
    Ideal.div x (Ideal.sqrt (Ideal.ofBits .f32 0x42800000#32)) = x * Ideal.ofBits .f32 0x3E000000#32 := by
  rw [sqrt_64, Ideal.div_coe (by norm_num : (8 : ℝ) ≠ 0), ofBits_eighth]

end Cert.RefConsts

end
-- ==== Proof.RefScore.lean ====
import proofs.«101895_j70987219469020_2_alg».proof.Proof.RefProj
import proofs.«101895_j70987219469020_2_alg».proof.Proof.RefBias
import proofs.«101895_j70987219469020_2_alg».proof.Proof.RefConsts

/-!
# The score of the reference

Entry `(m, n)` of keys times transposed queries is the sum over the 64 key coordinates of `K (m, d) * Q (n, d)`;
the reference divides it by `sqrt 64.0`, which on every extended real is multiplying by the word of `1/8`, and adds
the geometric bias: the specification's `score`.
-/

noncomputable section

namespace Cert.RefValue

open Cert.ReferenceIdeal Cert.ReferenceIdeal.Read Idealize.ShloMosaic Idealize.ShloMosaic.ValueIdx
open scoped BigOperators

/-- Row `m` of the keys at contraction coordinate `d`. -/
theorem dot_lidx (m n : Fin 2048) (d : Fin 64) : lidx_main_v24 (ix2 m n) d = ix2 m d :=
  funext fun a => Fin.ext (by match a with | ⟨0, _⟩ => rfl | ⟨1, _⟩ => rfl)

/-- The transposed queries at `(d, n)` are the queries at `(n, d)`. -/
theorem dot_ridx (m n : Fin 2048) (d : Fin 64) : idx_main_v23 (ridx_main_v24 (ix2 m n) d) = ix2 n d :=
  funext fun a => Fin.ext (by match a with | ⟨0, _⟩ => rfl | ⟨1, _⟩ => rfl)

/-- The scaled key–query product at `(m, n)`. -/
theorem scaled_dot_apply (fa : FVec Ideal S2048x256 .f32) (wk : FVec Ideal S64x256 .f32) (bk : FVec Ideal S64 .f32)
    (wq : FVec Ideal S64x256 .f32) (bq : FVec Ideal S64 .f32) (m n : Fin 2048) :
    val_main_v27 (F := Ideal) fa wk bk wq bq (ix2 m n)
      = (∑ d : Fin 64, Cert.Spec.proj fa wk bk m d * Cert.Spec.proj fa wq bq n d)
          * Ideal.ofBits .f32 Cert.Spec.eighthW := by
  rw [val_main_v27_apply, val_main_v24_apply, val_main_v26_apply, val_main_v25_apply, val_main_cst_apply]
  simp only [val_main_v23_apply, dot_lidx, dot_ridx, keys_apply, queries_apply, Ideal.hostDivf_def,
    Ideal.hostUnary_sqrt_def, Ideal.ofBits_def]
  exact Cert.RefConsts.div_sqrt_64 _

/-- The score at `(m, n)`. -/
theorem score_apply (fa : FVec Ideal S2048x256 .f32) (pe : FVec Ideal S2048x2048x64 .f32) (wg : FVec Ideal S1x64 .f32)
    (bg : FVec Ideal S1 .f32) (wk : FVec Ideal S64x256 .f32) (bk : FVec Ideal S64 .f32)
    (wq : FVec Ideal S64x256 .f32) (bq : FVec Ideal S64 .f32) (m n : Fin 2048) :
    val_main_v30 (F := Ideal) fa pe wg bg wk bk wq bq (ix2 m n)
      = Cert.Spec.score fa pe wg bg wk bk wq bq m n := by
  rw [val_main_v30_apply, bias_apply, scaled_dot_apply, Ideal.addf_def]
  rfl

end Cert.RefValue

end
-- ==== Proof.RefSoftmax.lean ====
import proofs.«101895_j70987219469020_2_alg».proof.Proof.RefScore

/-!
# The softmax along a row, and the weighted sum of the values

The reference takes each row's maximum by a reduction from the word of `-∞` (and then once more against a
broadcast `-∞`, which changes nothing), subtracts it, exponentiates, sums each row from the zero word, divides,
and multiplies the weights by the values.  Row `m` of each reduction runs over the 2048 entries `(m, n)`, so
these are the specification's `rowMax`, `rowSum` and `attend` of the row of scores.
-/

noncomputable section

namespace Cert.RefValue

open Cert.ReferenceIdeal Cert.ReferenceIdeal.Gen Cert.ReferenceIdeal.Read Idealize.ShloMosaic Idealize.ShloMosaic.ValueIdx
open scoped BigOperators

/-- The reduced index `m` with column `k` put back is `(m, k)`. -/
theorem row_lift (h : S2048x2048.Reduces [1] S2048) (m : Fin 2048) (k : Fin (S2048x2048.size 1)) :
    h.lift (ix1 m) k = ix2 m (⟨k.val, k.isLt⟩ : Fin 2048) := by
  funext c; apply Fin.ext
  fin_cases c <;> rfl

/-- From `-∞` the reduction with a maximum body along a row is the row's largest entry. -/
theorem hostRowMax (s : FVec Ideal S2048x2048 .f32) (m : Fin 2048) :
    Host.reduce FloatOps.maximumf s (val_main_cst_1 (F := Ideal)) reducesTo_S2048x2048_S2048_d1 h_S_ (ix1 m)
      = Cert.Spec.rowMax (fun n => s (ix2 m n)) := by
  have h : S2048x2048.Reduces [1] S2048 := by decide
  rw [Host.reduce_eq_fold_single FloatOps.maximumf s _ reducesTo_S2048x2048_S2048_d1 h h_S_]
  have hf : (s ∘ h.lift (ix1 m)) = fun n : Fin 2048 => s (ix2 m n) :=
    funext fun k => congrArg s (row_lift h m k)
  unfold Cert.Spec.rowMax
  show Finset.fold max (Ideal.ofBits .f32 0xFF800000#32) (s ∘ h.lift (ix1 m)) (Finset.univ : Finset (Fin 2048)) = _
  rw [hf, Cert.RefConsts.ofBits_negInf]
  rfl

section Rows

variable (fa : FVec Ideal S2048x256 .f32) (pe : FVec Ideal S2048x2048x64 .f32) (wg : FVec Ideal S1x64 .f32)
  (bg : FVec Ideal S1 .f32) (wk : FVec Ideal S64x256 .f32) (bk : FVec Ideal S64 .f32)
  (wq : FVec Ideal S64x256 .f32) (bq : FVec Ideal S64 .f32)

/-- The row maximum the reference subtracts, at row `m`. -/
theorem rowmax_apply (m : Fin 2048) :
    val_main_v33 (F := Ideal) fa pe wg bg wk bk wq bq (ix1 m)
      = Cert.Spec.rowMax (fun n => Cert.Spec.score fa pe wg bg wk bk wq bq m n) := by
  rw [val_main_v33_apply, val_main_v32_apply, val_main_cst_2_apply]
  unfold val_main_v31
  rw [hostRowMax, Ideal.maximumf_def, Ideal.ofBits_def, Cert.RefConsts.ofBits_negInf, max_bot_left]
  simp only [score_apply]

/-- The row maximum broadcast back along the row. -/
theorem rowmax_bidx (m n : Fin 2048) : idx_main_v34 (idx_main_v35 (ix2 m n)) = ix1 m :=
  funext fun a => Fin.ext (by match a with | ⟨0, _⟩ => rfl)

/-- The exponential of the shifted score, at `(m, n)`. -/
theorem exp_apply (m n : Fin 2048) :
    val_main_v37 (F := Ideal) fa pe wg bg wk bk wq bq (ix2 m n)
      = Ideal.exp (Cert.Spec.score fa pe wg bg wk bk wq bq m n
          - Cert.Spec.rowMax (fun n => Cert.Spec.score fa pe wg bg wk bk wq bq m n)) := by
  rw [val_main_v37_apply, val_main_v36_apply, val_main_v35_apply, val_main_v34_apply, rowmax_bidx, rowmax_apply,
    score_apply, Ideal.hostUnary_exp_def, Ideal.subf_def]

/-- Entry `k` of row `m`. -/
theorem rowsum_idx (m k : Fin 2048) : idx_main_v38 (ix1 m) k = ix2 m k :=
  funext fun a => Fin.ext (by match a with | ⟨0, _⟩ => rfl | ⟨1, _⟩ => rfl)

/-- The normaliser of row `m`. -/
theorem rowsum_apply (m : Fin 2048) :
    val_main_v38 (F := Ideal) fa pe wg bg wk bk wq bq (ix1 m)
      = Cert.Spec.rowSum (fun n => Cert.Spec.score fa pe wg bg wk bk wq bq m n) := by
  rw [val_main_v38_apply, val_main_cst_3_apply, Ideal.ofBits_def, Ideal.ofBits_zero_f32, zero_add]
  simp only [rowsum_idx, exp_apply]
  rfl

/-- The normaliser broadcast back along the row. -/
theorem rowsum_bidx (m n : Fin 2048) : idx_main_v39 (idx_main_v40 (ix2 m n)) = ix1 m :=
  funext fun a => Fin.ext (by match a with | ⟨0, _⟩ => rfl)

/-- The softmax weight at `(m, n)`. -/
theorem weight_apply (m n : Fin 2048) :
    val_main_v41 (F := Ideal) fa pe wg bg wk bk wq bq (ix2 m n)
      = Ideal.div
          (Ideal.exp (Cert.Spec.score fa pe wg bg wk bk wq bq m n
            - Cert.Spec.rowMax (fun n => Cert.Spec.score fa pe wg bg wk bk wq bq m n)))
          (Cert.Spec.rowSum (fun n => Cert.Spec.score fa pe wg bg wk bk wq bq m n)) := by
  rw [val_main_v41_apply, val_main_v40_apply, val_main_v39_apply, rowsum_bidx, rowsum_apply, exp_apply,
    Ideal.hostDivf_def]

end Rows

end Cert.RefValue

end
-- ==== Proof.RefValue.lean ====
import proofs.«101895_j70987219469020_2_alg».proof.Proof.Gen.ReferenceIdeal.Run
import proofs.«101895_j70987219469020_2_alg».proof.Proof.Gen.ReferenceIdeal.Read
import proofs.«101895_j70987219469020_2_alg».proof.Proof.Spec
import proofs.«101895_j70987219469020_2_alg».proof.Proof.RefSoftmax
import proofs.«101895_j70987219469020_2_alg».proof.Defs

/-!
# The reference computes the specification

Entry `(m, h)` of the reference's result is the sum over `n` of the softmax weight `(m, n)` times the value
`(n, h)`.  With the weights and the values read entry by entry, that is the specification's `G`: the two are the
same arrangement of the same sums, so no finiteness of the inputs is needed.  Hence every weakly fair execution of
the reference ends with its result at `G` of the arguments and the arguments unchanged.
-/

noncomputable section

namespace Cert.RefValue

open Cert.ReferenceIdeal Cert.ReferenceIdeal.Gen Cert.ReferenceIdeal.Read Idealize.ShloMosaic Idealize.ShloMosaic.TcCoe
  Idealize.SL.Sem Idealize.ShloMosaic.ValueIdx
open scoped BigOperators

/-- Row `m` of the weights at contraction coordinate `n`. -/
theorem out_lidx (m : Fin 2048) (h : Fin 64) (n : Fin 2048) : lidx_main_v42 (ix2 m h) n = ix2 m n :=
  funext fun a => Fin.ext (by match a with | ⟨0, _⟩ => rfl | ⟨1, _⟩ => rfl)

/-- Column `h` of the values at contraction coordinate `n`. -/
theorem out_ridx (m : Fin 2048) (h : Fin 64) (n : Fin 2048) : ridx_main_v42 (ix2 m h) n = ix2 n h :=
  funext fun a => Fin.ext (by match a with | ⟨0, _⟩ => rfl | ⟨1, _⟩ => rfl)

/-- The reference's result, as a function of its ten argument arrays, is the specification. -/
theorem ref_eq_G (a0 : FVec Ideal S2048x256 .f32) (a1 : FVec Ideal S2048x2048x64 .f32) (a2 : FVec Ideal S1x64 .f32)
    (a3 : FVec Ideal S1 .f32) (a4 : FVec Ideal S64x256 .f32) (a5 : FVec Ideal S64 .f32)
    (a6 : FVec Ideal S64x256 .f32) (a7 : FVec Ideal S64 .f32) (a8 : FVec Ideal S64x256 .f32)
    (a9 : FVec Ideal S64 .f32) :
    val_main_v42 (F := Ideal) a0 a1 a2 a3 a4 a5 a6 a7 a8 a9 = Cert.Spec.G a0 a1 a2 a3 a4 a5 a6 a7 a8 a9 := by
  funext i
  obtain ⟨m, h, rfl⟩ : ∃ (m : Fin 2048) (h : Fin 64), i = ix2 m h := ⟨i 0, i 1, eq_ix2 i⟩
  rw [val_main_v42_apply]
  simp only [out_lidx, out_ridx, weight_apply, values_apply]
  rfl

/-- The reference's frame: it runs, and its arguments end unchanged. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Every weakly fair execution of the reference ends with its result at the specification of the arguments'
    launch contents, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v42)
        = Cert.Spec.G (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run defs _ _).mono
    (fun _ h c => ⟨(h c).1.trans ((val_main_v42_eq m' c).trans (ref_eq_G _ _ _ _ _ _ _ _ _ _)), (h c).2⟩)
    (Cert.ReferenceIdeal.Value.run (F := Ideal) m' ρ')

end Cert.RefValue

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«101895_j70987219469020_2_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«101895_j70987219469020_2_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.PreFinite.lean ====
import proofs.«101895_j70987219469020_2_alg».proof.Defs
import Idealize.ShloMosaic.Lib.ReduceAll
import proofs.«101895_j70987219469020_2_alg».proof.Proof.LibFiniteEntry

/-!
# Under the precondition every entry of every argument is a real number

The precondition is the conjunction, over the ten argument arrays, of "every entry is below `+∞` in absolute
value": per array a comparison entry by entry, reduced by `and` over all axes from the constant one, and the ten
one-bit results joined by `and`.  If the whole is one then each reduction is one, so each comparison is one at every
index, and an extended real whose absolute value is below `⊤` is neither `⊤` nor `⊥`.
-/

noncomputable section

namespace Cert.RefValue

open Idealize.ShloMosaic Idealize.ShloMosaic.ValueIdx Idealize.ShloMosaic.TcCoe Idealize.SL.Sem Cert.RealEntries
  Cert.Pre_finite_inputs

variable [Cert.Pre_finite_inputs.Facts]

/-- The scalar shape has one index. -/
instance subsingleton_scalar_idx : Subsingleton S_.Idx := ⟨fun _ _ => funext fun d => d.elim0⟩

/-- A real number is neither infinity. -/
theorem isR_ne_top_bot {x : EReal} (h : IsR x) : x ≠ (⊤ : EReal) ∧ x ≠ (⊥ : EReal) := by
  obtain ⟨r, rfl⟩ := h
  exact ⟨EReal.coe_ne_top r, EReal.coe_ne_bot r⟩

/-- One array's test: if "all entries are below `+∞` in absolute value" came out one, every entry is real. -/
theorem all_finite {s : Shape} {axes : List (Fin s.rank)} (x : FVec Ideal s .f32) (hb : S_.BroadcastsInDim s ![])
    (hr : s.ReducesTo axes S_) (hu : 0 < S_.numel) (init : IVec S_ 1)
    (e : Host.reduce IntOp.andi
          (cmpf .olt (Host.absf x) (broadcastInDim s ![] hb (constant (F := Ideal) S_ .f32 0x7F800000#32))) init hr hu ix0
        = 1#1) (i : s.Idx) : IsR (x i) :=
  Cert.FiniteEntry.isR_of_cmp x hb i (Host.reduce_andi_all _ init hr hu ix0 e i)

/-- The printed predicate, all ones, says every entry of each of its ten arguments is a real number. -/
theorem fn_finite (a0 : FVec Ideal S2048x256 .f32) (a1 : FVec Ideal S2048x2048x64 .f32) (a2 : FVec Ideal S1x64 .f32) (a3 : FVec Ideal S1 .f32) (a4 : FVec Ideal S64x256 .f32) (a5 : FVec Ideal S64 .f32) (a6 : FVec Ideal S64x256 .f32) (a7 : FVec Ideal S64 .f32) (a8 : FVec Ideal S64x256 .f32) (a9 : FVec Ideal S64 .f32)
    (h : Cert.Pre_finite_inputs.fn (F := Ideal) a0 a1 a2 a3 a4 a5 a6 a7 a8 a9 = fun _ => 1#1) :
    (∀ i, IsR (a0 i)) ∧ (∀ i, IsR (a1 i)) ∧ (∀ i, IsR (a2 i)) ∧ (∀ i, IsR (a3 i)) ∧ (∀ i, IsR (a4 i))
      ∧ (∀ i, IsR (a5 i)) ∧ (∀ i, IsR (a6 i)) ∧ (∀ i, IsR (a7 i)) ∧ (∀ i, IsR (a8 i)) ∧ (∀ i, IsR (a9 i)) := by
  have h0 := congrFun h ix0
  dsimp only [Cert.Pre_finite_inputs.fn, Cert.Pre_finite_inputs.fn_part1, Cert.Pre_finite_inputs.fn_part2] at h0
  obtain ⟨g8, e9⟩ := IntOp.andi_eq_one.1 h0
  obtain ⟨g7, e8⟩ := IntOp.andi_eq_one.1 g8
  obtain ⟨g6, e7⟩ := IntOp.andi_eq_one.1 g7
  obtain ⟨g5, e6⟩ := IntOp.andi_eq_one.1 g6
  obtain ⟨g4, e5⟩ := IntOp.andi_eq_one.1 g5
  obtain ⟨g3, e4⟩ := IntOp.andi_eq_one.1 g4
  obtain ⟨g2, e3⟩ := IntOp.andi_eq_one.1 g3
  obtain ⟨g1, e2⟩ := IntOp.andi_eq_one.1 g2
  obtain ⟨e0, e1⟩ := IntOp.andi_eq_one.1 g1
  exact ⟨all_finite a0 _ _ _ _ e0, all_finite a1 _ _ _ _ e1, all_finite a2 _ _ _ _ e2, all_finite a3 _ _ _ _ e3,
    all_finite a4 _ _ _ _ e4, all_finite a5 _ _ _ _ e5, all_finite a6 _ _ _ _ e6, all_finite a7 _ _ _ _ e7,
    all_finite a8 _ _ _ _ e8, all_finite a9 _ _ _ _ e9⟩

/-- Under the kernel's precondition every entry of every argument array, on every device, is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR ((m ((c.tc : Thread Cert.KernelIdeal.nD Cert.KernelIdeal.τ).loc Cert.KernelIdeal.main_arg0) : FVec Ideal S2048x256 .f32) i))
    ∧ (∀ i, IsR ((m ((c.tc : Thread Cert.KernelIdeal.nD Cert.KernelIdeal.τ).loc Cert.KernelIdeal.main_arg1) : FVec Ideal S2048x2048x64 .f32) i))
    ∧ (∀ i, IsR ((m ((c.tc : Thread Cert.KernelIdeal.nD Cert.KernelIdeal.τ).loc Cert.KernelIdeal.main_arg2) : FVec Ideal S1x64 .f32) i))
    ∧ (∀ i, IsR ((m ((c.tc : Thread Cert.KernelIdeal.nD Cert.KernelIdeal.τ).loc Cert.KernelIdeal.main_arg3) : FVec Ideal S1 .f32) i))
    ∧ (∀ i, IsR ((m ((c.tc : Thread Cert.KernelIdeal.nD Cert.KernelIdeal.τ).loc Cert.KernelIdeal.main_arg4) : FVec Ideal S64x256 .f32) i))
    ∧ (∀ i, IsR ((m ((c.tc : Thread Cert.KernelIdeal.nD Cert.KernelIdeal.τ).loc Cert.KernelIdeal.main_arg5) : FVec Ideal S64 .f32) i))
    ∧ (∀ i, IsR ((m ((c.tc : Thread Cert.KernelIdeal.nD Cert.KernelIdeal.τ).loc Cert.KernelIdeal.main_arg6) : FVec Ideal S64x256 .f32) i))
    ∧ (∀ i, IsR ((m ((c.tc : Thread Cert.KernelIdeal.nD Cert.KernelIdeal.τ).loc Cert.KernelIdeal.main_arg7) : FVec Ideal S64 .f32) i))
    ∧ (∀ i, IsR ((m ((c.tc : Thread Cert.KernelIdeal.nD Cert.KernelIdeal.τ).loc Cert.KernelIdeal.main_arg8) : FVec Ideal S64x256 .f32) i))
    ∧ (∀ i, IsR ((m ((c.tc : Thread Cert.KernelIdeal.nD Cert.KernelIdeal.τ).loc Cert.KernelIdeal.main_arg9) : FVec Ideal S64 .f32) i)) :=
  fn_finite _ _ _ _ _ _ _ _ _ _ (h c)

/-- The same, entry by entry: neither `⊤` nor `⊥`. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg0) : FVec Ideal S2048x256 .f32) i ≠ (⊤ : EReal) ∧ (m ((c.tc : Thread Cert.KernelIdeal.nD Cert.KernelIdeal.τ).loc Cert.KernelIdeal.main_arg0) : FVec Ideal S2048x256 .f32) i ≠ (⊥ : EReal))
    ∧ (∀ i, (m ((c.tc : Thread Cert.KernelIdeal.nD Cert.KernelIdeal.τ).loc Cert.KernelIdeal.main_arg1) : FVec Ideal S2048x2048x64 .f32) i ≠ (⊤ : EReal) ∧ (m ((c.tc : Thread Cert.KernelIdeal.nD Cert.KernelIdeal.τ).loc Cert.KernelIdeal.main_arg1) : FVec Ideal S2048x2048x64 .f32) i ≠ (⊥ : EReal))
    ∧ (∀ i, (m ((c.tc : Thread Cert.KernelIdeal.nD Cert.KernelIdeal.τ).loc Cert.KernelIdeal.main_arg2) : FVec Ideal S1x64 .f32) i ≠ (⊤ : EReal) ∧ (m ((c.tc : Thread Cert.KernelIdeal.nD Cert.KernelIdeal.τ).loc Cert.KernelIdeal.main_arg2) : FVec Ideal S1x64 .f32) i ≠ (⊥ : EReal))
    ∧ (∀ i, (m ((c.tc : Thread Cert.KernelIdeal.nD Cert.KernelIdeal.τ).loc Cert.KernelIdeal.main_arg3) : FVec Ideal S1 .f32) i ≠ (⊤ : EReal) ∧ (m ((c.tc : Thread Cert.KernelIdeal.nD Cert.KernelIdeal.τ).loc Cert.KernelIdeal.main_arg3) : FVec Ideal S1 .f32) i ≠ (⊥ : EReal))
    ∧ (∀ i, (m ((c.tc : Thread Cert.KernelIdeal.nD Cert.KernelIdeal.τ).loc Cert.KernelIdeal.main_arg4) : FVec Ideal S64x256 .f32) i ≠ (⊤ : EReal) ∧ (m ((c.tc : Thread Cert.KernelIdeal.nD Cert.KernelIdeal.τ).loc Cert.KernelIdeal.main_arg4) : FVec Ideal S64x256 .f32) i ≠ (⊥ : EReal))
    ∧ (∀ i, (m ((c.tc : Thread Cert.KernelIdeal.nD Cert.KernelIdeal.τ).loc Cert.KernelIdeal.main_arg5) : FVec Ideal S64 .f32) i ≠ (⊤ : EReal) ∧ (m ((c.tc : Thread Cert.KernelIdeal.nD Cert.KernelIdeal.τ).loc Cert.KernelIdeal.main_arg5) : FVec Ideal S64 .f32) i ≠ (⊥ : EReal))
    ∧ (∀ i, (m ((c.tc : Thread Cert.KernelIdeal.nD Cert.KernelIdeal.τ).loc Cert.KernelIdeal.main_arg6) : FVec Ideal S64x256 .f32) i ≠ (⊤ : EReal) ∧ (m ((c.tc : Thread Cert.KernelIdeal.nD Cert.KernelIdeal.τ).loc Cert.KernelIdeal.main_arg6) : FVec Ideal S64x256 .f32) i ≠ (⊥ : EReal))
    ∧ (∀ i, (m ((c.tc : Thread Cert.KernelIdeal.nD Cert.KernelIdeal.τ).loc Cert.KernelIdeal.main_arg7) : FVec Ideal S64 .f32) i ≠ (⊤ : EReal) ∧ (m ((c.tc : Thread Cert.KernelIdeal.nD Cert.KernelIdeal.τ).loc Cert.KernelIdeal.main_arg7) : FVec Ideal S64 .f32) i ≠ (⊥ : EReal))
    ∧ (∀ i, (m ((c.tc : Thread Cert.KernelIdeal.nD Cert.KernelIdeal.τ).loc Cert.KernelIdeal.main_arg8) : FVec Ideal S64x256 .f32) i ≠ (⊤ : EReal) ∧ (m ((c.tc : Thread Cert.KernelIdeal.nD Cert.KernelIdeal.τ).loc Cert.KernelIdeal.main_arg8) : FVec Ideal S64x256 .f32) i ≠ (⊥ : EReal))
    ∧ (∀ i, (m ((c.tc : Thread Cert.KernelIdeal.nD Cert.KernelIdeal.τ).loc Cert.KernelIdeal.main_arg9) : FVec Ideal S64 .f32) i ≠ (⊤ : EReal) ∧ (m ((c.tc : Thread Cert.KernelIdeal.nD Cert.KernelIdeal.τ).loc Cert.KernelIdeal.main_arg9) : FVec Ideal S64 .f32) i ≠ (⊥ : EReal)) := by
  obtain ⟨r0, r1, r2, r3, r4, r5, r6, r7, r8, r9⟩ := real_of_pre m h c
  exact ⟨fun i => isR_ne_top_bot (r0 i), fun i => isR_ne_top_bot (r1 i), fun i => isR_ne_top_bot (r2 i),
    fun i => isR_ne_top_bot (r3 i), fun i => isR_ne_top_bot (r4 i), fun i => isR_ne_top_bot (r5 i), fun i => isR_ne_top_bot (r6 i),
    fun i => isR_ne_top_bot (r7 i), fun i => isR_ne_top_bot (r8 i), fun i => isR_ne_top_bot (r9 i)⟩

end Cert.RefValue

end
-- ==== Proof.lean ====
/-
  The certificate of the attention kernel with a geometric bias against its reference.

  Both programs compute, for every item `m`, the softmax-weighted sum over all items `n` of the value projection
  of `n`, the weights being the softmax of `log (max ε (max (pe(m,n,·) · wg + bg) 0)) + (K m · Q n) / 8` along `n`
  (`Cert.Spec.G`).  The reference computes it in that arrangement.  The kernel walks the items in row tiles of 256 and
  column tiles of 128 and never holds a whole row of scores: per row it carries a running maximum, a running
  normaliser and a running weighted sum, rescaling them when the maximum grows, and divides at the end; with real
  scores and values the two arrangements agree, and the scores are real because the clamp keeps the logarithm's
  argument at or above the positive `ε` and every input is finite.  The kernel's `1/8` is an exact power of two and the
  reference's `sqrt 64` is `8`, so the scale is the same number on both sides; a change of float format is the identity
  on the extended reals.

  The frames: the reference is a straight run of host operations; each kernel program terminates and leaves its
  arguments alone because they are only ever read through input windows (the features array through two of them).
  The idealization rewrote nothing, so `preserves` holds trivially.
-/
import proofs.«101895_j70987219469020_2_alg».proof.Defs
import proofs.«101895_j70987219469020_2_alg».proof.Proof.Gen.Kernel
import proofs.«101895_j70987219469020_2_alg».proof.Proof.Gen.Kernel.Skeleton
import proofs.«101895_j70987219469020_2_alg».proof.Proof.Gen.Kernel.Launch
import proofs.«101895_j70987219469020_2_alg».proof.Proof.Gen.Kernel.Points
import proofs.«101895_j70987219469020_2_alg».proof.Proof.Gen.KernelIdeal
import proofs.«101895_j70987219469020_2_alg».proof.Proof.Gen.KernelIdeal.Skeleton
import proofs.«101895_j70987219469020_2_alg».proof.Proof.Gen.KernelIdeal.Launch
import proofs.«101895_j70987219469020_2_alg».proof.Proof.Gen.KernelIdeal.Points
import proofs.«101895_j70987219469020_2_alg».proof.Proof.Gen.ReferenceIdeal
import proofs.«101895_j70987219469020_2_alg».proof.Proof.Gen.Pre_finite_inputs
import proofs.«101895_j70987219469020_2_alg».proof.Proof.KFrameRun
import proofs.«101895_j70987219469020_2_alg».proof.Proof.KFinal
import proofs.«101895_j70987219469020_2_alg».proof.Proof.RefValue
import proofs.«101895_j70987219469020_2_alg».proof.Proof.PreFinite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- From memories agreeing on the arguments, finite by the precondition, the idealized kernel ends with its result
    array at the specification of its arguments and the reference with its result at the specification of the same
    arguments. -/
theorem algebraic : Cert.algebraic_KernelIdeal_ReferenceIdeal := by
  intro m ρ m' ρ' hpre hagree
  have hr : ∀ c, Cert.KernelIdeal.Hand.AllReal m c := fun c => Cert.RefValue.finite_of_pre m hpre c
  refine ⟨fun c => Cert.KernelIdeal.Hand.Gout m c, Cert.KernelIdeal.Hand.kernel_run m ρ hr, ?_⟩
  refine (θ_run Cert.ReferenceIdeal.defs _ _).mono (fun _ h c => ?_) (Cert.RefValue.ref_run m' ρ')
  obtain ⟨h0, hrest⟩ := h c
  obtain ⟨e0, e1, e2, e3, e4, e5, e6, e7, e8, e9⟩ := hagree c
  refine ⟨h0.trans ?_, hrest⟩
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
